-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v199)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v199) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S50000x64 : Shape := ⟨2, ![50000, 64]⟩
abbrev S64x128 : Shape := ⟨2, ![64, 128]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S2 : Shape := ⟨1, ![2]⟩
abbrev S2x400000 : Shape := ⟨2, ![2, 400000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg18 : FVec F S2 .f32) (main_v83 : IVec S_ 1) (main_v84 : FVec F S2x64 .f32) (main_cst_32 : FVec F S_ .f32) : IVec S_ 1 :=
  let main_v85 : FVec F S2x64 .f32 := broadcastInDim S2x64 ![] bcast_S_S2x64 main_cst_32
  let main_v86 : IVec S2x64 1 := cmpf .olt main_v84 main_v85
  let main_c_33 : IVec S_ 1 := constantI S_ 1 1#1
  let main_v87 : IVec S_ 1 := (fun x v => Host.reduce IntOp.andi x v reducesTo_S2x64_S_d0_1 h_S_) main_v86 main_c_33
  let main_v88 : IVec S_ 1 := andi main_v83 main_v87
  let main_v89 : FVec F S2 .f32 := Host.absf main_arg18
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  main_v93

def fn_part4 {F : FTy → Type} [FloatOps F] (main_arg14 : FVec F S2x64x64 .f32) (main_arg15 : FVec F S64x128 .f32) (main_arg16 : FVec F S64 .f32) (main_arg17 : FVec F S2x64 .f32) (main_arg18 : FVec F S2 .f32) (main_v63 : IVec S_ 1) (main_v67 : IVec S_ 1) : IVec S_ 1 :=
  let main_v68 : IVec S_ 1 := andi main_v63 main_v67
  let main_v69 : FVec F S2x64x64 .f32 := Host.absf main_arg14
  let main_cst_26 : FVec F S_ .f32 := constant S_ .f32 0x7F800000#32
  let main_v70 : FVec F S2x64x64 .f32 := broadcastInDim S2x64x64 ![] bcast_S_S2x64x64 main_cst_26
  let main_v71 : IVec S2x64x64 1 := cmpf .olt main_v69 main_v70
  let main_c_27 : IVec S_ 1 := constantI S_ 1 1#1
  let main_v72 : IVec S_ 1 := (fun x v => Host.reduce IntOp.andi x v reducesTo_S2x64x64_S_d0_1_2 h_S_) main_v71 main_c_27
  let main_v73 : IVec S_ 1 := andi main_v68 main_v72
  let main_v74 : FVec F S64x128 .f32 := Host.absf main_arg15
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S2x64 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2x64x64 .f32) (main_arg12 : FVec F S2x64x64 .f32) (main_arg13 : FVec F S2x64 .f32) (main_arg14 : FVec F S2x64x64 .f32) (main_arg15 : FVec F S64x128 .f32) (main_arg16 : FVec F S64 .f32) (main_arg17 : FVec F S2x64 .f32) (main_arg18 : FVec F S2 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2x64x64 .f32 := Host.absf main_arg11
  let main_cst_20 : FVec F S_ .f32 := constant S_ .f32 0x7F800000#32
  let main_v55 : FVec F S2x64x64 .f32 := broadcastInDim S2x64x64 ![] bcast_S_S2x64x64 main_cst_20
  let main_v56 : IVec S2x64x64 1 := cmpf .olt main_v54 main_v55
  let main_c_21 : IVec S_ 1 := constantI S_ 1 1#1
  let main_v57 : IVec S_ 1 := (fun x v => Host.reduce IntOp.andi x v reducesTo_S2x64x64_S_d0_1_2 h_S_) main_v56 main_c_21
  let main_v58 : IVec S_ 1 := andi main_v53 main_v57
  let main_v59 : FVec F S2x64x64 .f32 := Host.absf main_arg12
  let main_cst_22 : FVec F S_ .f32 := constant S_ .f32 0x7F800000#32
  let main_v60 : FVec F S2x64x64 .f32 := broadcastInDim S2x64x64 ![] bcast_S_S2x64x64 main_cst_22
  let main_v61 : IVec S2x64x64 1 := cmpf .olt main_v59 main_v60
  let main_c_23 : IVec S_ 1 := constantI S_ 1 1#1
  let main_v62 : IVec S_ 1 := (fun x v => Host.reduce IntOp.andi x v reducesTo_S2x64x64_S_d0_1_2 h_S_) main_v61 main_c_23
  let main_v63 : IVec S_ 1 := andi main_v58 main_v62
  let main_v64 : FVec F S2x64 .f32 := Host.absf main_arg13
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg14 main_arg15 main_arg16 main_arg17 main_arg18 main_v63 main_v67

def fn_part2 {F : FTy → Type} [FloatOps F] (main_arg7 : FVec F S2x64 .f32) (main_arg8 : FVec F S2x64x64 .f32) (main_arg9 : FVec F S2x64x64 .f32) (main_arg10 : FVec F S2x64 .f32) (main_arg11 : FVec F S2x64x64 .f32) (main_arg12 : FVec F S2x64x64 .f32) (main_arg13 : FVec F S2x64 .f32) (main_arg14 : FVec F S2x64x64 .f32) (main_arg15 : FVec F S64x128 .f32) (main_arg16 : FVec F S64 .f32) (main_arg17 : FVec F S2x64 .f32) (main_arg18 : FVec F S2 .f32) (main_v33 : IVec S_ 1) : IVec S_ 1 :=
  let main_v34 : FVec F S2x64 .f32 := Host.absf main_arg7
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64x64 .f32 := Host.absf main_arg8
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S2x64x64 .f32 := Host.absf main_arg9
  let main_cst_16 : FVec F S_ .f32 := constant S_ .f32 0x7F800000#32
  let main_v45 : FVec F S2x64x64 .f32 := broadcastInDim S2x64x64 ![] bcast_S_S2x64x64 main_cst_16
  let main_v46 : IVec S2x64x64 1 := cmpf .olt main_v44 main_v45
  let main_c_17 : IVec S_ 1 := constantI S_ 1 1#1
  let main_v47 : IVec S_ 1 := (fun x v => Host.reduce IntOp.andi x v reducesTo_S2x64x64_S_d0_1_2 h_S_) main_v46 main_c_17
  let main_v48 : IVec S_ 1 := andi main_v43 main_v47
  let main_v49 : FVec F S2x64 .f32 := Host.absf main_arg10
  let main_cst_18 : FVec F S_ .f32 := constant S_ .f32 0x7F800000#32
  let main_v50 : FVec F S2x64 .f32 := broadcastInDim S2x64 ![] bcast_S_S2x64 main_cst_18
  fn_part3 (F := F) main_arg11 main_arg12 main_arg13 main_arg14 main_arg15 main_arg16 main_arg17 main_arg18 main_v48 main_v49 main_v50

def fn_part1 {F : FTy → Type} [FloatOps F] (main_arg4 : FVec F S64x64 .f32) (main_arg5 : FVec F S64 .f32) (main_arg6 : FVec F S2x64x64 .f32) (main_arg7 : FVec F S2x64 .f32) (main_arg8 : FVec F S2x64x64 .f32) (main_arg9 : FVec F S2x64x64 .f32) (main_arg10 : FVec F S2x64 .f32) (main_arg11 : FVec F S2x64x64 .f32) (main_arg12 : FVec F S2x64x64 .f32) (main_arg13 : FVec F S2x64 .f32) (main_arg14 : FVec F S2x64x64 .f32) (main_arg15 : FVec F S64x128 .f32) (main_arg16 : FVec F S64 .f32) (main_arg17 : FVec F S2x64 .f32) (main_arg18 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64x64 .f32 := Host.absf main_arg6
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S200000x128 .f32) (main_arg1 : FVec F S50000x64 .f32) (main_arg2 : FVec F S64x128 .f32) (main_arg3 : FVec F S64 .f32) (main_arg4 : FVec F S64x64 .f32) (main_arg5 : FVec F S64 .f32) (main_arg6 : FVec F S2x64x64 .f32) (main_arg7 : FVec F S2x64 .f32) (main_arg8 : FVec F S2x64x64 .f32) (main_arg9 : FVec F S2x64x64 .f32) (main_arg10 : FVec F S2x64 .f32) (main_arg11 : FVec F S2x64x64 .f32) (main_arg12 : FVec F S2x64x64 .f32) (main_arg13 : FVec F S2x64 .f32) (main_arg14 : FVec F S2x64x64 .f32) (main_arg15 : FVec F S64x128 .f32) (main_arg16 : FVec F S64 .f32) (main_arg17 : FVec F S2x64 .f32) (main_arg18 : FVec F S2 .f32) (main_arg19 : IVec S2x400000 32) (main_arg20 : IVec S2x400000 32) (main_arg21 : IVec S2x400000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S200000x128 : Shape := ⟨2, ![200000, 128]⟩
abbrev S50000x64 : Shape := ⟨2, ![50000, 64]⟩
abbrev S64x128 : Shape := ⟨2, ![64, 128]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S2 : Shape := ⟨1, ![2]⟩
abbrev S2x400000 : Shape := ⟨2, ![2, 400000]⟩
abbrev S1x64 : Shape := ⟨2, ![1, 64]⟩
abbrev S200000x64 : Shape := ⟨2, ![200000, 64]⟩
abbrev S8000x128 : Shape := ⟨2, ![8000, 128]⟩
abbrev S8000x64 : Shape := ⟨2, ![8000, 64]⟩
abbrev S128x64 : Shape := ⟨2, ![128, 64]⟩
abbrev S10000x64 : Shape := ⟨2, ![10000, 64]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x64 : Shape := ⟨2, ![400000, 64]⟩
abbrev S200000x1 : Shape := ⟨2, ![200000, 1]⟩
abbrev S50000x1 : Shape := ⟨2, ![50000, 1]⟩
abbrev S1x64x64 : Shape := ⟨3, ![1, 64, 64]⟩
abbrev S1x128 : Shape := ⟨2, ![1, 128]⟩
abbrev S64x2 : Shape := ⟨2, ![64, 2]⟩
abbrev S1x2 : Shape := ⟨2, ![1, 2]⟩

abbrev nBuf : Space → Nat
  | .hbm => 262
  | .vmem => 60
  | .smem => 0
  | _ => 0

abbrev hbmTy0_0 (i : Nat) : BufTy := match i % 128 with
  | 0 => ⟨S200000x128, .f32⟩
  | 1 => ⟨S50000x64, .f32⟩
  | 2 => ⟨S64x128, .f32⟩
  | 3 => ⟨S64, .f32⟩
  | 4 => ⟨S64x64, .f32⟩
  | 5 => ⟨S64, .f32⟩
  | 6 => ⟨S2x64x64, .f32⟩
  | 7 => ⟨S2x64, .f32⟩
  | 8 => ⟨S2x64x64, .f32⟩
  | 9 => ⟨S2x64x64, .f32⟩
  | 10 => ⟨S2x64, .f32⟩
  | 11 => ⟨S2x64x64, .f32⟩
  | 12 => ⟨S2x64x64, .f32⟩
  | 13 => ⟨S2x64, .f32⟩
  | 14 => ⟨S2x64x64, .f32⟩
  | 15 => ⟨S64x128, .f32⟩
  | 16 => ⟨S64, .f32⟩
  | 17 => ⟨S2x64, .f32⟩
  | 18 => ⟨S2, .f32⟩
  | 19 => ⟨S2x400000, .i32⟩
  | 20 => ⟨S2x400000, .i32⟩
  | 21 => ⟨S2x400000, .i32⟩
  | 22 => ⟨S1x64, .f32⟩
  | 23 => ⟨S200000x64, .f32⟩
  | 24 => ⟨S1x64, .f32⟩
  | 25 => ⟨S50000x64, .f32⟩
  | 26 => ⟨S1x400000, .i32⟩
  | 27 => ⟨S400000, .i32⟩
  | 28 => ⟨S1x400000, .i32⟩
  | 29 => ⟨S400000, .i32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x64, .f32⟩
  | 39 => ⟨S_, .f32⟩
  | 40 => ⟨S200000x64, .f32⟩
  | 41 => ⟨S400000x1, .i32⟩
  | 42 => ⟨S200000x64, .f32⟩
  | 43 => ⟨S_, .f32⟩
  | 44 => ⟨S400000x1, .f32⟩
  | 45 => ⟨S_, .f32⟩
  | 46 => ⟨S200000x1, .f32⟩
  | 47 => ⟨S400000x1, .i32⟩
  | 48 => ⟨S200000x1, .f32⟩
  | 49 => ⟨S_, .f32⟩
  | 50 => ⟨S200000x1, .f32⟩
  | 51 => ⟨S200000x1, .f32⟩
  | 52 => ⟨S200000x64, .f32⟩
  | 53 => ⟨S200000x64, .f32⟩
  | 54 => ⟨S1x400000, .i32⟩
  | 55 => ⟨S400000, .i32⟩
  | 56 => ⟨S1x400000, .i32⟩
  | 57 => ⟨S400000, .i32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x64, .f32⟩
  | 67 => ⟨S_, .f32⟩
  | 68 => ⟨S200000x64, .f32⟩
  | 69 => ⟨S400000x1, .i32⟩
  | 70 => ⟨S200000x64, .f32⟩
  | 71 => ⟨S_, .f32⟩
  | 72 => ⟨S400000x1, .f32⟩
  | 73 => ⟨S_, .f32⟩
  | 74 => ⟨S200000x1, .f32⟩
  | 75 => ⟨S400000x1, .i32⟩
  | 76 => ⟨S200000x1, .f32⟩
  | 77 => ⟨S_, .f32⟩
  | 78 => ⟨S200000x1, .f32⟩
  | 79 => ⟨S200000x1, .f32⟩
  | 80 => ⟨S200000x64, .f32⟩
  | 81 => ⟨S200000x64, .f32⟩
  | 82 => ⟨S1x400000, .i32⟩
  | 83 => ⟨S400000, .i32⟩
  | 84 => ⟨S1x400000, .i32⟩
  | 85 => ⟨S400000, .i32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x64, .f32⟩
  | 95 => ⟨S_, .f32⟩
  | 96 => ⟨S50000x64, .f32⟩
  | 97 => ⟨S400000x1, .i32⟩
  | 98 => ⟨S50000x64, .f32⟩
  | 99 => ⟨S_, .f32⟩
  | 100 => ⟨S400000x1, .f32⟩
  | 101 => ⟨S_, .f32⟩
  | 102 => ⟨S50000x1, .f32⟩
  | 103 => ⟨S400000x1, .i32⟩
  | 104 => ⟨S50000x1, .f32⟩
  | 105 => ⟨S_, .f32⟩
  | 106 => ⟨S50000x1, .f32⟩
  | 107 => ⟨S50000x1, .f32⟩
  | 108 => ⟨S50000x64, .f32⟩
  | 109 => ⟨S50000x64, .f32⟩
  | 110 => ⟨S1x64x64, .f32⟩
  | 111 => ⟨S64x64, .f32⟩
  | 112 => ⟨S1x64x64, .f32⟩
  | 113 => ⟨S64x64, .f32⟩
  | 114 => ⟨S64x64, .f32⟩
  | 115 => ⟨S1x64, .f32⟩
  | 116 => ⟨S64, .f32⟩
  | 117 => ⟨S1x64, .f32⟩
  | 118 => ⟨S64, .f32⟩
  | 119 => ⟨S64, .f32⟩
  | 120 => ⟨S1x64x64, .f32⟩
  | 121 => ⟨S64x64, .f32⟩
  | 122 => ⟨S1x64x64, .f32⟩
  | 123 => ⟨S64x64, .f32⟩
  | 124 => ⟨S1x64, .f32⟩
  | 125 => ⟨S200000x64, .f32⟩
  | 126 => ⟨S1x64x64, .f32⟩
  | 127 => ⟨S64x64, .f32⟩
  | _ => ⟨S200000x128, .f32⟩

abbrev hbmTy0_1 (i : Nat) : BufTy := match i % 128 with
  | 0 => ⟨S1x64x64, .f32⟩
  | 1 => ⟨S64x64, .f32⟩
  | 2 => ⟨S1x64, .f32⟩
  | 3 => ⟨S64, .f32⟩
  | 4 => ⟨S1x64, .f32⟩
  | 5 => ⟨S50000x64, .f32⟩
  | 6 => ⟨S1x400000, .i32⟩
  | 7 => ⟨S400000, .i32⟩
  | 8 => ⟨S1x400000, .i32⟩
  | 9 => ⟨S400000, .i32⟩
  | 10 => ⟨S_, .i32⟩
  | 11 => ⟨S400000, .i32⟩
  | 12 => ⟨S400000, .i1⟩
  | 13 => ⟨S_, .i32⟩
  | 14 => ⟨S400000, .i32⟩
  | 15 => ⟨S400000, .i32⟩
  | 16 => ⟨S400000, .i32⟩
  | 17 => ⟨S400000x1, .i32⟩
  | 18 => ⟨S400000x64, .f32⟩
  | 19 => ⟨S_, .f32⟩
  | 20 => ⟨S200000x64, .f32⟩
  | 21 => ⟨S400000x1, .i32⟩
  | 22 => ⟨S200000x64, .f32⟩
  | 23 => ⟨S_, .f32⟩
  | 24 => ⟨S400000x1, .f32⟩
  | 25 => ⟨S_, .f32⟩
  | 26 => ⟨S200000x1, .f32⟩
  | 27 => ⟨S400000x1, .i32⟩
  | 28 => ⟨S200000x1, .f32⟩
  | 29 => ⟨S_, .f32⟩
  | 30 => ⟨S200000x1, .f32⟩
  | 31 => ⟨S200000x1, .f32⟩
  | 32 => ⟨S200000x64, .f32⟩
  | 33 => ⟨S200000x64, .f32⟩
  | 34 => ⟨S1x400000, .i32⟩
  | 35 => ⟨S400000, .i32⟩
  | 36 => ⟨S1x400000, .i32⟩
  | 37 => ⟨S400000, .i32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x64, .f32⟩
  | 47 => ⟨S_, .f32⟩
  | 48 => ⟨S200000x64, .f32⟩
  | 49 => ⟨S400000x1, .i32⟩
  | 50 => ⟨S200000x64, .f32⟩
  | 51 => ⟨S_, .f32⟩
  | 52 => ⟨S400000x1, .f32⟩
  | 53 => ⟨S_, .f32⟩
  | 54 => ⟨S200000x1, .f32⟩
  | 55 => ⟨S400000x1, .i32⟩
  | 56 => ⟨S200000x1, .f32⟩
  | 57 => ⟨S_, .f32⟩
  | 58 => ⟨S200000x1, .f32⟩
  | 59 => ⟨S200000x1, .f32⟩
  | 60 => ⟨S200000x64, .f32⟩
  | 61 => ⟨S200000x64, .f32⟩
  | 62 => ⟨S1x400000, .i32⟩
  | 63 => ⟨S400000, .i32⟩
  | 64 => ⟨S1x400000, .i32⟩
  | 65 => ⟨S400000, .i32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S400000x64, .f32⟩
  | 75 => ⟨S_, .f32⟩
  | 76 => ⟨S50000x64, .f32⟩
  | 77 => ⟨S400000x1, .i32⟩
  | 78 => ⟨S50000x64, .f32⟩
  | 79 => ⟨S_, .f32⟩
  | 80 => ⟨S400000x1, .f32⟩
  | 81 => ⟨S_, .f32⟩
  | 82 => ⟨S50000x1, .f32⟩
  | 83 => ⟨S400000x1, .i32⟩
  | 84 => ⟨S50000x1, .f32⟩
  | 85 => ⟨S_, .f32⟩
  | 86 => ⟨S50000x1, .f32⟩
  | 87 => ⟨S50000x1, .f32⟩
  | 88 => ⟨S50000x64, .f32⟩
  | 89 => ⟨S50000x64, .f32⟩
  | 90 => ⟨S1x64x64, .f32⟩
  | 91 => ⟨S64x64, .f32⟩
  | 92 => ⟨S1x64x64, .f32⟩
  | 93 => ⟨S64x64, .f32⟩
  | 94 => ⟨S64x64, .f32⟩
  | 95 => ⟨S1x64, .f32⟩
  | 96 => ⟨S64, .f32⟩
  | 97 => ⟨S1x64, .f32⟩
  | 98 => ⟨S64, .f32⟩
  | 99 => ⟨S64, .f32⟩
  | 100 => ⟨S1x64x64, .f32⟩
  | 101 => ⟨S64x64, .f32⟩
  | 102 => ⟨S1x64x64, .f32⟩
  | 103 => ⟨S64x64, .f32⟩
  | 104 => ⟨S1x64, .f32⟩
  | 105 => ⟨S200000x64, .f32⟩
  | 106 => ⟨S1x64x64, .f32⟩
  | 107 => ⟨S64x64, .f32⟩
  | 108 => ⟨S1x64x64, .f32⟩
  | 109 => ⟨S64x64, .f32⟩
  | 110 => ⟨S1x64, .f32⟩
  | 111 => ⟨S64, .f32⟩
  | 112 => ⟨S1x64, .f32⟩
  | 113 => ⟨S50000x64, .f32⟩
  | 114 => ⟨S1x64, .f32⟩
  | 115 => ⟨S1x64, .f32⟩
  | 116 => ⟨S_, .f32⟩
  | 117 => ⟨S1x64, .f32⟩
  | 118 => ⟨S1x64, .f32⟩
  | 119 => ⟨S_, .f32⟩
  | 120 => ⟨S1x64, .f32⟩
  | 121 => ⟨S1x64, .f32⟩
  | 122 => ⟨S1x128, .f32⟩
  | 123 => ⟨S128x64, .f32⟩
  | 124 => ⟨S1x64, .f32⟩
  | 125 => ⟨S1x64, .f32⟩
  | 126 => ⟨S1x64, .f32⟩
  | 127 => ⟨S_, .f32⟩
  | _ => ⟨S200000x128, .f32⟩

abbrev hbmTy0_2 (i : Nat) : BufTy := match i % 128 with
  | 0 => ⟨S1x64, .f32⟩
  | 1 => ⟨S1x64, .f32⟩
  | 2 => ⟨S64x2, .f32⟩
  | 3 => ⟨S1x2, .f32⟩
  | 4 => ⟨S1x2, .f32⟩
  | 5 => ⟨S1x2, .f32⟩
  | _ => ⟨S200000x128, .f32⟩

abbrev hbmTy (i : Nat) : BufTy := match i / 128 with
  | 0 => hbmTy0_0 i
  | 1 => hbmTy0_1 i
  | 2 => hbmTy0_2 i
  | _ => ⟨S200000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S64x128, .f32⟩
  | .local _ .vmem, ⟨3, _⟩ => ⟨S1x64, .f32⟩
  | .local _ .vmem, ⟨4, _⟩ => ⟨S8000x64, .f32⟩
  | .local _ .vmem, ⟨5, _⟩ => ⟨S8000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S64x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S8000x64, .f32⟩
  | .local _ .vmem, ⟨23, _⟩ => ⟨S8000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | .local _ .vmem, ⟨33, _⟩ => ⟨S8000x64, .f32⟩
  | .local _ .vmem, ⟨34, _⟩ => ⟨S8000x64, .f32⟩
  | .local _ .vmem, ⟨35, _⟩ => ⟨S8000x64, .f32⟩
  | .local _ .vmem, ⟨36, _⟩ => ⟨S8000x64, .f32⟩
  | .local _ .vmem, ⟨37, _⟩ => ⟨S8000x64, .f32⟩
  | .local _ .vmem, ⟨38, _⟩ => ⟨S8000x64, .f32⟩
  | .local _ .vmem, ⟨39, _⟩ => ⟨S64x64, .f32⟩
  | .local _ .vmem, ⟨40, _⟩ => ⟨S64x64, .f32⟩
  | .local _ .vmem, ⟨41, _⟩ => ⟨S64x64, .f32⟩
  | .local _ .vmem, ⟨42, _⟩ => ⟨S1x64, .f32⟩
  | .local _ .vmem, ⟨43, _⟩ => ⟨S8000x64, .f32⟩
  | .local _ .vmem, ⟨44, _⟩ => ⟨S8000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S64x64, .f32⟩
  | .local _ .vmem, ⟨50, _⟩ => ⟨S64x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S8000x64, .f32⟩
  | .local _ .vmem, ⟨55, _⟩ => ⟨S8000x64, .f32⟩
  | .local _ .vmem, ⟨56, _⟩ => ⟨S1x64, .f32⟩
  | .local _ .vmem, ⟨57, _⟩ => ⟨S10000x64, .f32⟩
  | .local _ .vmem, ⟨58, _⟩ => ⟨S10000x64, .f32⟩
  | .local _ .vmem, ⟨59, _⟩ => ⟨S1x64, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_3 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_4 : Ref sig .tc := ⟨.hbm, 58, rfl⟩
abbrev main_v30 : Ref sig .tc := ⟨.hbm, 59, rfl⟩
abbrev main_v31 : Ref sig .tc := ⟨.hbm, 60, rfl⟩
abbrev main_c_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_9 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_10 : Ref sig .tc := ⟨.hbm, 86, rfl⟩
abbrev main_v52 : Ref sig .tc := ⟨.hbm, 87, rfl⟩
abbrev main_v53 : Ref sig .tc := ⟨.hbm, 88, rfl⟩
abbrev main_c_11 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_13 : Ref sig .tc := ⟨.hbm, 99, rfl⟩
abbrev main_v62 : Ref sig .tc := ⟨.hbm, 100, rfl⟩
abbrev main_cst_14 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_15 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_16 : Ref sig .tc := ⟨.hbm, 138, rfl⟩
abbrev main_v98 : Ref sig .tc := ⟨.hbm, 139, rfl⟩
abbrev main_v99 : Ref sig .tc := ⟨.hbm, 140, rfl⟩
abbrev main_c_17 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_18 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_19 : Ref sig .tc := ⟨.hbm, 151, rfl⟩
abbrev main_v108 : Ref sig .tc := ⟨.hbm, 152, rfl⟩
abbrev main_cst_20 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_21 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_c_22 : Ref sig .tc := ⟨.hbm, 166, rfl⟩
abbrev main_v120 : Ref sig .tc := ⟨.hbm, 167, rfl⟩
abbrev main_v121 : Ref sig .tc := ⟨.hbm, 168, rfl⟩
abbrev main_c_23 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_24 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_25 : Ref sig .tc := ⟨.hbm, 179, rfl⟩
abbrev main_v130 : Ref sig .tc := ⟨.hbm, 180, rfl⟩
abbrev main_cst_26 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_27 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_c_28 : Ref sig .tc := ⟨.hbm, 194, rfl⟩
abbrev main_v142 : Ref sig .tc := ⟨.hbm, 195, rfl⟩
abbrev main_v143 : Ref sig .tc := ⟨.hbm, 196, rfl⟩
abbrev main_c_29 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_cst_30 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_cst_31 : Ref sig .tc := ⟨.hbm, 207, rfl⟩
abbrev main_v152 : Ref sig .tc := ⟨.hbm, 208, rfl⟩
abbrev main_cst_32 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_33 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_cst_34 : Ref sig .tc := ⟨.hbm, 244, rfl⟩
abbrev main_v186 : Ref sig .tc := ⟨.hbm, 245, rfl⟩
abbrev main_v187 : Ref sig .tc := ⟨.hbm, 246, rfl⟩
abbrev main_cst_35 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_call0_cst : Ref sig .tc := ⟨.hbm, 255, rfl⟩
abbrev main_call0_v0 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg7_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43
abbrev cc4_sem7_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc7_sem0_0 : DmaSem sig := 57
abbrev cc7_sem0_1 : DmaSem sig := 58
abbrev cc7_sem1_0 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S8000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S8000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

class Facts₀ : Prop where
  shapeCasts_S64_S1x64 : S64.ShapeCasts S1x64
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  broadcasts_S1x64_S10000x64 : S1x64.Broadcasts S10000x64
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S200000x64 : S_.BroadcastsInDim S200000x64 (![] : Fin 0 → Fin S200000x64.rank)
  bcast_S_S400000x1 : S_.BroadcastsInDim S400000x1 (![] : Fin 0 → Fin S400000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  bcast_S_S50000x64 : S_.BroadcastsInDim S50000x64 (![] : Fin 0 → Fin S50000x64.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S8000x64_S8000x64 : S8000x64.ShapeCasts S8000x64
  shapeCasts_S64x64_S64x64 : S64x64.ShapeCasts S64x64
  shapeCasts_S10000x64_S10000x64 : S10000x64.ShapeCasts S10000x64
  slices_S2x64x64_S1x64x64_1_0_0 : S2x64x64.Slices ![1, 0, 0] S1x64x64
  slices_S2x64_S1x64_1_0 : S2x64.Slices ![1, 0] S1x64
  reduces_S8000x64_S64 : S8000x64.Reduces [0] S64
  reduces_S10000x64_S64 : S10000x64.Reduces [0] S64
  bcast_S_S1x64 : S_.BroadcastsInDim S1x64 (![] : Fin 0 → Fin S1x64.rank)
  concatenates_S1x64_S1x64_S1x128_d1 : Shape.Concatenates [S1x64, S1x64] S1x128 1
  transposes_S64x128_S128x64_1_0 : S64x128.Transposes [1, 0] S128x64
  bcast_S64_S1x64_1 : S64.BroadcastsInDim S1x64 (![1] : Fin 1 → Fin S1x64.rank)
  transposes_S2x64_S64x2_1_0 : S2x64.Transposes [1, 0] S64x2
  bcast_S2_S1x2_1 : S2.BroadcastsInDim S1x2 (![1] : Fin 1 → Fin S1x2.rank)
  dot_S8000x128_S128x64_S8000x64_1_0_0_1_n_n_wf : DotDims.WF S8000x128 S128x64 S8000x64 [1] [0] [0] [1] [] []
  dot_S10000x64_S64x64_S10000x64_1_0_0_1_n_n_wf : DotDims.WF S10000x64 S64x64 S10000x64 [1] [0] [0] [1] [] []
  gather_S200000x64_S400000x1_S400000x64_1_0_n_n_0_1_164_wf : GatherDims.WF S200000x64 S400000x1 S400000x64 [1] [0] [] [0] [] 1 ![1, 64]
  scatter_S200000x64_S400000x1_S400000x64_1_0_0_1_wf : ScatterDims.WF S200000x64 S400000x1 S400000x64 [1] [0] [0] 1
  scatter_S200000x1_S400000x1_S400000x1_1_0_0_1_wf : ScatterDims.WF S200000x1 S400000x1 S400000x1 [1] [0] [0] 1
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  scatter_S50000x1_S400000x1_S400000x1_1_0_0_1_wf : ScatterDims.WF S50000x1 S400000x1 S400000x1 [1] [0] [0] 1
  dot_S8000x64_S64x64_S8000x64_1_0_0_1_n_n_wf : DotDims.WF S8000x64 S64x64 S8000x64 [1] [0] [0] [1] [] []
  dot_S1x128_S128x64_S1x64_1_0_0_1_n_n_wf : DotDims.WF S1x128 S128x64 S1x64 [1] [0] [0] [1] [] []
  dot_S1x64_S64x2_S1x2_1_0_0_1_n_n_wf : DotDims.WF S1x64 S64x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S200000x64.size a
  hwx0_3 : ∀ i : grid0.Coords, EltTy.bits .f32 = 32 ∨ (Rect.block (s := S200000x64) S8000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S200000x64.size a
  hwx2_0 : ∀ i : grid2.Coords, EltTy.bits .f32 = 32 ∨ (Rect.block (s := S200000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S200000x64.size a
  hwx2_1 : ∀ i : grid2.Coords, EltTy.bits .f32 = 32 ∨ (Rect.block (s := S200000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S200000x64.size a
  hwx2_2 : ∀ i : grid2.Coords, EltTy.bits .f32 = 32 ∨ (Rect.block (s := S200000x64) S8000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x64.size a ≤ S200000x64.size a
  hwx2_7 : ∀ i : grid2.Coords, EltTy.bits .f32 = 32 ∨ (Rect.block (s := S200000x64) S8000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S50000x64.size a
  hwx3_5 : ∀ i : grid3.Coords, EltTy.bits .f32 = 32 ∨ (Rect.block (s := S50000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S200000x64.size a
  hwx4_0 : ∀ i : grid4.Coords, EltTy.bits .f32 = 32 ∨ (Rect.block (s := S200000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S200000x64.size a
  hwx4_1 : ∀ i : grid4.Coords, EltTy.bits .f32 = 32 ∨ (Rect.block (s := S200000x64) S8000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S200000x64.size a
  hwx4_2 : ∀ i : grid4.Coords, EltTy.bits .f32 = 32 ∨ (Rect.block (s := S200000x64) S8000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8000x64.size a ≤ S200000x64.size a
  hwx4_7 : ∀ i : grid4.Coords, EltTy.bits .f32 = 32 ∨ (Rect.block (s := S200000x64) S8000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S50000x64.size a
  hwx5_1 : ∀ i : grid5.Coords, EltTy.bits .f32 = 32 ∨ (Rect.block (s := S50000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S50000x64.size a
  hwx5_5 : ∀ i : grid5.Coords, EltTy.bits .f32 = 32 ∨ (Rect.block (s := S50000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x64.size a ≤ S200000x64.size a
  hwx6_0 : ∀ i : grid6.Coords, EltTy.bits .f32 = 32 ∨ (Rect.block (s := S200000x64) S8000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)

variable [Facts₀]

def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S200000x64_S400000x1_S400000x64_1_0_n_n_0_1_164 : GatherDims S200000x64 S400000x1 S400000x64 where
  offsetDims := [1]
  collapsedSliceDims := [0]
  operandBatchingDims := []
  startIndicesBatchingDims := []
  startIndexMap := [0]
  indexVectorDim := 1
  sliceSizes := ![1, 64]
  wf := gather_S200000x64_S400000x1_S400000x64_1_0_n_n_0_1_164_wf
def scatter_S200000x64_S400000x1_S400000x64_1_0_0_1 : ScatterDims S200000x64 S400000x1 S400000x64 where
  updateWindowDims := [1]
  insertedWindowDims := [0]
  scatterDimsToOperandDims := [0]
  indexVectorDim := 1
  wf := scatter_S200000x64_S400000x1_S400000x64_1_0_0_1_wf
def scatter_S200000x1_S400000x1_S400000x1_1_0_0_1 : ScatterDims S200000x1 S400000x1 S400000x1 where
  updateWindowDims := [1]
  insertedWindowDims := [0]
  scatterDimsToOperandDims := [0]
  indexVectorDim := 1
  wf := scatter_S200000x1_S400000x1_S400000x1_1_0_0_1_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x2_S1x2_1_0_0_1_n_n : DotDims S1x64 S64x2 S1x2 where
  lhsContracting := [1]
  rhsContracting := [0]
  lhsNonContracting := [0]
  rhsNonContracting := [1]
  lhsBatch := []
  rhsBatch := []
  wf := dot_S1x64_S64x2_S1x2_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S8000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v81) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v83) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v84) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v85) S8000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v69) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v87) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v92) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v93) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v115) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v137) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v85) S8000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v171) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v173) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v164) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v174) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v175) S8000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v159) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v177) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v179) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v182) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v183) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v175) S8000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v184) S1x64.size cc6_transform_1 reads6_1 true true 1 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v183) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v185) S1x64.size cc7_transform_1 reads7_1 true true 1 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

class Facts : Prop extends Facts₀ where

variable [Facts]
-- ==== ReferenceIdeal.lean ====
abbrev S200000x128 : Shape := ⟨2, ![200000, 128]⟩
abbrev S50000x64 : Shape := ⟨2, ![50000, 64]⟩
abbrev S64x128 : Shape := ⟨2, ![64, 128]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S2 : Shape := ⟨1, ![2]⟩
abbrev S2x400000 : Shape := ⟨2, ![2, 400000]⟩
abbrev S128x64 : Shape := ⟨2, ![128, 64]⟩
abbrev S200000x64 : Shape := ⟨2, ![200000, 64]⟩
abbrev S1x64 : Shape := ⟨2, ![1, 64]⟩
abbrev S_ : Shape := ⟨0, ![]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩
abbrev S200000x1 : Shape := ⟨2, ![200000, 1]⟩
abbrev S1x64x64 : Shape := ⟨3, ![1, 64, 64]⟩
abbrev S50000x1 : Shape := ⟨2, ![50000, 1]⟩
abbrev S1x128 : Shape := ⟨2, ![1, 128]⟩
abbrev S64x2 : Shape := ⟨2, ![64, 2]⟩
abbrev S1x2 : Shape := ⟨2, ![1, 2]⟩

abbrev nBuf : Space → Nat
  | .hbm => 328
  | .vmem => 0
  | .smem => 0
  | _ => 0

abbrev hbmTy0_0 (i : Nat) : BufTy := match i % 128 with
  | 0 => ⟨S200000x128, .f32⟩
  | 1 => ⟨S50000x64, .f32⟩
  | 2 => ⟨S64x128, .f32⟩
  | 3 => ⟨S64, .f32⟩
  | 4 => ⟨S64x64, .f32⟩
  | 5 => ⟨S64, .f32⟩
  | 6 => ⟨S2x64x64, .f32⟩
  | 7 => ⟨S2x64, .f32⟩
  | 8 => ⟨S2x64x64, .f32⟩
  | 9 => ⟨S2x64x64, .f32⟩
  | 10 => ⟨S2x64, .f32⟩
  | 11 => ⟨S2x64x64, .f32⟩
  | 12 => ⟨S2x64x64, .f32⟩
  | 13 => ⟨S2x64, .f32⟩
  | 14 => ⟨S2x64x64, .f32⟩
  | 15 => ⟨S64x128, .f32⟩
  | 16 => ⟨S64, .f32⟩
  | 17 => ⟨S2x64, .f32⟩
  | 18 => ⟨S2, .f32⟩
  | 19 => ⟨S2x400000, .i32⟩
  | 20 => ⟨S2x400000, .i32⟩
  | 21 => ⟨S2x400000, .i32⟩
  | 22 => ⟨S128x64, .f32⟩
  | 23 => ⟨S200000x64, .f32⟩
  | 24 => ⟨S1x64, .f32⟩
  | 25 => ⟨S200000x64, .f32⟩
  | 26 => ⟨S200000x64, .f32⟩
  | 27 => ⟨S_, .f32⟩
  | 28 => ⟨S200000x64, .f32⟩
  | 29 => ⟨S200000x64, .f32⟩
  | 30 => ⟨S64x64, .f32⟩
  | 31 => ⟨S50000x64, .f32⟩
  | 32 => ⟨S1x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S1x400000, .i32⟩
  | 39 => ⟨S400000, .i32⟩
  | 40 => ⟨S1x400000, .i32⟩
  | 41 => ⟨S400000, .i32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000x64, .f32⟩
  | 51 => ⟨S_, .f32⟩
  | 52 => ⟨S200000x64, .f32⟩
  | 53 => ⟨S400000x1, .i32⟩
  | 54 => ⟨S200000x64, .f32⟩
  | 55 => ⟨S_, .f32⟩
  | 56 => ⟨S400000x1, .f32⟩
  | 57 => ⟨S_, .f32⟩
  | 58 => ⟨S200000x1, .f32⟩
  | 59 => ⟨S400000x1, .i32⟩
  | 60 => ⟨S200000x1, .f32⟩
  | 61 => ⟨S_, .f32⟩
  | 62 => ⟨S200000x1, .f32⟩
  | 63 => ⟨S200000x1, .f32⟩
  | 64 => ⟨S200000x64, .f32⟩
  | 65 => ⟨S200000x64, .f32⟩
  | 66 => ⟨S1x400000, .i32⟩
  | 67 => ⟨S400000, .i32⟩
  | 68 => ⟨S1x400000, .i32⟩
  | 69 => ⟨S400000, .i32⟩
  | 70 => ⟨S_, .i32⟩
  | 71 => ⟨S400000, .i32⟩
  | 72 => ⟨S400000, .i1⟩
  | 73 => ⟨S_, .i32⟩
  | 74 => ⟨S400000, .i32⟩
  | 75 => ⟨S400000, .i32⟩
  | 76 => ⟨S400000, .i32⟩
  | 77 => ⟨S400000x1, .i32⟩
  | 78 => ⟨S400000x64, .f32⟩
  | 79 => ⟨S_, .f32⟩
  | 80 => ⟨S200000x64, .f32⟩
  | 81 => ⟨S400000x1, .i32⟩
  | 82 => ⟨S200000x64, .f32⟩
  | 83 => ⟨S_, .f32⟩
  | 84 => ⟨S400000x1, .f32⟩
  | 85 => ⟨S_, .f32⟩
  | 86 => ⟨S200000x1, .f32⟩
  | 87 => ⟨S400000x1, .i32⟩
  | 88 => ⟨S200000x1, .f32⟩
  | 89 => ⟨S_, .f32⟩
  | 90 => ⟨S200000x1, .f32⟩
  | 91 => ⟨S200000x1, .f32⟩
  | 92 => ⟨S200000x64, .f32⟩
  | 93 => ⟨S200000x64, .f32⟩
  | 94 => ⟨S1x64x64, .f32⟩
  | 95 => ⟨S64x64, .f32⟩
  | 96 => ⟨S64x64, .f32⟩
  | 97 => ⟨S200000x64, .f32⟩
  | 98 => ⟨S1x64, .f32⟩
  | 99 => ⟨S64, .f32⟩
  | 100 => ⟨S1x64, .f32⟩
  | 101 => ⟨S200000x64, .f32⟩
  | 102 => ⟨S200000x64, .f32⟩
  | 103 => ⟨S1x64x64, .f32⟩
  | 104 => ⟨S64x64, .f32⟩
  | 105 => ⟨S64x64, .f32⟩
  | 106 => ⟨S200000x64, .f32⟩
  | 107 => ⟨S200000x64, .f32⟩
  | 108 => ⟨S1x64x64, .f32⟩
  | 109 => ⟨S64x64, .f32⟩
  | 110 => ⟨S64x64, .f32⟩
  | 111 => ⟨S200000x64, .f32⟩
  | 112 => ⟨S200000x64, .f32⟩
  | 113 => ⟨S1x64, .f32⟩
  | 114 => ⟨S64, .f32⟩
  | 115 => ⟨S1x64, .f32⟩
  | 116 => ⟨S200000x64, .f32⟩
  | 117 => ⟨S200000x64, .f32⟩
  | 118 => ⟨S1x64x64, .f32⟩
  | 119 => ⟨S64x64, .f32⟩
  | 120 => ⟨S64x64, .f32⟩
  | 121 => ⟨S200000x64, .f32⟩
  | 122 => ⟨S200000x64, .f32⟩
  | 123 => ⟨S1x400000, .i32⟩
  | 124 => ⟨S400000, .i32⟩
  | 125 => ⟨S1x400000, .i32⟩
  | 126 => ⟨S400000, .i32⟩
  | 127 => ⟨S_, .i32⟩
  | _ => ⟨S200000x128, .f32⟩

abbrev hbmTy0_1 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x64, .f32⟩
  | 8 => ⟨S_, .f32⟩
  | 9 => ⟨S50000x64, .f32⟩
  | 10 => ⟨S400000x1, .i32⟩
  | 11 => ⟨S50000x64, .f32⟩
  | 12 => ⟨S_, .f32⟩
  | 13 => ⟨S400000x1, .f32⟩
  | 14 => ⟨S_, .f32⟩
  | 15 => ⟨S50000x1, .f32⟩
  | 16 => ⟨S400000x1, .i32⟩
  | 17 => ⟨S50000x1, .f32⟩
  | 18 => ⟨S_, .f32⟩
  | 19 => ⟨S50000x1, .f32⟩
  | 20 => ⟨S50000x1, .f32⟩
  | 21 => ⟨S50000x64, .f32⟩
  | 22 => ⟨S50000x64, .f32⟩
  | 23 => ⟨S1x64x64, .f32⟩
  | 24 => ⟨S64x64, .f32⟩
  | 25 => ⟨S64x64, .f32⟩
  | 26 => ⟨S50000x64, .f32⟩
  | 27 => ⟨S1x64, .f32⟩
  | 28 => ⟨S64, .f32⟩
  | 29 => ⟨S1x64, .f32⟩
  | 30 => ⟨S50000x64, .f32⟩
  | 31 => ⟨S50000x64, .f32⟩
  | 32 => ⟨S1x64x64, .f32⟩
  | 33 => ⟨S64x64, .f32⟩
  | 34 => ⟨S64x64, .f32⟩
  | 35 => ⟨S50000x64, .f32⟩
  | 36 => ⟨S50000x64, .f32⟩
  | 37 => ⟨S_, .f32⟩
  | 38 => ⟨S200000x64, .f32⟩
  | 39 => ⟨S200000x64, .f32⟩
  | 40 => ⟨S_, .f32⟩
  | 41 => ⟨S50000x64, .f32⟩
  | 42 => ⟨S50000x64, .f32⟩
  | 43 => ⟨S1x400000, .i32⟩
  | 44 => ⟨S400000, .i32⟩
  | 45 => ⟨S1x400000, .i32⟩
  | 46 => ⟨S400000, .i32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x64, .f32⟩
  | 56 => ⟨S_, .f32⟩
  | 57 => ⟨S200000x64, .f32⟩
  | 58 => ⟨S400000x1, .i32⟩
  | 59 => ⟨S200000x64, .f32⟩
  | 60 => ⟨S_, .f32⟩
  | 61 => ⟨S400000x1, .f32⟩
  | 62 => ⟨S_, .f32⟩
  | 63 => ⟨S200000x1, .f32⟩
  | 64 => ⟨S400000x1, .i32⟩
  | 65 => ⟨S200000x1, .f32⟩
  | 66 => ⟨S_, .f32⟩
  | 67 => ⟨S200000x1, .f32⟩
  | 68 => ⟨S200000x1, .f32⟩
  | 69 => ⟨S200000x64, .f32⟩
  | 70 => ⟨S200000x64, .f32⟩
  | 71 => ⟨S1x400000, .i32⟩
  | 72 => ⟨S400000, .i32⟩
  | 73 => ⟨S1x400000, .i32⟩
  | 74 => ⟨S400000, .i32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x64, .f32⟩
  | 84 => ⟨S_, .f32⟩
  | 85 => ⟨S200000x64, .f32⟩
  | 86 => ⟨S400000x1, .i32⟩
  | 87 => ⟨S200000x64, .f32⟩
  | 88 => ⟨S_, .f32⟩
  | 89 => ⟨S400000x1, .f32⟩
  | 90 => ⟨S_, .f32⟩
  | 91 => ⟨S200000x1, .f32⟩
  | 92 => ⟨S400000x1, .i32⟩
  | 93 => ⟨S200000x1, .f32⟩
  | 94 => ⟨S_, .f32⟩
  | 95 => ⟨S200000x1, .f32⟩
  | 96 => ⟨S200000x1, .f32⟩
  | 97 => ⟨S200000x64, .f32⟩
  | 98 => ⟨S200000x64, .f32⟩
  | 99 => ⟨S1x64x64, .f32⟩
  | 100 => ⟨S64x64, .f32⟩
  | 101 => ⟨S64x64, .f32⟩
  | 102 => ⟨S200000x64, .f32⟩
  | 103 => ⟨S1x64, .f32⟩
  | 104 => ⟨S64, .f32⟩
  | 105 => ⟨S1x64, .f32⟩
  | 106 => ⟨S200000x64, .f32⟩
  | 107 => ⟨S200000x64, .f32⟩
  | 108 => ⟨S1x64x64, .f32⟩
  | 109 => ⟨S64x64, .f32⟩
  | 110 => ⟨S64x64, .f32⟩
  | 111 => ⟨S200000x64, .f32⟩
  | 112 => ⟨S200000x64, .f32⟩
  | 113 => ⟨S1x64x64, .f32⟩
  | 114 => ⟨S64x64, .f32⟩
  | 115 => ⟨S64x64, .f32⟩
  | 116 => ⟨S200000x64, .f32⟩
  | 117 => ⟨S200000x64, .f32⟩
  | 118 => ⟨S1x64, .f32⟩
  | 119 => ⟨S64, .f32⟩
  | 120 => ⟨S1x64, .f32⟩
  | 121 => ⟨S200000x64, .f32⟩
  | 122 => ⟨S200000x64, .f32⟩
  | 123 => ⟨S1x64x64, .f32⟩
  | 124 => ⟨S64x64, .f32⟩
  | 125 => ⟨S64x64, .f32⟩
  | 126 => ⟨S200000x64, .f32⟩
  | 127 => ⟨S200000x64, .f32⟩
  | _ => ⟨S200000x128, .f32⟩

abbrev hbmTy0_2 (i : Nat) : BufTy := match i % 128 with
  | 0 => ⟨S1x400000, .i32⟩
  | 1 => ⟨S400000, .i32⟩
  | 2 => ⟨S1x400000, .i32⟩
  | 3 => ⟨S400000, .i32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x64, .f32⟩
  | 13 => ⟨S_, .f32⟩
  | 14 => ⟨S50000x64, .f32⟩
  | 15 => ⟨S400000x1, .i32⟩
  | 16 => ⟨S50000x64, .f32⟩
  | 17 => ⟨S_, .f32⟩
  | 18 => ⟨S400000x1, .f32⟩
  | 19 => ⟨S_, .f32⟩
  | 20 => ⟨S50000x1, .f32⟩
  | 21 => ⟨S400000x1, .i32⟩
  | 22 => ⟨S50000x1, .f32⟩
  | 23 => ⟨S_, .f32⟩
  | 24 => ⟨S50000x1, .f32⟩
  | 25 => ⟨S50000x1, .f32⟩
  | 26 => ⟨S50000x64, .f32⟩
  | 27 => ⟨S50000x64, .f32⟩
  | 28 => ⟨S1x64x64, .f32⟩
  | 29 => ⟨S64x64, .f32⟩
  | 30 => ⟨S64x64, .f32⟩
  | 31 => ⟨S50000x64, .f32⟩
  | 32 => ⟨S1x64, .f32⟩
  | 33 => ⟨S64, .f32⟩
  | 34 => ⟨S1x64, .f32⟩
  | 35 => ⟨S50000x64, .f32⟩
  | 36 => ⟨S50000x64, .f32⟩
  | 37 => ⟨S1x64x64, .f32⟩
  | 38 => ⟨S64x64, .f32⟩
  | 39 => ⟨S64x64, .f32⟩
  | 40 => ⟨S50000x64, .f32⟩
  | 41 => ⟨S50000x64, .f32⟩
  | 42 => ⟨S_, .f32⟩
  | 43 => ⟨S200000x64, .f32⟩
  | 44 => ⟨S200000x64, .f32⟩
  | 45 => ⟨S_, .f32⟩
  | 46 => ⟨S50000x64, .f32⟩
  | 47 => ⟨S50000x64, .f32⟩
  | 48 => ⟨S_, .f32⟩
  | 49 => ⟨S64, .f32⟩
  | 50 => ⟨S1x64, .f32⟩
  | 51 => ⟨S_, .f32⟩
  | 52 => ⟨S1x64, .f32⟩
  | 53 => ⟨S1x64, .f32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S1x128, .f32⟩
  | 61 => ⟨S128x64, .f32⟩
  | 62 => ⟨S1x64, .f32⟩
  | 63 => ⟨S1x64, .f32⟩
  | 64 => ⟨S1x64, .f32⟩
  | 65 => ⟨S_, .f32⟩
  | 66 => ⟨S1x64, .f32⟩
  | 67 => ⟨S1x64, .f32⟩
  | 68 => ⟨S64x2, .f32⟩
  | 69 => ⟨S1x2, .f32⟩
  | 70 => ⟨S1x2, .f32⟩
  | 71 => ⟨S1x2, .f32⟩
  | _ => ⟨S200000x128, .f32⟩

abbrev hbmTy (i : Nat) : BufTy := match i / 128 with
  | 0 => hbmTy0_0 i
  | 1 => hbmTy0_1 i
  | 2 => hbmTy0_2 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_call0_cst : Ref sig .tc := ⟨.hbm, 27, rfl⟩
abbrev main_call0_v0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call1_cst : Ref sig .tc := ⟨.hbm, 35, rfl⟩
abbrev main_call1_v0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_v17 : Ref sig .tc := ⟨.hbm, 44, rfl⟩
abbrev main_c_0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_1 : Ref sig .tc := ⟨.hbm, 55, rfl⟩
abbrev main_v26 : Ref sig .tc := ⟨.hbm, 56, rfl⟩
abbrev main_cst_2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_3 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_4 : Ref sig .tc := ⟨.hbm, 70, rfl⟩
abbrev main_v38 : Ref sig .tc := ⟨.hbm, 71, rfl⟩
abbrev main_v39 : Ref sig .tc := ⟨.hbm, 72, rfl⟩
abbrev main_c_5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_6 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_7 : Ref sig .tc := ⟨.hbm, 83, rfl⟩
abbrev main_v48 : Ref sig .tc := ⟨.hbm, 84, rfl⟩
abbrev main_cst_8 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_9 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_10 : Ref sig .tc := ⟨.hbm, 127, rfl⟩
abbrev main_v89 : Ref sig .tc := ⟨.hbm, 128, rfl⟩
abbrev main_v90 : Ref sig .tc := ⟨.hbm, 129, rfl⟩
abbrev main_c_11 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_12 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_13 : Ref sig .tc := ⟨.hbm, 140, rfl⟩
abbrev main_v99 : Ref sig .tc := ⟨.hbm, 141, rfl⟩
abbrev main_cst_14 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_15 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_call2_cst : Ref sig .tc := ⟨.hbm, 165, rfl⟩
abbrev main_call2_v0 : Ref sig .tc := ⟨.hbm, 166, rfl⟩
abbrev main_v121 : Ref sig .tc := ⟨.hbm, 167, rfl⟩
abbrev main_call3_cst : Ref sig .tc := ⟨.hbm, 168, rfl⟩
abbrev main_call3_v0 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_16 : Ref sig .tc := ⟨.hbm, 175, rfl⟩
abbrev main_v127 : Ref sig .tc := ⟨.hbm, 176, rfl⟩
abbrev main_v128 : Ref sig .tc := ⟨.hbm, 177, rfl⟩
abbrev main_c_17 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_18 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_19 : Ref sig .tc := ⟨.hbm, 188, rfl⟩
abbrev main_v137 : Ref sig .tc := ⟨.hbm, 189, rfl⟩
abbrev main_cst_20 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_21 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_c_22 : Ref sig .tc := ⟨.hbm, 203, rfl⟩
abbrev main_v149 : Ref sig .tc := ⟨.hbm, 204, rfl⟩
abbrev main_v150 : Ref sig .tc := ⟨.hbm, 205, rfl⟩
abbrev main_c_23 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_cst_24 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_cst_25 : Ref sig .tc := ⟨.hbm, 216, rfl⟩
abbrev main_v159 : Ref sig .tc := ⟨.hbm, 217, rfl⟩
abbrev main_cst_26 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_27 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_c_28 : Ref sig .tc := ⟨.hbm, 260, rfl⟩
abbrev main_v200 : Ref sig .tc := ⟨.hbm, 261, rfl⟩
abbrev main_v201 : Ref sig .tc := ⟨.hbm, 262, rfl⟩
abbrev main_c_29 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_cst_30 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_cst_31 : Ref sig .tc := ⟨.hbm, 273, rfl⟩
abbrev main_v210 : Ref sig .tc := ⟨.hbm, 274, rfl⟩
abbrev main_cst_32 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_cst_33 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_call4_cst : Ref sig .tc := ⟨.hbm, 298, rfl⟩
abbrev main_call4_v0 : Ref sig .tc := ⟨.hbm, 299, rfl⟩
abbrev main_v232 : Ref sig .tc := ⟨.hbm, 300, rfl⟩
abbrev main_call5_cst : Ref sig .tc := ⟨.hbm, 301, rfl⟩
abbrev main_call5_v0 : Ref sig .tc := ⟨.hbm, 302, rfl⟩
abbrev main_v233 : Ref sig .tc := ⟨.hbm, 303, rfl⟩
abbrev main_cst_34 : Ref sig .tc := ⟨.hbm, 304, rfl⟩
abbrev main_v234 : Ref sig .tc := ⟨.hbm, 305, rfl⟩
abbrev main_v235 : Ref sig .tc := ⟨.hbm, 306, rfl⟩
abbrev main_cst_35 : Ref sig .tc := ⟨.hbm, 307, rfl⟩
abbrev main_v236 : Ref sig .tc := ⟨.hbm, 308, rfl⟩
abbrev main_v237 : Ref sig .tc := ⟨.hbm, 309, rfl⟩
abbrev main_cst_36 : Ref sig .tc := ⟨.hbm, 310, rfl⟩
abbrev main_v238 : Ref sig .tc := ⟨.hbm, 311, rfl⟩
abbrev main_v239 : Ref sig .tc := ⟨.hbm, 312, rfl⟩
abbrev main_cst_37 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_call6_cst : Ref sig .tc := ⟨.hbm, 321, rfl⟩
abbrev main_call6_v0 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  transposes_S64x64_S64x64_1_0 : S64x64.Transposes [1, 0] S64x64
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S2x64x64_S1x64x64_1_0_0 : S2x64x64.Slices ![1, 0, 0] S1x64x64
  slices_S2x64_S1x64_1_0 : S2x64.Slices ![1, 0] S1x64
  reducesTo_S200000x64_S64_d0 : S200000x64.ReducesTo [0] S64
  h_S_ : 0 < S_.numel
  bcast_S_S1x64 : S_.BroadcastsInDim S1x64 (![] : Fin 0 → Fin S1x64.rank)
  reducesTo_S50000x64_S64_d0 : S50000x64.ReducesTo [0] S64
  concatenates_S1x64_S1x64_S1x128_d1 : Shape.Concatenates [S1x64, S1x64] S1x128 1
  transposes_S2x64_S64x2_1_0 : S2x64.Transposes [1, 0] S64x2
  bcast_S2_S1x2_1 : S2.BroadcastsInDim S1x2 (![1] : Fin 1 → Fin S1x2.rank)
  dot_S200000x128_S128x64_S200000x64_1_0_0_1_n_n_wf : DotDims.WF S200000x128 S128x64 S200000x64 [1] [0] [0] [1] [] []
  dot_S50000x64_S64x64_S50000x64_1_0_0_1_n_n_wf : DotDims.WF S50000x64 S64x64 S50000x64 [1] [0] [0] [1] [] []
  gather_S200000x64_S400000x1_S400000x64_1_0_n_n_0_1_164_wf : GatherDims.WF S200000x64 S400000x1 S400000x64 [1] [0] [] [0] [] 1 ![1, 64]
  scatter_S200000x64_S400000x1_S400000x64_1_0_0_1_wf : ScatterDims.WF S200000x64 S400000x1 S400000x64 [1] [0] [0] 1
  scatter_S200000x1_S400000x1_S400000x1_1_0_0_1_wf : ScatterDims.WF S200000x1 S400000x1 S400000x1 [1] [0] [0] 1
  gather_S50000x64_S400000x1_S400000x64_1_0_n_n_0_1_164_wf : GatherDims.WF S50000x64 S400000x1 S400000x64 [1] [0] [] [0] [] 1 ![1, 64]
  dot_S200000x64_S64x64_S200000x64_1_0_0_1_n_n_wf : DotDims.WF S200000x64 S64x64 S200000x64 [1] [0] [0] [1] [] []
  scatter_S50000x64_S400000x1_S400000x64_1_0_0_1_wf : ScatterDims.WF S50000x64 S400000x1 S400000x64 [1] [0] [0] 1
  scatter_S50000x1_S400000x1_S400000x1_1_0_0_1_wf : ScatterDims.WF S50000x1 S400000x1 S400000x1 [1] [0] [0] 1
  dot_S1x128_S128x64_S1x64_1_0_0_1_n_n_wf : DotDims.WF S1x128 S128x64 S1x64 [1] [0] [0] [1] [] []
  dot_S1x64_S64x2_S1x2_1_0_0_1_n_n_wf : DotDims.WF S1x64 S64x2 S1x2 [1] [0] [0] [1] [] []

variable [Facts₀]

def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S200000x64_S400000x1_S400000x64_1_0_n_n_0_1_164 : GatherDims S200000x64 S400000x1 S400000x64 where
  offsetDims := [1]
  collapsedSliceDims := [0]
  operandBatchingDims := []
  startIndicesBatchingDims := []
  startIndexMap := [0]
  indexVectorDim := 1
  sliceSizes := ![1, 64]
  wf := gather_S200000x64_S400000x1_S400000x64_1_0_n_n_0_1_164_wf
def scatter_S200000x64_S400000x1_S400000x64_1_0_0_1 : ScatterDims S200000x64 S400000x1 S400000x64 where
  updateWindowDims := [1]
  insertedWindowDims := [0]
  scatterDimsToOperandDims := [0]
  indexVectorDim := 1
  wf := scatter_S200000x64_S400000x1_S400000x64_1_0_0_1_wf
def scatter_S200000x1_S400000x1_S400000x1_1_0_0_1 : ScatterDims S200000x1 S400000x1 S400000x1 where
  updateWindowDims := [1]
  insertedWindowDims := [0]
  scatterDimsToOperandDims := [0]
  indexVectorDim := 1
  wf := scatter_S200000x1_S400000x1_S400000x1_1_0_0_1_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x2_S1x2_1_0_0_1_n_n : DotDims S1x64 S64x2 S1x2 where
  lhsContracting := [1]
  rhsContracting := [0]
  lhsNonContracting := [0]
  rhsNonContracting := [1]
  lhsBatch := []
  rhsBatch := []
  wf := dot_S1x64_S64x2_S1x2_1_0_0_1_n_n_wf

class Facts : Prop extends Facts₀ where

variable [Facts]
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibAffineBodies.lean ====
/-
  The arithmetic of the five kinds of kernel body, over the extended reals.

  Every body works on a tile of rows.  A "linear" body multiplies the tile `x` ([M, K]) by a weight matrix `w`
  ([K, N]) and adds a row vector `b` ([1, N]) to every row: entry (p, q) is `∑ k, x (p, k) * w (k, q) + b (0, q)`
  (the narrowing of both operands before the product is the identity on extended reals).  It may then clamp at
  zero from below, or apply the logistic function.  A "bias" body adds the row vector to every row of the tile
  and clamps at zero.  Each lemma below says that the body's chain of vector operations is that entrywise
  function.
-/
import Idealize.ShloMosaic.PureOps.Ideal.Laws
import Idealize.ShloMosaic.Lib.ValueIdx
import Idealize.ShloMosaic.Lib.ValueLayout
import Idealize.ShloMosaic.Lib.Pipeline.Value
import proofs.«130111_j37838661877859_1_alg».proof.Proof.LibMatmul

noncomputable section

open scoped BigOperators
open Idealize.ShloMosaic Idealize.ShloMosaic.ValueIdx

namespace Gcn

variable {M K N : ℕ}

/-- Matrices of extended reals, indexed by the shape's multi-indices. -/
abbrev Mat (M N : ℕ) : Type := (⟨2, ![M, N]⟩ : Shape).Idx → EReal

/-- `x · w + b`, the row vector `b` added to every row. -/
def affine (x : Mat M K) (w : Mat K N) (b : Mat 1 N) : Mat M N :=
  fun i => (∑ k : Fin K, x (ix2 (i 0) k) * w (ix2 k (i 1))) + b (ix2 0 (i 1))

/-- `max (a + b) 0`, the row vector `b` added to every row. -/
def biasRelu (a : Mat M N) (b : Mat 1 N) : Mat M N :=
  fun i => max (a i + b (ix2 0 (i 1))) 0

/-- `max (x · w + b) 0`. -/
def affineRelu (x : Mat M K) (w : Mat K N) (b : Mat 1 N) : Mat M N :=
  fun i => max (affine x w b i) 0

/-- The logistic function of `x · w + b`. -/
def affineLogistic (x : Mat M K) (w : Mat K N) (b : Mat 1 N) : Mat M N :=
  fun i => Ideal.logistic (affine x w b i)

/-- A row vector broadcast down the rows, read at an entry. -/
theorem rowBroadcast_apply (b : FVec Ideal (⟨2, ![1, N]⟩ : Shape) .f32)
    (hb : (⟨2, ![1, N]⟩ : Shape).Broadcasts (⟨2, ![M, N]⟩ : Shape)) (p : Fin M) (q : Fin N) :
    broadcastTo (⟨2, ![M, N]⟩ : Shape) b hb (ix2 p q) = b (ix2 0 q) := by
  refine broadcastTo_apply b hb (ix2 p q) (ix2 0 q) fun a => ?_
  match a with
  | ⟨0, _⟩ => exact (if_pos rfl).symm
  | ⟨1, _⟩ =>
    show q.val = if N = 1 then 0 else q.val
    split
    · have := q.isLt; omega
    · rfl

/-- The clamp at zero, read at an entry. -/
theorem clamp_apply (a : FVec Ideal (⟨2, ![M, N]⟩ : Shape) .f32) (i : (⟨2, ![M, N]⟩ : Shape).Idx) :
    maximumf a (broadcast (⟨2, ![M, N]⟩ : Shape) (Scalar.ofBits (F := Ideal) .f32 0x00000000#32)) i = max (a i) 0 := by
  rw [maximumf_apply, broadcast_apply]
  show max _ (Ideal.ofBits .f32 0x00000000#32) = _
  rw [Ideal.ofBits_zero_f32]

/-- The linear body: product into the zero matrix, then the row vector added. -/
theorem linear_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    addf (matmul d none (truncf .bf16 x h1) (truncf .bf16 w h2) (constant (⟨2, ![M, N]⟩ : Shape) .f32 0x00000000#32))
        (broadcastTo (⟨2, ![M, N]⟩ : Shape) b hb)
      = affine x w b := by
  funext i
  obtain ⟨p, q, rfl⟩ : ∃ (p : Fin M) (q : Fin N), i = ix2 p q := ⟨i 0, i 1, eq_ix2 i⟩
  rw [addf_apply, rowBroadcast_apply]
  refine congrArg (· + b (ix2 0 q)) ?_
  exact PlainMatmul.apply hd none (truncf .bf16 x h1) (truncf .bf16 w h2) p q

/-- The linear body followed by the clamp at zero. -/
theorem linear_relu_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    maximumf (addf (matmul d none (truncf .bf16 x h1) (truncf .bf16 w h2) (constant (⟨2, ![M, N]⟩ : Shape) .f32 0x00000000#32))
        (broadcastTo (⟨2, ![M, N]⟩ : Shape) b hb))
        (broadcast (⟨2, ![M, N]⟩ : Shape) (Scalar.ofBits (F := Ideal) .f32 0x00000000#32))
      = affineRelu x w b := by
  rw [linear_body hd x w b h1 h2 hb]
  funext i
  exact clamp_apply _ i

/-- The linear body followed by the logistic function. -/
theorem linear_logistic_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    logistic (addf (matmul d none (truncf .bf16 x h1) (truncf .bf16 w h2) (constant (⟨2, ![M, N]⟩ : Shape) .f32 0x00000000#32))
        (broadcastTo (⟨2, ![M, N]⟩ : Shape) b hb))
      = affineLogistic x w b := by
  rw [linear_body hd x w b h1 h2 hb]
  rfl

/-- The bias body: the row vector added, then the clamp at zero. -/
theorem bias_body (a : FVec Ideal (⟨2, ![M, N]⟩ : Shape) .f32) (b : FVec Ideal (⟨2, ![1, N]⟩ : Shape) .f32)
    (hb : (⟨2, ![1, N]⟩ : Shape).Broadcasts (⟨2, ![M, N]⟩ : Shape)) :
    maximumf (addf a (broadcastTo (⟨2, ![M, N]⟩ : Shape) b hb))
        (broadcast (⟨2, ![M, N]⟩ : Shape) (Scalar.ofBits (F := Ideal) .f32 0x00000000#32))
      = biasRelu a b := by
  funext i
  obtain ⟨p, q, rfl⟩ : ∃ (p : Fin M) (q : Fin N), i = ix2 p q := ⟨i 0, i 1, eq_ix2 i⟩
  rw [clamp_apply, addf_apply, rowBroadcast_apply]
  rfl

/-! ## Two entries agree when the rows they depend on agree -/

theorem affine_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affine X W B j = affine A W' B' i := by
  subst hW hB
  have e : (j 1 : Fin N) = i 1 := Fin.ext h1
  show (∑ k : Fin K, X (ix2 (j 0) k) * W (ix2 k (j 1))) + B (ix2 0 (j 1))
    = (∑ k : Fin K, A (ix2 (i 0) k) * W (ix2 k (i 1))) + B (ix2 0 (i 1))
  rw [e]
  exact congrArg (· + B (ix2 0 (i 1))) (Finset.sum_congr rfl fun k _ => by rw [hX k])

theorem affineRelu_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineRelu X W B j = affineRelu A W' B' i := by
  unfold affineRelu
  rw [affine_congr j i hW hB hX h1]

theorem affineLogistic_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineLogistic X W B j = affineLogistic A W' B' i := by
  unfold affineLogistic
  rw [affine_congr j i hW hB hX h1]

theorem biasRelu_congr {M' : ℕ} {X : Mat M N} {B B' : Mat 1 N} {A : Mat M' N}
    (j : (⟨2, ![M, N]⟩ : Shape).Idx) (i : (⟨2, ![M', N]⟩ : Shape).Idx)
    (hB : B = B') (hX : X j = A i) (h1 : (j 1).val = (i 1).val) :
    biasRelu X B j = biasRelu A B' i := by
  subst hB
  have e : (j 1 : Fin N) = i 1 := Fin.ext h1
  show max (X j + B (ix2 0 (j 1))) 0 = max (A i + B (ix2 0 (i 1))) 0
  rw [e, hX]

end Gcn

end
-- ==== Proof.Spec.lean ====
/-
  The layers of the network as entrywise functions over the extended reals.

  A node type's features are a matrix with one row per node.  A dense layer whose weight matrix is stored with one
  row per OUTPUT feature sends row `p` of `x` to `max (∑ k, x (p, k) * w (q, k) + b q) 0` at output feature `q`;
  the update of a node type that hears from several relations adds one such product per relation before the bias
  and the clamp; the pooling of a node type adds its rows up, feature by feature.
-/
import proofs.«130111_j37838661877859_1_alg».proof.Proof.LibAffineBodies

noncomputable section

open scoped BigOperators
open Idealize.ShloMosaic Idealize.ShloMosaic.ValueIdx

namespace Sage

variable {M K N : ℕ}

abbrev Mat (M N : ℕ) : Type := Gcn.Mat M N

/-- The transposed matrix. -/
def tr (w : Mat N K) : Mat K N := fun i => w (ix2 (i 1) (i 0))

/-- The plain product, entry `(p, q)` the sum over `k` of `x (p, k) * w (k, q)`. -/
def mm (x : Mat M K) (w : Mat K N) : Mat M N := fun i => ∑ k : Fin K, x (ix2 (i 0) k) * w (ix2 k (i 1))

/-- A dense layer with the weights stored one row per output feature, clamped at zero. -/
def proj (x : Mat M K) (w : Mat N K) (b : Mat 1 N) : Mat M N := Gcn.affineRelu x (tr w) b

/-- Three products added left to right, then the bias row, then the clamp at zero. -/
def comb3 (a b c : Mat M K) (wa wb wc : Mat N K) (bias : Mat 1 N) : Mat M N :=
  fun i => max (((mm a (tr wa) i + mm b (tr wb) i) + mm c (tr wc) i) + bias (ix2 0 (i 1))) 0

/-- Two products added, then the bias row, then the clamp at zero. -/
def comb2 (a b : Mat M K) (wa wb : Mat N K) (bias : Mat 1 N) : Mat M N :=
  fun i => max ((mm a (tr wa) i + mm b (tr wb) i) + bias (ix2 0 (i 1))) 0

/-- The rows of a matrix added up, feature by feature. -/
def colSum (x : Mat M N) : Mat 1 N := fun i => ∑ r : Fin M, x (ix2 r (i 1))

/-- Every entry is a real number (neither infinity). -/
def IsReal {S : Shape} (v : S.Idx → EReal) : Prop := ∀ i, ∃ r : ℝ, v i = (r : EReal)

end Sage

end
-- ==== Proof.PreReal.lean ====
/-
  From the precondition "every float argument is finite" to "every entry of every float argument is a real number".

  The precondition compares the absolute value of every entry of each float argument with plus infinity, takes the
  conjunction over all entries of one argument, and the conjunction of those over the arguments.  Over the extended
  reals the absolute value of \`x\` is \`max x (-x)\`, which is plus infinity at both infinities: so \`|x| < +∞\` says
  that \`x\` is a real number.
-/
import proofs.«130111_j37838661877859_1_alg».proof.Pre_finite_inputs
import proofs.«130111_j37838661877859_1_alg».proof.Proof.Spec
import Idealize.ShloMosaic.Lib.ReduceAll

noncomputable section

open Idealize.ShloMosaic Idealize.ShloMosaic.ValueIdx

namespace Cert.Pre_finite_inputs.Real

/-- The shape with no axes has one index. -/
instance : Subsingleton S_.Idx := ⟨fun a b => funext fun d => d.elim0⟩

/-- The pattern \`0x7F800000\` is plus infinity. -/
theorem ofBits_inf : Ideal.ofBits .f32 0x7F800000#32 = (⊤ : EReal) := by
  simp [Ideal.ofBits, Ideal.ieee]

/-- An extended real whose absolute value is below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A conjunction of two one-bit arrays that is 1 at an index: both are 1 there. -/
theorem andi_one {s : Shape} {x y : IVec s 1} {i : s.Idx} (h : andi x y i = 1#1) : x i = 1#1 ∧ y i = 1#1 :=
  IntOp.andi_eq_one.mp h

/-- ONE ARGUMENT: when the conjunction over all entries of \`|x| < +∞\` is 1, every entry of \`x\` is a real number. -/
theorem isReal_of_all {s t u : Shape} {axes : List (Fin s.rank)} [Subsingleton t.Idx] (x : FVec Ideal s .f32)
    (hbc : S_.BroadcastsInDim s (![] : Fin 0 → Fin s.rank)) (init : u.Idx → BitVec 1) (h : s.ReducesTo axes t)
    (hu : 0 < u.numel) (j : t.Idx)
    (e : Host.reduce IntOp.andi (cmpf .olt (Host.absf x) (broadcastInDim s ![] hbc (constant S_ .f32 0x7F800000#32)))
      init h hu j = 1#1) : Sage.IsReal x := by
  intro i
  have hi : Ideal.cmp .olt (max (x i) (-(x i))) (Ideal.ofBits .f32 0x7F800000#32) = 1#1 :=
    Host.reduce_andi_all _ init h hu j e i
  rw [ofBits_inf] at hi
  refine real_of_abs_lt_top (x i) ?_
  by_contra hn
  have : Ideal.cmp .olt (max (x i) (-(x i))) ⊤ = 0#1 := by
    show BitVec.ofBool (decide (max (x i) (-(x i)) < ⊤)) = 0#1
    rw [decide_eq_false hn]; rfl
  rw [this] at hi
  exact absurd hi (by decide)

variable [Facts]
open Facts

/-- FROM THE PRECONDITION TO REAL ENTRIES.  The precondition's value is a conjunction, nested to the left, of one
    conjunction over all entries per float argument, in the order of the arguments; split it from the right and read
    each conjunct back as "every entry is a real number". -/
theorem real_of_pre (a0 : FVec Ideal S200000x128 .f32) (a1 : FVec Ideal S50000x64 .f32) (a2 : FVec Ideal S64x128 .f32)
    (a3 : FVec Ideal S64 .f32) (a4 : FVec Ideal S64x64 .f32) (a5 : FVec Ideal S64 .f32)
    (a6 : FVec Ideal S2x64x64 .f32) (a7 : FVec Ideal S2x64 .f32) (a8 : FVec Ideal S2x64x64 .f32)
    (a9 : FVec Ideal S2x64x64 .f32) (a10 : FVec Ideal S2x64 .f32) (a11 : FVec Ideal S2x64x64 .f32)
    (a12 : FVec Ideal S2x64x64 .f32) (a13 : FVec Ideal S2x64 .f32) (a14 : FVec Ideal S2x64x64 .f32)
    (a15 : FVec Ideal S64x128 .f32) (a16 : FVec Ideal S64 .f32) (a17 : FVec Ideal S2x64 .f32)
    (a18 : FVec Ideal S2 .f32) (a19 a20 a21 : IVec S2x400000 32)
    (h : fn (F := Ideal) a0 a1 a2 a3 a4 a5 a6 a7 a8 a9 a10 a11 a12 a13 a14 a15 a16 a17 a18 a19 a20 a21 = fun _ => 1#1) :
    Sage.IsReal a0 ∧ Sage.IsReal a1 ∧ Sage.IsReal a2 ∧ Sage.IsReal a3 ∧ Sage.IsReal a4 ∧ Sage.IsReal a5 ∧
      Sage.IsReal a6 ∧ Sage.IsReal a7 ∧ Sage.IsReal a8 ∧ Sage.IsReal a9 ∧ Sage.IsReal a10 ∧ Sage.IsReal a11 ∧
      Sage.IsReal a12 ∧ Sage.IsReal a13 ∧ Sage.IsReal a14 ∧ Sage.IsReal a15 ∧ Sage.IsReal a16 ∧
      Sage.IsReal a17 ∧ Sage.IsReal a18 := by
  have h0 := congrFun h ValueIdx.ix0
  dsimp only [fn, fn_part1, fn_part2, fn_part3, fn_part4, fn_part5] at h0
  obtain ⟨h0, h18⟩ := andi_one h0
  obtain ⟨h0, h17⟩ := andi_one h0
  obtain ⟨h0, h16⟩ := andi_one h0
  obtain ⟨h0, h15⟩ := andi_one h0
  obtain ⟨h0, h14⟩ := andi_one h0
  obtain ⟨h0, h13⟩ := andi_one h0
  obtain ⟨h0, h12⟩ := andi_one h0
  obtain ⟨h0, h11⟩ := andi_one h0
  obtain ⟨h0, h10⟩ := andi_one h0
  obtain ⟨h0, h9⟩ := andi_one h0
  obtain ⟨h0, h8⟩ := andi_one h0
  obtain ⟨h0, h7⟩ := andi_one h0
  obtain ⟨h0, h6⟩ := andi_one h0
  obtain ⟨h0, h5⟩ := andi_one h0
  obtain ⟨h0, h4⟩ := andi_one h0
  obtain ⟨h0, h3⟩ := andi_one h0
  obtain ⟨h0, h2⟩ := andi_one h0
  obtain ⟨h0, h1⟩ := andi_one h0
  exact ⟨isReal_of_all a0 _ _ _ _ _ h0,
    isReal_of_all a1 _ _ _ _ _ h1,
    isReal_of_all a2 _ _ _ _ _ h2,
    isReal_of_all a3 _ _ _ _ _ h3,
    isReal_of_all a4 _ _ _ _ _ h4,
    isReal_of_all a5 _ _ _ _ _ h5,
    isReal_of_all a6 _ _ _ _ _ h6,
    isReal_of_all a7 _ _ _ _ _ h7,
    isReal_of_all a8 _ _ _ _ _ h8,
    isReal_of_all a9 _ _ _ _ _ h9,
    isReal_of_all a10 _ _ _ _ _ h10,
    isReal_of_all a11 _ _ _ _ _ h11,
    isReal_of_all a12 _ _ _ _ _ h12,
    isReal_of_all a13 _ _ _ _ _ h13,
    isReal_of_all a14 _ _ _ _ _ h14,
    isReal_of_all a15 _ _ _ _ _ h15,
    isReal_of_all a16 _ _ _ _ _ h16,
    isReal_of_all a17 _ _ _ _ _ h17,
    isReal_of_all a18 _ _ _ _ _ h18⟩

end Cert.Pre_finite_inputs.Real

end
-- ==== Proof.KernelRun.lean ====
/-
  The run of the idealized kernel's whole program, with its result named.

  The program is seventeen segments: stretches of host operations and eight kernel launches.  Every weakly fair
  execution ends, without a fault, with the argument arrays as launched and the result array at the contents the
  segments' fold leaves there: the host stretches applied in order, each launch's output array at what its write-backs
  leave.  The later modules read that fold segment by segment.
-/
import proofs.«130111_j37838661877859_1_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched. -/
theorem run : θ_run defs (onTc (τ := τ) (main (F := F))) ⟨m, fun _ => 0, ρ⟩ (fun r => ∀ c : Dev nD,
      r.2.mem ((c.tc : Thread nD τ).loc main_v199) = W17 m ρ c (Proc.devRef .tc main_v199)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v199 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c),
       (h c _ (mem_uc main_arg21 (by decide))).trans (W17_main_arg21 m ρ c)⟩)

end Cert.KernelIdeal.Val

end
-- ==== Proof.KModel.lean ====
/-
  The whole network as ONE function of the argument arrays, built from the layers' entrywise functions and the
  host's own operations for the irregular part.

  Two node types, "func" (200000 nodes) and "api" (50000 nodes), each projected to 64 features; two rounds of message
  passing, in which a node's new features are the clamped sum of one dense product per incoming relation (of the
  MEAN of its neighbours' features over that relation) and one of its own features; then each type's rows are added
  up, divided by the number of nodes, joined, and sent through a two-layer classifier.  The mean over a relation is
  left as the host computes it: gather the source rows along the edges, add them up per destination, divide by the
  number of incoming edges clamped below at one.
-/
import proofs.«130111_j37838661877859_1_alg».proof.KernelIdeal
import proofs.«130111_j37838661877859_1_alg».proof.Proof.Gen.KernelIdeal
import proofs.«130111_j37838661877859_1_alg».proof.Proof.Spec
import Idealize.ShloMosaic.PureOps.Ideal

noncomputable section

open Idealize.ShloMosaic Idealize.ShloMosaic.TcCoe

namespace Cert.KernelIdeal.Model

open Cert.KernelIdeal Cert.KernelIdeal.Facts₀ Cert.KernelIdeal.Facts

/-- A bias vector as one row. -/
def biasRow (b : FVec Ideal S64 .f32) : FVec Ideal S1x64 .f32 := shapeCast S1x64 b shapeCasts_S64_S1x64

/-- Layer `l`'s weight matrix of a stacked pair. -/
def w0 (w : FVec Ideal S2x64x64 .f32) : FVec Ideal S64x64 .f32 :=
  shapeCast S64x64 (extractStridedSlice S1x64x64 ![0, 0, 0] w slices_S2x64x64_S1x64x64_0_0_0) shapeCasts_S1x64x64_S64x64
def w1 (w : FVec Ideal S2x64x64 .f32) : FVec Ideal S64x64 .f32 :=
  shapeCast S64x64 (extractStridedSlice S1x64x64 ![1, 0, 0] w slices_S2x64x64_S1x64x64_1_0_0) shapeCasts_S1x64x64_S64x64
/-- Layer `l`'s bias vector of a stacked pair. -/
def b0 (b : FVec Ideal S2x64 .f32) : FVec Ideal S64 .f32 :=
  shapeCast S64 (extractStridedSlice S1x64 ![0, 0] b slices_S2x64_S1x64_0_0) shapeCasts_S1x64_S64
def b1 (b : FVec Ideal S2x64 .f32) : FVec Ideal S64 .f32 :=
  shapeCast S64 (extractStridedSlice S1x64 ![1, 0] b slices_S2x64_S1x64_1_0) shapeCasts_S1x64_S64

/-- The destination node of every edge (row 1 of the edge list), as a column. -/
def dst (ei : IVec S2x400000 32) : IVec S400000x1 32 :=
  broadcastInDim S400000x1 ![0] bcast_S400000_S400000x1_0
    (shapeCast S400000 (extractStridedSlice S1x400000 ![1, 0] ei slices_S2x400000_S1x400000_1_0) shapeCasts_S1x400000_S400000)

/-- Row 0 of the edge list. -/
def srcRow (ei : IVec S2x400000 32) : IVec S400000 32 :=
  shapeCast S400000 (extractStridedSlice S1x400000 ![0, 0] ei slices_S2x400000_S1x400000_0_0) shapeCasts_S1x400000_S400000

/-- The source node of every edge, a negative index counted from the end of `n` nodes, as a column. -/
def src (n : BitVec 32) (ei : IVec S2x400000 32) : IVec S400000x1 32 :=
  broadcastInDim S400000x1 ![0] bcast_S400000_S400000x1_0
    (select (cmpi .slt (srcRow ei) (broadcastInDim S400000 ![] bcast_S_S400000 (constantI S_ 32 0#32)))
      (addi (srcRow ei) (broadcastInDim S400000 ![] bcast_S_S400000 (constantI S_ 32 n))) (srcRow ei))

/-- The mean of the func rows gathered along a func → func relation. -/
def aggFF (h : FVec Ideal S200000x64 .f32) (ei : IVec S2x400000 32) : FVec Ideal S200000x64 .f32 :=
  Host.divf
    (Host.scatterAdd scatter_S200000x64_S400000x1_S400000x64_1_0_0_1
      (broadcastInDim S200000x64 ![] bcast_S_S200000x64 (constant S_ .f32 0x00000000#32)) (dst ei)
      (Host.gather gather_S200000x64_S400000x1_S400000x64_1_0_n_n_0_1_164 h (src 200000#32 ei)))
    (broadcastInDim S200000x64 ![0, 1] bcast_S200000x1_S200000x64_0_1
      (maximumf
        (Host.scatterAdd scatter_S200000x1_S400000x1_S400000x1_1_0_0_1
          (broadcastInDim S200000x1 ![] bcast_S_S200000x1 (constant S_ .f32 0x00000000#32)) (dst ei)
          (broadcastInDim S400000x1 ![] bcast_S_S400000x1 (constant S_ .f32 0x3F800000#32)))
        (broadcastInDim S200000x1 ![] bcast_S_S200000x1 (constant S_ .f32 0x3F800000#32))))

/-- The mean of the api rows gathered along an api → func relation. -/
def aggAF (h : FVec Ideal S50000x64 .f32) (ei : IVec S2x400000 32) : FVec Ideal S200000x64 .f32 :=
  Host.divf
    (Host.scatterAdd scatter_S200000x64_S400000x1_S400000x64_1_0_0_1
      (broadcastInDim S200000x64 ![] bcast_S_S200000x64 (constant S_ .f32 0x00000000#32)) (dst ei)
      (Host.gather gather_S50000x64_S400000x1_S400000x64_1_0_n_n_0_1_164 h (src 50000#32 ei)))
    (broadcastInDim S200000x64 ![0, 1] bcast_S200000x1_S200000x64_0_1
      (maximumf
        (Host.scatterAdd scatter_S200000x1_S400000x1_S400000x1_1_0_0_1
          (broadcastInDim S200000x1 ![] bcast_S_S200000x1 (constant S_ .f32 0x00000000#32)) (dst ei)
          (broadcastInDim S400000x1 ![] bcast_S_S400000x1 (constant S_ .f32 0x3F800000#32)))
        (broadcastInDim S200000x1 ![] bcast_S_S200000x1 (constant S_ .f32 0x3F800000#32))))

/-- The mean of the func rows gathered along a func → api relation. -/
def aggFA (h : FVec Ideal S200000x64 .f32) (ei : IVec S2x400000 32) : FVec Ideal S50000x64 .f32 :=
  Host.divf
    (Host.scatterAdd scatter_S50000x64_S400000x1_S400000x64_1_0_0_1
      (broadcastInDim S50000x64 ![] bcast_S_S50000x64 (constant S_ .f32 0x00000000#32)) (dst ei)
      (Host.gather gather_S200000x64_S400000x1_S400000x64_1_0_n_n_0_1_164 h (src 200000#32 ei)))
    (broadcastInDim S50000x64 ![0, 1] bcast_S50000x1_S50000x64_0_1
      (maximumf
        (Host.scatterAdd scatter_S50000x1_S400000x1_S400000x1_1_0_0_1
          (broadcastInDim S50000x1 ![] bcast_S_S50000x1 (constant S_ .f32 0x00000000#32)) (dst ei)
          (broadcastInDim S400000x1 ![] bcast_S_S400000x1 (constant S_ .f32 0x3F800000#32)))
        (broadcastInDim S50000x1 ![] bcast_S_S50000x1 (constant S_ .f32 0x3F800000#32))))

/-- The classifier on the two pooled rows: each divided by its number of nodes, joined, a dense layer clamped at
    zero, a dense layer. -/
def tail (sf sa : FVec Ideal S1x64 .f32) (wc1 : FVec Ideal S64x128 .f32) (bc1 : FVec Ideal S64 .f32)
    (wc2 : FVec Ideal S2x64 .f32) (bc2 : FVec Ideal S2 .f32) : FVec Ideal S1x2 .f32 :=
  addf
    (Host.dotGeneral dot_S1x64_S64x2_S1x2_1_0_0_1_n_n none
      (maximumf
        (addf
          (Host.dotGeneral dot_S1x128_S128x64_S1x64_1_0_0_1_n_n none
            (concatenate S1x128 1
              [⟨S1x64, Host.divf sf (broadcastInDim S1x64 ![] bcast_S_S1x64 (constant S_ .f32 0x48435000#32))⟩,
               ⟨S1x64, Host.divf sa (broadcastInDim S1x64 ![] bcast_S_S1x64 (constant S_ .f32 0x47435000#32))⟩]
              concatenates_S1x64_S1x64_S1x128_d1)
            (transpose S128x64 [1, 0] wc1 transposes_S64x128_S128x64_1_0))
          (broadcastInDim S1x64 ![1] bcast_S64_S1x64_1 bc1))
        (broadcastInDim S1x64 ![] bcast_S_S1x64 (constant S_ .f32 0x00000000#32)))
      (transpose S64x2 [1, 0] wc2 transposes_S2x64_S64x2_1_0))
    (broadcastInDim S1x2 ![1] bcast_S2_S1x2_1 bc2)

end Cert.KernelIdeal.Model

end
-- ==== Proof.KWalk.lean ====
/-
  The contents of the buffers the kernel's launches and the host stretches read, traced back through the program.

  A buffer no operation of a stretch writes, and no launch has among its arrays, holds after it what it held before;
  an input array of a launch holds after it what it held before.  So every argument array, wherever it is read, is
  the launch memory's, and every intermediate array is what the stretch or launch that made it left there.  The
  host stretches' own results are their operations' terms of the buffers they read.
-/
import proofs.«130111_j37838661877859_1_alg».proof.Proof.Gen.KernelIdeal.Frame
import proofs.«130111_j37838661877859_1_alg».proof.Proof.KModel

set_option maxRecDepth 16384

noncomputable section

namespace Cert.KernelIdeal.Val

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.KernelIdeal.Model

variable (m : (ℓ : Loc nD τ sig) → Buf (Elt Ideal) ℓ) (ρ : Dev nD → PrngReg) (c : Dev nD)

/-- A buffer that no operation of the stretch writes keeps its contents. -/
macro "keepH" ops:ident b:ident : term =>
  `(StableHlo.after_of_forall_not_mem (b := Proc.devRef .tc $b) $ops _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The argument arrays where they are read -/

theorem a0_at1 : W1 m ρ c (Proc.devRef .tc main_arg0) = (m ((c : Thread nD τ).loc main_arg0)) :=
  Eq.trans (keepH hostOps0 main_arg0) (rfl)
theorem a2_at1 : W1 m ρ c (Proc.devRef .tc main_arg2) = (m ((c : Thread nD τ).loc main_arg2)) :=
  Eq.trans (keepH hostOps0 main_arg2) (rfl)
theorem a3_at0 : W0 m ρ c (Proc.devRef .tc main_arg3) = (m ((c : Thread nD τ).loc main_arg3)) := rfl
theorem a1_at3 : W3 m ρ c (Proc.devRef .tc main_arg1) = (m ((c : Thread nD τ).loc main_arg1)) :=
  Eq.trans (keepH hostOps1 main_arg1) (Eq.trans (W2_of_ne m ρ c main_arg1 (by decide)) (Eq.trans (keepH hostOps0 main_arg1) (rfl)))
theorem a4_at3 : W3 m ρ c (Proc.devRef .tc main_arg4) = (m ((c : Thread nD τ).loc main_arg4)) :=
  Eq.trans (keepH hostOps1 main_arg4) (Eq.trans (W2_of_ne m ρ c main_arg4 (by decide)) (Eq.trans (keepH hostOps0 main_arg4) (rfl)))
theorem a5_at2 : W2 m ρ c (Proc.devRef .tc main_arg5) = (m ((c : Thread nD τ).loc main_arg5)) :=
  Eq.trans (W2_of_ne m ρ c main_arg5 (by decide)) (Eq.trans (keepH hostOps0 main_arg5) (rfl))
theorem a19_at4 : W4 m ρ c (Proc.devRef .tc main_arg19) = (m ((c : Thread nD τ).loc main_arg19)) :=
  Eq.trans (W4_of_ne m ρ c main_arg19 (by decide)) (Eq.trans (keepH hostOps1 main_arg19) (Eq.trans (W2_of_ne m ρ c main_arg19 (by decide)) (Eq.trans (keepH hostOps0 main_arg19) (rfl))))
theorem a21_at4 : W4 m ρ c (Proc.devRef .tc main_arg21) = (m ((c : Thread nD τ).loc main_arg21)) :=
  Eq.trans (W4_of_ne m ρ c main_arg21 (by decide)) (Eq.trans (keepH hostOps1 main_arg21) (Eq.trans (W2_of_ne m ρ c main_arg21 (by decide)) (Eq.trans (keepH hostOps0 main_arg21) (rfl))))
theorem a20_at4 : W4 m ρ c (Proc.devRef .tc main_arg20) = (m ((c : Thread nD τ).loc main_arg20)) :=
  Eq.trans (W4_of_ne m ρ c main_arg20 (by decide)) (Eq.trans (keepH hostOps1 main_arg20) (Eq.trans (W2_of_ne m ρ c main_arg20 (by decide)) (Eq.trans (keepH hostOps0 main_arg20) (rfl))))
theorem a8_at4 : W4 m ρ c (Proc.devRef .tc main_arg8) = (m ((c : Thread nD τ).loc main_arg8)) :=
  Eq.trans (W4_of_ne m ρ c main_arg8 (by decide)) (Eq.trans (keepH hostOps1 main_arg8) (Eq.trans (W2_of_ne m ρ c main_arg8 (by decide)) (Eq.trans (keepH hostOps0 main_arg8) (rfl))))
theorem a14_at4 : W4 m ρ c (Proc.devRef .tc main_arg14) = (m ((c : Thread nD τ).loc main_arg14)) :=
  Eq.trans (W4_of_ne m ρ c main_arg14 (by decide)) (Eq.trans (keepH hostOps1 main_arg14) (Eq.trans (W2_of_ne m ρ c main_arg14 (by decide)) (Eq.trans (keepH hostOps0 main_arg14) (rfl))))
theorem a7_at4 : W4 m ρ c (Proc.devRef .tc main_arg7) = (m ((c : Thread nD τ).loc main_arg7)) :=
  Eq.trans (W4_of_ne m ρ c main_arg7 (by decide)) (Eq.trans (keepH hostOps1 main_arg7) (Eq.trans (W2_of_ne m ρ c main_arg7 (by decide)) (Eq.trans (keepH hostOps0 main_arg7) (rfl))))
theorem a13_at4 : W4 m ρ c (Proc.devRef .tc main_arg13) = (m ((c : Thread nD τ).loc main_arg13)) :=
  Eq.trans (W4_of_ne m ρ c main_arg13 (by decide)) (Eq.trans (keepH hostOps1 main_arg13) (Eq.trans (W2_of_ne m ρ c main_arg13 (by decide)) (Eq.trans (keepH hostOps0 main_arg13) (rfl))))
theorem a6_at4 : W4 m ρ c (Proc.devRef .tc main_arg6) = (m ((c : Thread nD τ).loc main_arg6)) :=
  Eq.trans (W4_of_ne m ρ c main_arg6 (by decide)) (Eq.trans (keepH hostOps1 main_arg6) (Eq.trans (W2_of_ne m ρ c main_arg6 (by decide)) (Eq.trans (keepH hostOps0 main_arg6) (rfl))))
theorem a12_at4 : W4 m ρ c (Proc.devRef .tc main_arg12) = (m ((c : Thread nD τ).loc main_arg12)) :=
  Eq.trans (W4_of_ne m ρ c main_arg12 (by decide)) (Eq.trans (keepH hostOps1 main_arg12) (Eq.trans (W2_of_ne m ρ c main_arg12 (by decide)) (Eq.trans (keepH hostOps0 main_arg12) (rfl))))
theorem a9_at6 : W6 m ρ c (Proc.devRef .tc main_arg9) = (m ((c : Thread nD τ).loc main_arg9)) :=
  Eq.trans (W6_of_ne m ρ c main_arg9 (by decide)) (Eq.trans (keepH hostOps2 main_arg9) (Eq.trans (W4_of_ne m ρ c main_arg9 (by decide)) (Eq.trans (keepH hostOps1 main_arg9) (Eq.trans (W2_of_ne m ρ c main_arg9 (by decide)) (Eq.trans (keepH hostOps0 main_arg9) (rfl))))))
theorem a11_at6 : W6 m ρ c (Proc.devRef .tc main_arg11) = (m ((c : Thread nD τ).loc main_arg11)) :=
  Eq.trans (W6_of_ne m ρ c main_arg11 (by decide)) (Eq.trans (keepH hostOps2 main_arg11) (Eq.trans (W4_of_ne m ρ c main_arg11 (by decide)) (Eq.trans (keepH hostOps1 main_arg11) (Eq.trans (W2_of_ne m ρ c main_arg11 (by decide)) (Eq.trans (keepH hostOps0 main_arg11) (rfl))))))
theorem a10_at6 : W6 m ρ c (Proc.devRef .tc main_arg10) = (m ((c : Thread nD τ).loc main_arg10)) :=
  Eq.trans (W6_of_ne m ρ c main_arg10 (by decide)) (Eq.trans (keepH hostOps2 main_arg10) (Eq.trans (W4_of_ne m ρ c main_arg10 (by decide)) (Eq.trans (keepH hostOps1 main_arg10) (Eq.trans (W2_of_ne m ρ c main_arg10 (by decide)) (Eq.trans (keepH hostOps0 main_arg10) (rfl))))))
theorem a19_at8 : W8 m ρ c (Proc.devRef .tc main_arg19) = (m ((c : Thread nD τ).loc main_arg19)) :=
  Eq.trans (W8_of_ne m ρ c main_arg19 (by decide)) (Eq.trans (keepH hostOps3 main_arg19) (Eq.trans (W6_of_ne m ρ c main_arg19 (by decide)) (Eq.trans (keepH hostOps2 main_arg19) (Eq.trans (W4_of_ne m ρ c main_arg19 (by decide)) (Eq.trans (keepH hostOps1 main_arg19) (Eq.trans (W2_of_ne m ρ c main_arg19 (by decide)) (Eq.trans (keepH hostOps0 main_arg19) (rfl))))))))
theorem a21_at8 : W8 m ρ c (Proc.devRef .tc main_arg21) = (m ((c : Thread nD τ).loc main_arg21)) :=
  Eq.trans (W8_of_ne m ρ c main_arg21 (by decide)) (Eq.trans (keepH hostOps3 main_arg21) (Eq.trans (W6_of_ne m ρ c main_arg21 (by decide)) (Eq.trans (keepH hostOps2 main_arg21) (Eq.trans (W4_of_ne m ρ c main_arg21 (by decide)) (Eq.trans (keepH hostOps1 main_arg21) (Eq.trans (W2_of_ne m ρ c main_arg21 (by decide)) (Eq.trans (keepH hostOps0 main_arg21) (rfl))))))))
theorem a20_at8 : W8 m ρ c (Proc.devRef .tc main_arg20) = (m ((c : Thread nD τ).loc main_arg20)) :=
  Eq.trans (W8_of_ne m ρ c main_arg20 (by decide)) (Eq.trans (keepH hostOps3 main_arg20) (Eq.trans (W6_of_ne m ρ c main_arg20 (by decide)) (Eq.trans (keepH hostOps2 main_arg20) (Eq.trans (W4_of_ne m ρ c main_arg20 (by decide)) (Eq.trans (keepH hostOps1 main_arg20) (Eq.trans (W2_of_ne m ρ c main_arg20 (by decide)) (Eq.trans (keepH hostOps0 main_arg20) (rfl))))))))
theorem a8_at8 : W8 m ρ c (Proc.devRef .tc main_arg8) = (m ((c : Thread nD τ).loc main_arg8)) :=
  Eq.trans (W8_of_ne m ρ c main_arg8 (by decide)) (Eq.trans (keepH hostOps3 main_arg8) (Eq.trans (W6_of_ne m ρ c main_arg8 (by decide)) (Eq.trans (keepH hostOps2 main_arg8) (Eq.trans (W4_of_ne m ρ c main_arg8 (by decide)) (Eq.trans (keepH hostOps1 main_arg8) (Eq.trans (W2_of_ne m ρ c main_arg8 (by decide)) (Eq.trans (keepH hostOps0 main_arg8) (rfl))))))))
theorem a14_at8 : W8 m ρ c (Proc.devRef .tc main_arg14) = (m ((c : Thread nD τ).loc main_arg14)) :=
  Eq.trans (W8_of_ne m ρ c main_arg14 (by decide)) (Eq.trans (keepH hostOps3 main_arg14) (Eq.trans (W6_of_ne m ρ c main_arg14 (by decide)) (Eq.trans (keepH hostOps2 main_arg14) (Eq.trans (W4_of_ne m ρ c main_arg14 (by decide)) (Eq.trans (keepH hostOps1 main_arg14) (Eq.trans (W2_of_ne m ρ c main_arg14 (by decide)) (Eq.trans (keepH hostOps0 main_arg14) (rfl))))))))
theorem a7_at8 : W8 m ρ c (Proc.devRef .tc main_arg7) = (m ((c : Thread nD τ).loc main_arg7)) :=
  Eq.trans (W8_of_ne m ρ c main_arg7 (by decide)) (Eq.trans (keepH hostOps3 main_arg7) (Eq.trans (W6_of_ne m ρ c main_arg7 (by decide)) (Eq.trans (keepH hostOps2 main_arg7) (Eq.trans (W4_of_ne m ρ c main_arg7 (by decide)) (Eq.trans (keepH hostOps1 main_arg7) (Eq.trans (W2_of_ne m ρ c main_arg7 (by decide)) (Eq.trans (keepH hostOps0 main_arg7) (rfl))))))))
theorem a13_at8 : W8 m ρ c (Proc.devRef .tc main_arg13) = (m ((c : Thread nD τ).loc main_arg13)) :=
  Eq.trans (W8_of_ne m ρ c main_arg13 (by decide)) (Eq.trans (keepH hostOps3 main_arg13) (Eq.trans (W6_of_ne m ρ c main_arg13 (by decide)) (Eq.trans (keepH hostOps2 main_arg13) (Eq.trans (W4_of_ne m ρ c main_arg13 (by decide)) (Eq.trans (keepH hostOps1 main_arg13) (Eq.trans (W2_of_ne m ρ c main_arg13 (by decide)) (Eq.trans (keepH hostOps0 main_arg13) (rfl))))))))
theorem a6_at8 : W8 m ρ c (Proc.devRef .tc main_arg6) = (m ((c : Thread nD τ).loc main_arg6)) :=
  Eq.trans (W8_of_ne m ρ c main_arg6 (by decide)) (Eq.trans (keepH hostOps3 main_arg6) (Eq.trans (W6_of_ne m ρ c main_arg6 (by decide)) (Eq.trans (keepH hostOps2 main_arg6) (Eq.trans (W4_of_ne m ρ c main_arg6 (by decide)) (Eq.trans (keepH hostOps1 main_arg6) (Eq.trans (W2_of_ne m ρ c main_arg6 (by decide)) (Eq.trans (keepH hostOps0 main_arg6) (rfl))))))))
theorem a12_at8 : W8 m ρ c (Proc.devRef .tc main_arg12) = (m ((c : Thread nD τ).loc main_arg12)) :=
  Eq.trans (W8_of_ne m ρ c main_arg12 (by decide)) (Eq.trans (keepH hostOps3 main_arg12) (Eq.trans (W6_of_ne m ρ c main_arg12 (by decide)) (Eq.trans (keepH hostOps2 main_arg12) (Eq.trans (W4_of_ne m ρ c main_arg12 (by decide)) (Eq.trans (keepH hostOps1 main_arg12) (Eq.trans (W2_of_ne m ρ c main_arg12 (by decide)) (Eq.trans (keepH hostOps0 main_arg12) (rfl))))))))
theorem a9_at10 : W10 m ρ c (Proc.devRef .tc main_arg9) = (m ((c : Thread nD τ).loc main_arg9)) :=
  Eq.trans (W10_of_ne m ρ c main_arg9 (by decide)) (Eq.trans (keepH hostOps4 main_arg9) (Eq.trans (W8_of_ne m ρ c main_arg9 (by decide)) (Eq.trans (keepH hostOps3 main_arg9) (Eq.trans (W6_of_ne m ρ c main_arg9 (by decide)) (Eq.trans (keepH hostOps2 main_arg9) (Eq.trans (W4_of_ne m ρ c main_arg9 (by decide)) (Eq.trans (keepH hostOps1 main_arg9) (Eq.trans (W2_of_ne m ρ c main_arg9 (by decide)) (Eq.trans (keepH hostOps0 main_arg9) (rfl))))))))))
theorem a11_at10 : W10 m ρ c (Proc.devRef .tc main_arg11) = (m ((c : Thread nD τ).loc main_arg11)) :=
  Eq.trans (W10_of_ne m ρ c main_arg11 (by decide)) (Eq.trans (keepH hostOps4 main_arg11) (Eq.trans (W8_of_ne m ρ c main_arg11 (by decide)) (Eq.trans (keepH hostOps3 main_arg11) (Eq.trans (W6_of_ne m ρ c main_arg11 (by decide)) (Eq.trans (keepH hostOps2 main_arg11) (Eq.trans (W4_of_ne m ρ c main_arg11 (by decide)) (Eq.trans (keepH hostOps1 main_arg11) (Eq.trans (W2_of_ne m ρ c main_arg11 (by decide)) (Eq.trans (keepH hostOps0 main_arg11) (rfl))))))))))
theorem a10_at10 : W10 m ρ c (Proc.devRef .tc main_arg10) = (m ((c : Thread nD τ).loc main_arg10)) :=
  Eq.trans (W10_of_ne m ρ c main_arg10 (by decide)) (Eq.trans (keepH hostOps4 main_arg10) (Eq.trans (W8_of_ne m ρ c main_arg10 (by decide)) (Eq.trans (keepH hostOps3 main_arg10) (Eq.trans (W6_of_ne m ρ c main_arg10 (by decide)) (Eq.trans (keepH hostOps2 main_arg10) (Eq.trans (W4_of_ne m ρ c main_arg10 (by decide)) (Eq.trans (keepH hostOps1 main_arg10) (Eq.trans (W2_of_ne m ρ c main_arg10 (by decide)) (Eq.trans (keepH hostOps0 main_arg10) (rfl))))))))))
theorem a15_at14 : W14 m ρ c (Proc.devRef .tc main_arg15) = (m ((c : Thread nD τ).loc main_arg15)) :=
  Eq.trans (W14_of_ne m ρ c main_arg15 (by decide)) (Eq.trans (W13_of_ne m ρ c main_arg15 (by decide)) (Eq.trans (W12_of_ne m ρ c main_arg15 (by decide)) (Eq.trans (keepH hostOps5 main_arg15) (Eq.trans (W10_of_ne m ρ c main_arg15 (by decide)) (Eq.trans (keepH hostOps4 main_arg15) (Eq.trans (W8_of_ne m ρ c main_arg15 (by decide)) (Eq.trans (keepH hostOps3 main_arg15) (Eq.trans (W6_of_ne m ρ c main_arg15 (by decide)) (Eq.trans (keepH hostOps2 main_arg15) (Eq.trans (W4_of_ne m ρ c main_arg15 (by decide)) (Eq.trans (keepH hostOps1 main_arg15) (Eq.trans (W2_of_ne m ρ c main_arg15 (by decide)) (Eq.trans (keepH hostOps0 main_arg15) (rfl))))))))))))))
theorem a16_at14 : W14 m ρ c (Proc.devRef .tc main_arg16) = (m ((c : Thread nD τ).loc main_arg16)) :=
  Eq.trans (W14_of_ne m ρ c main_arg16 (by decide)) (Eq.trans (W13_of_ne m ρ c main_arg16 (by decide)) (Eq.trans (W12_of_ne m ρ c main_arg16 (by decide)) (Eq.trans (keepH hostOps5 main_arg16) (Eq.trans (W10_of_ne m ρ c main_arg16 (by decide)) (Eq.trans (keepH hostOps4 main_arg16) (Eq.trans (W8_of_ne m ρ c main_arg16 (by decide)) (Eq.trans (keepH hostOps3 main_arg16) (Eq.trans (W6_of_ne m ρ c main_arg16 (by decide)) (Eq.trans (keepH hostOps2 main_arg16) (Eq.trans (W4_of_ne m ρ c main_arg16 (by decide)) (Eq.trans (keepH hostOps1 main_arg16) (Eq.trans (W2_of_ne m ρ c main_arg16 (by decide)) (Eq.trans (keepH hostOps0 main_arg16) (rfl))))))))))))))
theorem a17_at14 : W14 m ρ c (Proc.devRef .tc main_arg17) = (m ((c : Thread nD τ).loc main_arg17)) :=
  Eq.trans (W14_of_ne m ρ c main_arg17 (by decide)) (Eq.trans (W13_of_ne m ρ c main_arg17 (by decide)) (Eq.trans (W12_of_ne m ρ c main_arg17 (by decide)) (Eq.trans (keepH hostOps5 main_arg17) (Eq.trans (W10_of_ne m ρ c main_arg17 (by decide)) (Eq.trans (keepH hostOps4 main_arg17) (Eq.trans (W8_of_ne m ρ c main_arg17 (by decide)) (Eq.trans (keepH hostOps3 main_arg17) (Eq.trans (W6_of_ne m ρ c main_arg17 (by decide)) (Eq.trans (keepH hostOps2 main_arg17) (Eq.trans (W4_of_ne m ρ c main_arg17 (by decide)) (Eq.trans (keepH hostOps1 main_arg17) (Eq.trans (W2_of_ne m ρ c main_arg17 (by decide)) (Eq.trans (keepH hostOps0 main_arg17) (rfl))))))))))))))
theorem a18_at14 : W14 m ρ c (Proc.devRef .tc main_arg18) = (m ((c : Thread nD τ).loc main_arg18)) :=
  Eq.trans (W14_of_ne m ρ c main_arg18 (by decide)) (Eq.trans (W13_of_ne m ρ c main_arg18 (by decide)) (Eq.trans (W12_of_ne m ρ c main_arg18 (by decide)) (Eq.trans (keepH hostOps5 main_arg18) (Eq.trans (W10_of_ne m ρ c main_arg18 (by decide)) (Eq.trans (keepH hostOps4 main_arg18) (Eq.trans (W8_of_ne m ρ c main_arg18 (by decide)) (Eq.trans (keepH hostOps3 main_arg18) (Eq.trans (W6_of_ne m ρ c main_arg18 (by decide)) (Eq.trans (keepH hostOps2 main_arg18) (Eq.trans (W4_of_ne m ρ c main_arg18 (by decide)) (Eq.trans (keepH hostOps1 main_arg18) (Eq.trans (W2_of_ne m ρ c main_arg18 (by decide)) (Eq.trans (keepH hostOps0 main_arg18) (rfl))))))))))))))

/-! ## Intermediate arrays carried to where they are read -/

theorem v1_4_2 : W4 m ρ c (Proc.devRef .tc main_v1) = W2 m ρ c (Proc.devRef .tc main_v1) :=
  Eq.trans (W4_of_ne m ρ c main_v1 (by decide)) ((keepH hostOps1 main_v1))
theorem v1_5_2 : W5 m ρ c (Proc.devRef .tc main_v1) = W2 m ρ c (Proc.devRef .tc main_v1) :=
  Eq.trans (keepH hostOps2 main_v1) (Eq.trans (W4_of_ne m ρ c main_v1 (by decide)) ((keepH hostOps1 main_v1)))
theorem v3_7_4 : W7 m ρ c (Proc.devRef .tc main_v3) = W4 m ρ c (Proc.devRef .tc main_v3) :=
  Eq.trans (keepH hostOps3 main_v3) (Eq.trans (W6_of_ne m ρ c main_v3 (by decide)) ((keepH hostOps2 main_v3)))
theorem v69_7_5 : W7 m ρ c (Proc.devRef .tc main_v69) = W5 m ρ c (Proc.devRef .tc main_v69) :=
  Eq.trans (keepH hostOps3 main_v69) ((W6_of_ne m ρ c main_v69 (by decide)))
theorem v85_8_6 : W8 m ρ c (Proc.devRef .tc main_v85) = W6 m ρ c (Proc.devRef .tc main_v85) :=
  Eq.trans (W8_of_ne m ρ c main_v85 (by decide)) ((keepH hostOps3 main_v85))
theorem v85_9_6 : W9 m ρ c (Proc.devRef .tc main_v85) = W6 m ρ c (Proc.devRef .tc main_v85) :=
  Eq.trans (keepH hostOps4 main_v85) (Eq.trans (W8_of_ne m ρ c main_v85 (by decide)) ((keepH hostOps3 main_v85)))
theorem v93_11_8 : W11 m ρ c (Proc.devRef .tc main_v93) = W8 m ρ c (Proc.devRef .tc main_v93) :=
  Eq.trans (keepH hostOps5 main_v93) (Eq.trans (W10_of_ne m ρ c main_v93 (by decide)) ((keepH hostOps4 main_v93)))
theorem v159_11_9 : W11 m ρ c (Proc.devRef .tc main_v159) = W9 m ρ c (Proc.devRef .tc main_v159) :=
  Eq.trans (keepH hostOps5 main_v159) ((W10_of_ne m ρ c main_v159 (by decide)))
theorem v175_12_10 : W12 m ρ c (Proc.devRef .tc main_v175) = W10 m ρ c (Proc.devRef .tc main_v175) :=
  Eq.trans (W12_of_ne m ρ c main_v175 (by decide)) ((keepH hostOps5 main_v175))
theorem v183_13_12 : W13 m ρ c (Proc.devRef .tc main_v183) = W12 m ρ c (Proc.devRef .tc main_v183) :=
  (W13_of_ne m ρ c main_v183 (by decide))
theorem v184_14_13 : W14 m ρ c (Proc.devRef .tc main_v184) = W13 m ρ c (Proc.devRef .tc main_v184) :=
  (W14_of_ne m ρ c main_v184 (by decide))

/-! ## What the host stretches compute -/

theorem h_v0 : W1 m ρ c (Proc.devRef .tc main_v0) = biasRow (W0 m ρ c (Proc.devRef .tc main_arg3)) := by
  show StableHlo.after hostOps0 (W0 m ρ c) (Proc.devRef .tc main_v0) = _
  dsimp only [hostOps0]
  after_results
  rfl
theorem h_v2 : W3 m ρ c (Proc.devRef .tc main_v2) = biasRow (W2 m ρ c (Proc.devRef .tc main_arg5)) := by
  show StableHlo.after hostOps1 (W2 m ρ c) (Proc.devRef .tc main_v2) = _
  dsimp only [hostOps1]
  after_results
  rfl
theorem h_v25 : W5 m ρ c (Proc.devRef .tc main_v25) = aggFF (W4 m ρ c (Proc.devRef .tc main_v1)) (W4 m ρ c (Proc.devRef .tc main_arg19)) := by
  show StableHlo.after hostOps2 (W4 m ρ c) (Proc.devRef .tc main_v25) = _
  dsimp only [hostOps2]
  after_results_simp
  rfl
theorem h_v47 : W5 m ρ c (Proc.devRef .tc main_v47) = aggAF (W4 m ρ c (Proc.devRef .tc main_v3)) (W4 m ρ c (Proc.devRef .tc main_arg21)) := by
  show StableHlo.after hostOps2 (W4 m ρ c) (Proc.devRef .tc main_v47) = _
  dsimp only [hostOps2]
  after_results_simp
  rfl
theorem h_v69 : W5 m ρ c (Proc.devRef .tc main_v69) = aggFA (W4 m ρ c (Proc.devRef .tc main_v1)) (W4 m ρ c (Proc.devRef .tc main_arg20)) := by
  show StableHlo.after hostOps2 (W4 m ρ c) (Proc.devRef .tc main_v69) = _
  dsimp only [hostOps2]
  after_results_simp
  rfl
theorem h_v74 : W5 m ρ c (Proc.devRef .tc main_v74) = addf (w0 (W4 m ρ c (Proc.devRef .tc main_arg8))) (w0 (W4 m ρ c (Proc.devRef .tc main_arg14))) := by
  show StableHlo.after hostOps2 (W4 m ρ c) (Proc.devRef .tc main_v74) = _
  dsimp only [hostOps2]
  after_results_simp
  rfl
theorem h_v84 : W5 m ρ c (Proc.devRef .tc main_v84) = biasRow (addf (b0 (W4 m ρ c (Proc.devRef .tc main_arg7))) (b0 (W4 m ρ c (Proc.devRef .tc main_arg13)))) := by
  show StableHlo.after hostOps2 (W4 m ρ c) (Proc.devRef .tc main_v84) = _
  dsimp only [hostOps2]
  after_results_simp
  rfl
theorem h_v81 : W5 m ρ c (Proc.devRef .tc main_v81) = w0 (W4 m ρ c (Proc.devRef .tc main_arg6)) := by
  show StableHlo.after hostOps2 (W4 m ρ c) (Proc.devRef .tc main_v81) = _
  dsimp only [hostOps2]
  after_results_simp
  rfl
theorem h_v83 : W5 m ρ c (Proc.devRef .tc main_v83) = w0 (W4 m ρ c (Proc.devRef .tc main_arg12)) := by
  show StableHlo.after hostOps2 (W4 m ρ c) (Proc.devRef .tc main_v83) = _
  dsimp only [hostOps2]
  after_results_simp
  rfl
theorem h_v87 : W7 m ρ c (Proc.devRef .tc main_v87) = w0 (W6 m ρ c (Proc.devRef .tc main_arg9)) := by
  show StableHlo.after hostOps3 (W6 m ρ c) (Proc.devRef .tc main_v87) = _
  dsimp only [hostOps3]
  after_results
  rfl
theorem h_v89 : W7 m ρ c (Proc.devRef .tc main_v89) = w0 (W6 m ρ c (Proc.devRef .tc main_arg11)) := by
  show StableHlo.after hostOps3 (W6 m ρ c) (Proc.devRef .tc main_v89) = _
  dsimp only [hostOps3]
  after_results
  rfl
theorem h_v92 : W7 m ρ c (Proc.devRef .tc main_v92) = biasRow (b0 (W6 m ρ c (Proc.devRef .tc main_arg10))) := by
  show StableHlo.after hostOps3 (W6 m ρ c) (Proc.devRef .tc main_v92) = _
  dsimp only [hostOps3]
  after_results
  rfl
theorem h_v115 : W9 m ρ c (Proc.devRef .tc main_v115) = aggFF (W8 m ρ c (Proc.devRef .tc main_v85)) (W8 m ρ c (Proc.devRef .tc main_arg19)) := by
  show StableHlo.after hostOps4 (W8 m ρ c) (Proc.devRef .tc main_v115) = _
  dsimp only [hostOps4]
  after_results_simp
  rfl
theorem h_v137 : W9 m ρ c (Proc.devRef .tc main_v137) = aggAF (W8 m ρ c (Proc.devRef .tc main_v93)) (W8 m ρ c (Proc.devRef .tc main_arg21)) := by
  show StableHlo.after hostOps4 (W8 m ρ c) (Proc.devRef .tc main_v137) = _
  dsimp only [hostOps4]
  after_results_simp
  rfl
theorem h_v159 : W9 m ρ c (Proc.devRef .tc main_v159) = aggFA (W8 m ρ c (Proc.devRef .tc main_v85)) (W8 m ρ c (Proc.devRef .tc main_arg20)) := by
  show StableHlo.after hostOps4 (W8 m ρ c) (Proc.devRef .tc main_v159) = _
  dsimp only [hostOps4]
  after_results_simp
  rfl
theorem h_v164 : W9 m ρ c (Proc.devRef .tc main_v164) = addf (w1 (W8 m ρ c (Proc.devRef .tc main_arg8))) (w1 (W8 m ρ c (Proc.devRef .tc main_arg14))) := by
  show StableHlo.after hostOps4 (W8 m ρ c) (Proc.devRef .tc main_v164) = _
  dsimp only [hostOps4]
  after_results_simp
  rfl
theorem h_v174 : W9 m ρ c (Proc.devRef .tc main_v174) = biasRow (addf (b1 (W8 m ρ c (Proc.devRef .tc main_arg7))) (b1 (W8 m ρ c (Proc.devRef .tc main_arg13)))) := by
  show StableHlo.after hostOps4 (W8 m ρ c) (Proc.devRef .tc main_v174) = _
  dsimp only [hostOps4]
  after_results_simp
  rfl
theorem h_v171 : W9 m ρ c (Proc.devRef .tc main_v171) = w1 (W8 m ρ c (Proc.devRef .tc main_arg6)) := by
  show StableHlo.after hostOps4 (W8 m ρ c) (Proc.devRef .tc main_v171) = _
  dsimp only [hostOps4]
  after_results_simp
  rfl
theorem h_v173 : W9 m ρ c (Proc.devRef .tc main_v173) = w1 (W8 m ρ c (Proc.devRef .tc main_arg12)) := by
  show StableHlo.after hostOps4 (W8 m ρ c) (Proc.devRef .tc main_v173) = _
  dsimp only [hostOps4]
  after_results_simp
  rfl
theorem h_v177 : W11 m ρ c (Proc.devRef .tc main_v177) = w1 (W10 m ρ c (Proc.devRef .tc main_arg9)) := by
  show StableHlo.after hostOps5 (W10 m ρ c) (Proc.devRef .tc main_v177) = _
  dsimp only [hostOps5]
  after_results
  rfl
theorem h_v179 : W11 m ρ c (Proc.devRef .tc main_v179) = w1 (W10 m ρ c (Proc.devRef .tc main_arg11)) := by
  show StableHlo.after hostOps5 (W10 m ρ c) (Proc.devRef .tc main_v179) = _
  dsimp only [hostOps5]
  after_results
  rfl
theorem h_v182 : W11 m ρ c (Proc.devRef .tc main_v182) = biasRow (b1 (W10 m ρ c (Proc.devRef .tc main_arg10))) := by
  show StableHlo.after hostOps5 (W10 m ρ c) (Proc.devRef .tc main_v182) = _
  dsimp only [hostOps5]
  after_results
  rfl
/-- The classifier in three steps: the pooled rows divided by the node counts, joined, through the first dense
    layer; the clamp at zero; the second dense layer. -/
def cls1 (sf sa : FVec Ideal S1x64 .f32) (wc1 : FVec Ideal S64x128 .f32) (bc1 : FVec Ideal S64 .f32) :
    FVec Ideal S1x64 .f32 :=
  addf
    (Host.dotGeneral dot_S1x128_S128x64_S1x64_1_0_0_1_n_n none
      (concatenate S1x128 1
        [⟨S1x64, Host.divf sf (broadcastInDim S1x64 ![] bcast_S_S1x64 (constant S_ .f32 0x48435000#32))⟩,
         ⟨S1x64, Host.divf sa (broadcastInDim S1x64 ![] bcast_S_S1x64 (constant S_ .f32 0x47435000#32))⟩]
        concatenates_S1x64_S1x64_S1x128_d1)
      (transpose S128x64 [1, 0] wc1 transposes_S64x128_S128x64_1_0))
    (broadcastInDim S1x64 ![1] bcast_S64_S1x64_1 bc1)
def cls2 (x : FVec Ideal S1x64 .f32) : FVec Ideal S1x64 .f32 :=
  maximumf x (broadcastInDim S1x64 ![] bcast_S_S1x64 (constant S_ .f32 0x00000000#32))
def cls3 (x : FVec Ideal S1x64 .f32) (wc2 : FVec Ideal S2x64 .f32) (bc2 : FVec Ideal S2 .f32) : FVec Ideal S1x2 .f32 :=
  addf (Host.dotGeneral dot_S1x64_S64x2_S1x2_1_0_0_1_n_n none x (transpose S64x2 [1, 0] wc2 transposes_S2x64_S64x2_1_0))
    (broadcastInDim S1x2 ![1] bcast_S2_S1x2_1 bc2)

set_option maxHeartbeats 1000000 in
theorem h_v194 : W15 m ρ c (Proc.devRef .tc main_v194) = cls1 (W14 m ρ c (Proc.devRef .tc main_v184)) (W14 m ρ c (Proc.devRef .tc main_v185)) (W14 m ρ c (Proc.devRef .tc main_arg15)) (W14 m ρ c (Proc.devRef .tc main_arg16)) := by
  show StableHlo.after hostOps8 (W14 m ρ c) (Proc.devRef .tc main_v194) = _
  generalize W14 m ρ c = V0
  dsimp only [hostOps8]
  after_results_simp
  rfl

set_option maxHeartbeats 1000000 in
theorem h_v195 : W16 m ρ c (Proc.devRef .tc main_v195) = cls2 (W15 m ρ c (Proc.devRef .tc main_v194)) := by
  show StableHlo.after hostOps8_1 (W15 m ρ c) (Proc.devRef .tc main_v195) = _
  generalize W15 m ρ c = V0
  dsimp only [hostOps8_1]
  after_results_simp
  rfl

set_option maxHeartbeats 1000000 in
theorem h_v199' : W17 m ρ c (Proc.devRef .tc main_v199) = cls3 (W16 m ρ c (Proc.devRef .tc main_v195)) (W16 m ρ c (Proc.devRef .tc main_arg17)) (W16 m ρ c (Proc.devRef .tc main_arg18)) := by
  show StableHlo.after hostOps8_2 (W16 m ρ c) (Proc.devRef .tc main_v199) = _
  generalize W16 m ρ c = V0
  dsimp only [hostOps8_2]
  after_results_simp
  rfl

theorem a17_16_14 : W16 m ρ c (Proc.devRef .tc main_arg17) = W14 m ρ c (Proc.devRef .tc main_arg17) :=
  Eq.trans (keepH hostOps8_1 main_arg17) (keepH hostOps8 main_arg17)
theorem a18_16_14 : W16 m ρ c (Proc.devRef .tc main_arg18) = W14 m ρ c (Proc.devRef .tc main_arg18) :=
  Eq.trans (keepH hostOps8_1 main_arg18) (keepH hostOps8 main_arg18)

/-- The classifier on the two pooled rows. -/
theorem h_v199 : W17 m ρ c (Proc.devRef .tc main_v199) = tail (W14 m ρ c (Proc.devRef .tc main_v184)) (W14 m ρ c (Proc.devRef .tc main_v185)) (W14 m ρ c (Proc.devRef .tc main_arg15)) (W14 m ρ c (Proc.devRef .tc main_arg16)) (W14 m ρ c (Proc.devRef .tc main_arg17)) (W14 m ρ c (Proc.devRef .tc main_arg18)) := by
  rw [h_v199' m ρ c, h_v195 m ρ c, h_v194 m ρ c, a17_16_14 m ρ c, a18_16_14 m ρ c]
  rfl

end Cert.KernelIdeal.Val

end
-- ==== Proof.LibDot.lean ====
/-
  A plain matrix product computed by the host's general contraction, read at an entry, over the extended reals.

  For dimension numbers that contract the left operand's second axis with the right operand's first and have no
  batch axis, the contraction `[M, K] × [K, N] → [M, N]` has at the entry `(p, q)` the value
  `∑ k, lhs (p, k) * rhs (k, q)` — the same textbook sum a product accumulated into the zero matrix has.
-/
import proofs.«130111_j37838661877859_1_alg».proof.Proof.LibMatmul

noncomputable section

open scoped BigOperators
open Idealize.ShloMosaic Idealize.ShloMosaic.ValueIdx

namespace PlainMatmul

variable {M K N : ℕ}
variable {d : DotDims (⟨2, ![M, K]⟩ : Shape) (⟨2, ![K, N]⟩ : Shape) (⟨2, ![M, N]⟩ : Shape)}

/-- The host's contraction with plain dimension numbers, at the entry `(p, q)`, is the sum over the contracted axis
    of the products of the left operand's row `p` with the right operand's column `q`. -/
theorem host_apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    Host.dotGeneral d prec lhs rhs (ix2 p q) = ∑ k : Fin K, (lhs (ix2 p k) : EReal) * (rhs (ix2 k q) : EReal) := by
  simp only [Host.dotGeneral]
  rw [Ideal.dotGeneral_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibRowBroadcast.lean ====
/-
  A vector spread over a matrix, read at an entry.

  A length-`N` vector made a column and then repeated along `H` columns has, at `(r, j)`, the vector's entry `r`;
  a length-`H` vector made a row and then repeated down `N` rows has, at `(r, j)`, the vector's entry `j`;
  and a length-`N` vector reshaped to an `N × 1` column has, at `(r, 0)`, the vector's entry `r`.
-/
import Idealize.ShloMosaic.Lib.Pipeline.Value
import Idealize.ShloMosaic.Lib.ValueIdx

noncomputable section

open Idealize.ShloMosaic Idealize.ShloMosaic.ValueIdx

namespace RowBroadcast

variable {α : Type} {N H : ℕ}

/-- A vector as a column … -/
theorem col_apply (h : (⟨1, ![N]⟩ : Shape).BroadcastsInDim ⟨2, ![N, 1]⟩ ![0]) (v : (⟨1, ![N]⟩ : Shape).Idx → α)
    (r : Fin N) (u : Fin 1) : broadcastInDim ⟨2, ![N, 1]⟩ ![0] h v (ix2 r u) = v (ix1 r) := by
  refine broadcastInDim_apply ![0] h v (ix2 r u) (ix1 r) fun a => ?_
  match a with
  | ⟨0, _⟩ =>
    show r.val = if N = 1 then 0 else r.val
    split
    · have := r.isLt; omega
    · rfl

/-- … repeated along the columns: entry `(r, j)` is the vector's entry `r`. -/
theorem rows_apply (h1 : (⟨1, ![N]⟩ : Shape).BroadcastsInDim ⟨2, ![N, 1]⟩ ![0])
    (h2 : (⟨2, ![N, 1]⟩ : Shape).BroadcastsInDim ⟨2, ![N, H]⟩ ![0, 1]) (v : (⟨1, ![N]⟩ : Shape).Idx → α)
    (r : Fin N) (j : Fin H) :
    broadcastInDim ⟨2, ![N, H]⟩ ![0, 1] h2 (broadcastInDim ⟨2, ![N, 1]⟩ ![0] h1 v) (ix2 r j) = v (ix1 r) := by
  refine (broadcastInDim_apply ![0, 1] h2 _ (ix2 r j) (ix2 r (0 : Fin 1)) fun a => ?_).trans (col_apply h1 v r 0)
  match a with
  | ⟨0, _⟩ =>
    show r.val = if N = 1 then 0 else r.val
    split
    · have := r.isLt; omega
    · rfl
  | ⟨1, _⟩ =>
    show 0 = if (1 : ℕ) = 1 then 0 else j.val
    rw [if_pos rfl]

/-- A vector as a row, repeated down the rows: entry `(r, j)` is the vector's entry `j`. -/
theorem cols_apply (h1 : (⟨1, ![H]⟩ : Shape).BroadcastsInDim ⟨2, ![1, H]⟩ ![1])
    (h2 : (⟨2, ![1, H]⟩ : Shape).BroadcastsInDim ⟨2, ![N, H]⟩ ![0, 1]) (v : (⟨1, ![H]⟩ : Shape).Idx → α)
    (r : Fin N) (j : Fin H) :
    broadcastInDim ⟨2, ![N, H]⟩ ![0, 1] h2 (broadcastInDim ⟨2, ![1, H]⟩ ![1] h1 v) (ix2 r j) = v (ix1 j) := by
  refine (broadcastInDim_apply ![0, 1] h2 _ (ix2 r j) (ix2 (0 : Fin 1) j) fun a => ?_).trans
    (broadcastInDim_apply ![1] h1 v (ix2 (0 : Fin 1) j) (ix1 j) fun a => ?_)
  · match a with
    | ⟨0, _⟩ =>
      show 0 = if (1 : ℕ) = 1 then 0 else r.val
      rw [if_pos rfl]
    | ⟨1, _⟩ =>
      show j.val = if H = 1 then 0 else j.val
      split
      · have := j.isLt; omega
      · rfl
  · match a with
    | ⟨0, _⟩ =>
      show j.val = if H = 1 then 0 else j.val
      split
      · have := j.isLt; omega
      · rfl

/-- A vector reshaped to a column: entry `(r, 0)` is the vector's entry `r`. -/
theorem reshape_col_apply (x : (⟨1, ![N]⟩ : Shape).Idx → α) (h : (⟨1, ![N]⟩ : Shape).ShapeCasts ⟨2, ![N, 1]⟩)
    (r : Fin N) (u : Fin 1) : shapeCast ⟨2, ![N, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end RowBroadcast

end
-- ==== Proof.LibLayout.lean ====
/-
  A flat array of `N` numbers read as one row `[1, N]`: the row's entry `q` is the array's entry `q`.
-/
import Idealize.ShloMosaic.Lib.ValueIdx
import Idealize.ShloMosaic.Lib.Pipeline.Value

noncomputable section

open Idealize.ShloMosaic Idealize.ShloMosaic.ValueIdx

namespace RowOfFlat

variable {N : ℕ} {α : Type}

theorem apply (x : (⟨1, ![N]⟩ : Shape).Idx → α) (h : (⟨1, ![N]⟩ : Shape).ShapeCasts (⟨2, ![1, N]⟩ : Shape)) (q : Fin N) :
    shapeCast (⟨2, ![1, N]⟩ : Shape) x h (ix2 (0 : Fin 1) q) = x (ix1 q) :=
  (shapeCast_addUnit_apply ![N] x h (ix2 (0 : Fin 1) q)).trans
    (congrArg x (funext fun a => by match a with | ⟨0, _⟩ => rfl))

/-- As a whole array: reading the row's entries back gives the flat array. -/
theorem eq (x : (⟨1, ![N]⟩ : Shape).Idx → α) (h : (⟨1, ![N]⟩ : Shape).ShapeCasts (⟨2, ![1, N]⟩ : Shape)) :
    (fun j : (⟨1, ![N]⟩ : Shape).Idx => shapeCast (⟨2, ![1, N]⟩ : Shape) x h (ix2 (0 : Fin 1) (j 0))) = x := by
  funext j
  exact (apply x h (j 0)).trans (congrArg x (eq_ix1 j).symm)

end RowOfFlat

end
-- ==== Proof.LibSageHost.lean ====
/-
  Host operations read as the layers' entrywise functions, over the extended reals.

  A contraction of a matrix with a TRANSPOSED weight matrix is the plain product with the transpose; a vector made a
  row and repeated down the rows adds the vector's entry `q` in column `q`; a vector reshaped to one row has the
  same entries; the maximum with the zero splat is the clamp at zero.
-/
import proofs.«130111_j37838661877859_1_alg».proof.Proof.Spec
import proofs.«130111_j37838661877859_1_alg».proof.Proof.LibDot
import proofs.«130111_j37838661877859_1_alg».proof.Proof.LibRowBroadcast
import proofs.«130111_j37838661877859_1_alg».proof.Proof.LibLayout
import Idealize.ShloMosaic.Lib.IdealHost

noncomputable section

open scoped BigOperators
open Idealize.ShloMosaic Idealize.ShloMosaic.ValueIdx

namespace Sage

variable {M K N : ℕ}

/-- A vector as a one-row matrix. -/
def row (v : (⟨1, ![N]⟩ : Shape).Idx → EReal) : Mat 1 N := fun i => v (ix1 (i 1))

/-- A vector reshaped to one row is that one-row matrix. -/
theorem row_of_reshape (x : (⟨1, ![N]⟩ : Shape).Idx → EReal)
    (h : (⟨1, ![N]⟩ : Shape).ShapeCasts (⟨2, ![1, N]⟩ : Shape)) :
    shapeCast (⟨2, ![1, N]⟩ : Shape) x h = row x := by
  funext i
  obtain ⟨p, q, rfl⟩ : ∃ (p : Fin 1) (q : Fin N), i = ix2 p q := ⟨i 0, i 1, eq_ix2 i⟩
  obtain rfl : p = 0 := Subsingleton.elim _ _
  exact RowOfFlat.apply x h q

/-- The transpose read at an entry. -/
theorem transpose_tr (w : FVec Ideal (⟨2, ![N, K]⟩ : Shape) .f32)
    (ht : (⟨2, ![N, K]⟩ : Shape).Transposes [1, 0] (⟨2, ![K, N]⟩ : Shape)) :
    transpose (⟨2, ![K, N]⟩ : Shape) [1, 0] w ht = tr w := by
  funext i
  obtain ⟨k, q, rfl⟩ : ∃ (k : Fin K) (q : Fin N), i = ix2 k q := ⟨i 0, i 1, eq_ix2 i⟩
  exact transpose_apply [1, 0] w ht (ix2 k q) (ix2 q k) (fun b => match b with
    | ⟨0, _⟩ => rfl
    | ⟨1, _⟩ => rfl)

/-- The host's contraction with plain dimension numbers is the plain product. -/
theorem dot_mm {d : DotDims (⟨2, ![M, K]⟩ : Shape) (⟨2, ![K, N]⟩ : Shape) (⟨2, ![M, N]⟩ : Shape)}
    (hd : PlainMatmul.IsPlain d) (x : FVec Ideal (⟨2, ![M, K]⟩ : Shape) .f32) (w : FVec Ideal (⟨2, ![K, N]⟩ : Shape) .f32) :
    Host.dotGeneral d none x w = mm x w := by
  funext i
  obtain ⟨p, q, rfl⟩ : ∃ (p : Fin M) (q : Fin N), i = ix2 p q := ⟨i 0, i 1, eq_ix2 i⟩
  exact PlainMatmul.host_apply hd none x w p q

/-- A vector made a row and repeated down the rows, at an entry. -/
theorem rowBias (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → EReal)
    (i : (⟨2, ![M, N]⟩ : Shape).Idx) :
    broadcastInDim ⟨2, ![M, N]⟩ ![0, 1] h2 (broadcastInDim ⟨2, ![1, N]⟩ ![1] h1 b) i = row b (ix2 0 (i 1)) := by
  obtain ⟨p, q, rfl⟩ : ∃ (p : Fin M) (q : Fin N), i = ix2 p q := ⟨i 0, i 1, eq_ix2 i⟩
  exact RowBroadcast.cols_apply h1 h2 b p q

/-- The maximum with the zero splat is the clamp at zero. -/
theorem relu0 {S : Shape} (a : FVec Ideal S .f32) (h : (⟨0, ![]⟩ : Shape).BroadcastsInDim S ![]) (i : S.Idx) :
    maximumf a (broadcastInDim S ![] h (constant (F := Ideal) (⟨0, ![]⟩ : Shape) .f32 0x00000000#32)) i = max (a i) 0 := by
  rw [maximumf_apply]
  refine congrArg (max (a i)) ?_
  unfold broadcastInDim
  rw [constant_apply, Ideal.ofBits_zero_f32]

end Sage

end
-- ==== Proof.Net.lean ====
/-
  The updates of the two node types in the order the reference adds their terms, and the network as one function.

  The reference adds, for a func node, the product for the "calls" relation, its bias, the node's own product for
  that relation, then the same three for the "used by" relation; for an api node the product for the "uses"
  relation, its bias, the node's own product.
-/
import proofs.«130111_j37838661877859_1_alg».proof.Proof.KModel
import proofs.«130111_j37838661877859_1_alg».proof.Proof.LibSageHost

noncomputable section

open scoped BigOperators
open Idealize.ShloMosaic Idealize.ShloMosaic.ValueIdx

namespace Sage

variable {M K N : ℕ}

/-- A func node's update, six terms added left to right, clamped at zero. -/
def comb3r (a b c : Mat M K) (wa wb wr1 wr2 : Mat N K) (bl1 bl2 : Mat 1 N) : Mat M N :=
  fun i => max (((((mm a (tr wa) i + bl1 (ix2 0 (i 1))) + mm c (tr wr1) i) + mm b (tr wb) i) + bl2 (ix2 0 (i 1)))
    + mm c (tr wr2) i) 0

/-- An api node's update, three terms added left to right, clamped at zero. -/
def comb2r (a b : Mat M K) (wa wb : Mat N K) (bl : Mat 1 N) : Mat M N :=
  fun i => max ((mm a (tr wa) i + bl (ix2 0 (i 1))) + mm b (tr wb) i) 0

/-- Adding the bias last or second is the same: addition of extended reals is commutative and associative. -/
theorem comb2_eq (a b : Mat M K) (wa wb : Mat N K) (bl : Mat 1 N) : comb2 a b wa wb bl = comb2r a b wa wb bl := by
  funext i
  show max ((mm a (tr wa) i + mm b (tr wb) i) + bl (ix2 0 (i 1))) 0 = max ((mm a (tr wa) i + bl (ix2 0 (i 1))) + mm b (tr wb) i) 0
  rw [add_right_comm]

end Sage

namespace Cert.KernelIdeal.Model

open Cert.KernelIdeal Sage

variable (a0 : FVec Ideal S200000x128 .f32) (a1 : FVec Ideal S50000x64 .f32) (a2 : FVec Ideal S64x128 .f32)
  (a3 : FVec Ideal S64 .f32) (a4 : FVec Ideal S64x64 .f32) (a5 : FVec Ideal S64 .f32)
  (a6 : FVec Ideal S2x64x64 .f32) (a7 : FVec Ideal S2x64 .f32) (a8 a9 : FVec Ideal S2x64x64 .f32)
  (a10 : FVec Ideal S2x64 .f32) (a11 a12 : FVec Ideal S2x64x64 .f32) (a13 : FVec Ideal S2x64 .f32)
  (a14 : FVec Ideal S2x64x64 .f32) (a15 : FVec Ideal S64x128 .f32) (a16 : FVec Ideal S64 .f32)
  (a17 : FVec Ideal S2x64 .f32) (a18 : FVec Ideal S2 .f32) (a19 a20 a21 : IVec S2x400000 32)

/-- The projected func features. -/
def hf0 : FVec Ideal S200000x64 .f32 := proj a0 a2 (row a3)
/-- The projected api features. -/
def ha0 : FVec Ideal S50000x64 .f32 := proj a1 a4 (row a5)
/-- The func features after the first round. -/
def hf1 : FVec Ideal S200000x64 .f32 :=
  comb3r (aggFF (hf0 a0 a2 a3) a19) (aggAF (ha0 a1 a4 a5) a21) (hf0 a0 a2 a3) (w0 a6) (w0 a12) (w0 a8) (w0 a14)
    (row (b0 a7)) (row (b0 a13))
/-- The api features after the first round. -/
def ha1 : FVec Ideal S50000x64 .f32 :=
  comb2r (aggFA (hf0 a0 a2 a3) a20) (ha0 a1 a4 a5) (w0 a9) (w0 a11) (row (b0 a10))
/-- The func features after the second round. -/
def hf2 : FVec Ideal S200000x64 .f32 :=
  comb3r (aggFF (hf1 a0 a1 a2 a3 a4 a5 a6 a7 a8 a12 a13 a14 a19 a21) a19)
    (aggAF (ha1 a0 a1 a2 a3 a4 a5 a9 a10 a11 a20) a21) (hf1 a0 a1 a2 a3 a4 a5 a6 a7 a8 a12 a13 a14 a19 a21)
    (w1 a6) (w1 a12) (w1 a8) (w1 a14) (row (b1 a7)) (row (b1 a13))
/-- The api features after the second round. -/
def ha2 : FVec Ideal S50000x64 .f32 :=
  comb2r (aggFA (hf1 a0 a1 a2 a3 a4 a5 a6 a7 a8 a12 a13 a14 a19 a21) a20) (ha1 a0 a1 a2 a3 a4 a5 a9 a10 a11 a20)
    (w1 a9) (w1 a11) (row (b1 a10))
/-- The network's result. -/
def net : FVec Ideal S1x2 .f32 :=
  tail (colSum (hf2 a0 a1 a2 a3 a4 a5 a6 a7 a8 a9 a10 a11 a12 a13 a14 a19 a20 a21))
    (colSum (ha2 a0 a1 a2 a3 a4 a5 a6 a7 a8 a9 a10 a11 a12 a13 a14 a19 a20 a21)) a15 a16 a17 a18

end Cert.KernelIdeal.Model

end
-- ==== Proof.LibSageAlgebra.lean ====
/-
  Extended-real algebra for matrices whose entries are real numbers.

  On the extended reals addition and multiplication are commutative and associative, but a product distributes
  over a sum only away from the infinities.  The lemmas here say that the layer functions keep every entry a
  real number when their operands' entries are real numbers, that a product with a sum of two real weight
  matrices splits into two products, and that the host's gather, accumulating scatter, broadcast and quotient
  keep every entry a real number.
-/
import proofs.«130111_j37838661877859_1_alg».proof.Proof.Spec

noncomputable section

open scoped BigOperators
open Idealize.ShloMosaic Idealize.ShloMosaic.ValueIdx

namespace Sage

variable {M K N : ℕ}

/-! ## Sums, products and maxima of real numbers -/

/-- A finite sum of extended reals, each of which is a real number, is a real number. -/
theorem sum_real {ι : Type*} (s : Finset ι) (f : ι → EReal) (h : ∀ k ∈ s, ∃ r : ℝ, f k = (r : EReal)) :
    ∃ r : ℝ, ∑ k ∈ s, f k = (r : EReal) := by
  classical
  induction s using Finset.induction_on with
  | empty => exact ⟨0, by rw [Finset.sum_empty, EReal.coe_zero]⟩
  | insert a s ha ih =>
    obtain ⟨r, hr⟩ := h a (Finset.mem_insert_self a s)
    obtain ⟨t, ht⟩ := ih (fun k hk => h k (Finset.mem_insert_of_mem hk))
    exact ⟨r + t, by rw [Finset.sum_insert ha, hr, ht, EReal.coe_add]⟩

/-- The sum of two real numbers is a real number. -/
theorem add_real {a b : EReal} (ha : ∃ r : ℝ, a = (r : EReal)) (hb : ∃ r : ℝ, b = (r : EReal)) :
    ∃ r : ℝ, a + b = (r : EReal) := by
  obtain ⟨r, rfl⟩ := ha
  obtain ⟨t, rfl⟩ := hb
  exact ⟨r + t, (EReal.coe_add r t).symm⟩

/-- The product of two real numbers is a real number. -/
theorem mul_real {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

/-- The larger of two real numbers is a real number. -/
theorem max_real {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

/-- Zero is a real number. -/
theorem zero_real : ∃ r : ℝ, (0 : EReal) = (r : EReal) := ⟨0, EReal.coe_zero.symm⟩

/-! ## The layer functions keep entries real -/

/-- The transposed matrix of a matrix of real numbers. -/
theorem tr_real {w : Mat N K} (hw : IsReal w) : IsReal (tr w) := fun i => hw (ix2 (i 1) (i 0))

/-- The product of two matrices of real numbers. -/
theorem mm_real {x : Mat M K} {w : Mat K N} (hx : IsReal x) (hw : IsReal w) : IsReal (mm x w) := fun i =>
  sum_real Finset.univ _ fun k _ => mul_real (hx (ix2 (i 0) k)) (hw (ix2 k (i 1)))

/-- A dense layer of real operands. -/
theorem proj_real {x : Mat M K} {w : Mat N K} {b : Mat 1 N} (hx : IsReal x) (hw : IsReal w) (hb : IsReal b) :
    IsReal (proj x w b) := fun i =>
  max_real (add_real (mm_real hx (tr_real hw) i) (hb (ix2 0 (i 1)))) zero_real

/-- The update with three products, of real operands. -/
theorem comb3_real {a b c : Mat M K} {wa wb wc : Mat N K} {bias : Mat 1 N}
    (ha : IsReal a) (hb : IsReal b) (hc : IsReal c) (hwa : IsReal wa) (hwb : IsReal wb) (hwc : IsReal wc)
    (hbias : IsReal bias) : IsReal (comb3 a b c wa wb wc bias) := fun i =>
  max_real
    (add_real
      (add_real (add_real (mm_real ha (tr_real hwa) i) (mm_real hb (tr_real hwb) i)) (mm_real hc (tr_real hwc) i))
      (hbias (ix2 0 (i 1))))
    zero_real

/-- The update with two products, of real operands. -/
theorem comb2_real {a b : Mat M K} {wa wb : Mat N K} {bias : Mat 1 N}
    (ha : IsReal a) (hb : IsReal b) (hwa : IsReal wa) (hwb : IsReal wb) (hbias : IsReal bias) :
    IsReal (comb2 a b wa wb bias) := fun i =>
  max_real (add_real (add_real (mm_real ha (tr_real hwa) i) (mm_real hb (tr_real hwb) i)) (hbias (ix2 0 (i 1))))
    zero_real

/-- The column sums of a matrix of real numbers. -/
theorem colSum_real {x : Mat M N} (hx : IsReal x) : IsReal (colSum x) := fun i =>
  sum_real Finset.univ _ fun r _ => hx (ix2 r (i 1))

/-- The entrywise sum of two arrays of real numbers. -/
theorem add_isReal {S : Shape} {v w : S.Idx → EReal} (hv : IsReal v) (hw : IsReal w) :
    IsReal (fun i => v i + w i) := fun i => add_real (hv i) (hw i)

/-! ## A product with a sum of two weight matrices -/

/-- A real number times a sum of two real numbers distributes. -/
theorem mul_add_real {a b c : EReal} (ha : ∃ r : ℝ, a = (r : EReal)) (hb : ∃ r : ℝ, b = (r : EReal))
    (hc : ∃ r : ℝ, c = (r : EReal)) : a * (b + c) = a * b + a * c := by
  obtain ⟨r, rfl⟩ := ha
  obtain ⟨s, rfl⟩ := hb
  obtain ⟨t, rfl⟩ := hc
  rw [← EReal.coe_add, ← EReal.coe_mul, ← EReal.coe_mul, ← EReal.coe_mul, ← EReal.coe_add, mul_add]

/-- The product of a real matrix with the transpose of a sum of two real weight matrices is the sum of the two
    products. -/
theorem mm_tr_add {c : Mat M K} {w1 w2 : Mat N K} (hc : IsReal c) (h1 : IsReal w1) (h2 : IsReal w2)
    (i : (⟨2, ![M, N]⟩ : Shape).Idx) :
    mm c (tr (fun j => w1 j + w2 j)) i = mm c (tr w1) i + mm c (tr w2) i := by
  show ∑ k : Fin K, c (ix2 (i 0) k) * (w1 (ix2 (i 1) k) + w2 (ix2 (i 1) k))
    = ∑ k : Fin K, c (ix2 (i 0) k) * w1 (ix2 (i 1) k) + ∑ k : Fin K, c (ix2 (i 0) k) * w2 (ix2 (i 1) k)
  rw [← Finset.sum_add_distrib]
  exact Finset.sum_congr rfl fun k _ => mul_add_real (hc _) (h1 _) (h2 _)

/-- THE FOLDING LAW OF THE THREE-PRODUCT UPDATE.  When the third weight matrix is a sum of two real matrices and
    the bias a sum of two rows, the update is the clamp of six terms added in the order: first product, first bias,
    third product with the first summand, second product, second bias, third product with the second summand.  Only
    the splitting of the third product needs real entries; the rest is commutativity and associativity of . -/
theorem comb3_fold {a b c : Mat M K} {wa wb wr1 wr2 : Mat N K} {bl1 bl2 : Mat 1 N}
    (hc : IsReal c) (h1 : IsReal wr1) (h2 : IsReal wr2) :
    comb3 a b c wa wb (fun i => wr1 i + wr2 i) (fun i => bl1 i + bl2 i)
      = fun i => max (((((mm a (tr wa) i + bl1 (ix2 0 (i 1))) + mm c (tr wr1) i) + mm b (tr wb) i)
          + bl2 (ix2 0 (i 1))) + mm c (tr wr2) i) 0 := by
  funext i
  show max (((mm a (tr wa) i + mm b (tr wb) i) + mm c (tr (fun j => wr1 j + wr2 j)) i)
      + (bl1 (ix2 0 (i 1)) + bl2 (ix2 0 (i 1)))) 0 = _
  rw [mm_tr_add hc h1 h2 i]
  refine congrArg (fun t => max t 0) ?_
  abel

/-! ## Re-indexings: every entry of the result is some entry of the operand -/

section Reindex

variable {α : Type} {s si t : Shape} {w : ℕ}

/-- Every entry of a gather is some entry of the operand. -/
theorem gather_entry (d : GatherDims s si t) (x : s.Idx → α) (idx : IVec si w) (j : t.Idx) :
    ∃ k, Host.gather d x idx j = x k := ⟨d.operandIdx j idx, rfl⟩

/-- Every entry of a broadcast along named axes is some entry of the operand. -/
theorem broadcastInDim_entry (dims : Fin s.rank → Fin t.rank) (h : s.BroadcastsInDim t dims) (x : s.Idx → α)
    (j : t.Idx) : ∃ k, broadcastInDim t dims h x j = x k := ⟨_, rfl⟩

/-- Every entry of a broadcast along the trailing axes is some entry of the operand. -/
theorem broadcastTo_entry (x : s.Idx → α) (h : s.Broadcasts t) (j : t.Idx) :
    ∃ k, broadcastTo t x h j = x k := ⟨_, rfl⟩

/-- Every entry of a reshaped array is some entry of the operand. -/
theorem shapeCast_entry (x : s.Idx → α) (h : s.ShapeCasts t) (j : t.Idx) :
    ∃ k, shapeCast t x h j = x k := ⟨_, rfl⟩

/-- Every entry of a slice with unit strides is some entry of the operand. -/
theorem extractStridedSlice_entry (off : Fin s.rank → ℕ) (x : s.Idx → α) (h : s.Slices off t) (j : t.Idx) :
    ∃ k, extractStridedSlice t off x h j = x k := ⟨_, rfl⟩

/-- Every entry of a strided slice is some entry of the operand. -/
theorem slice_entry (start strides : Fin s.rank → ℕ) (x : s.Idx → α) (h : s.SlicesBy start strides t)
    (j : t.Idx) : ∃ k, Host.slice t start strides x h j = x k := ⟨_, rfl⟩

/-- Every entry of a transposed array is some entry of the operand. -/
theorem transpose_entry (perm : List (Fin s.rank)) (x : s.Idx → α) (h : s.Transposes perm t) (j : t.Idx) :
    ∃ k, transpose t perm x h j = x k := ⟨_, rfl⟩

end Reindex

section HostReal

variable {s si t u : Shape} {w : ℕ}

/-- An array each of whose entries is some entry of an array of real numbers is an array of real numbers. -/
theorem isReal_of_entry {x : s.Idx → EReal} {y : t.Idx → EReal} (hx : IsReal x) (h : ∀ j, ∃ k, y j = x k) :
    IsReal y := fun j => by
  obtain ⟨k, hk⟩ := h j
  rw [hk]; exact hx k

/-- A gather of an array of real numbers. -/
theorem gather_real (d : GatherDims s si t) {x : FVec Ideal s .f32} (idx : IVec si w) (hx : IsReal x) :
    IsReal (Host.gather d x idx) := fun j => hx (d.operandIdx j idx)

/-- A broadcast along named axes of an array of real numbers. -/
theorem broadcastInDim_real (dims : Fin s.rank → Fin t.rank) (h : s.BroadcastsInDim t dims)
    {x : FVec Ideal s .f32} (hx : IsReal x) : IsReal (broadcastInDim t dims h x) :=
  isReal_of_entry hx (broadcastInDim_entry dims h x)

/-- A broadcast along the trailing axes of an array of real numbers. -/
theorem broadcastTo_real {x : FVec Ideal s .f32} (h : s.Broadcasts t) (hx : IsReal x) :
    IsReal (broadcastTo t x h) := isReal_of_entry hx (broadcastTo_entry x h)

/-- A reshaped array of real numbers. -/
theorem shapeCast_real {x : FVec Ideal s .f32} (h : s.ShapeCasts t) (hx : IsReal x) :
    IsReal (shapeCast t x h) := isReal_of_entry hx (shapeCast_entry x h)

/-- A slice with unit strides of an array of real numbers. -/
theorem extractStridedSlice_real (off : Fin s.rank → ℕ) {x : FVec Ideal s .f32} (h : s.Slices off t)
    (hx : IsReal x) : IsReal (extractStridedSlice t off x h) :=
  isReal_of_entry hx (extractStridedSlice_entry off x h)

/-- An accumulating scatter reads, at each entry, the operand's entry plus the sum of the update entries that land
    there; with real operand and updates that is a real number. -/
theorem scatterAdd_real (d : ScatterDims s si u) {x : FVec Ideal s .f32} (idx : IVec si w)
    {upd : FVec Ideal u .f32} (hx : IsReal x) (hu : IsReal upd) : IsReal (Host.scatterAdd d x idx upd) := fun i => by
  show ∃ r : ℝ, x i + ∑ j ∈ Finset.univ.filter (fun j => d.resultIdx? j idx = some i), upd j = (r : EReal)
  exact add_real (hx i) (sum_real _ _ fun j _ => hu j)

/-- A sum of ones over a finite set is the number of its elements. -/
theorem sum_one_eq_card {ι : Type*} (F : Finset ι) (f : ι → EReal) (hf : ∀ j, f j = 1) :
    ∑ j ∈ F, f j = ((F.card : ℝ) : EReal) := by
  classical
  induction F using Finset.induction_on with
  | empty => rw [Finset.sum_empty, Finset.card_empty, Nat.cast_zero, EReal.coe_zero]
  | insert a F ha ih =>
    rw [Finset.sum_insert ha, ih, hf a, Finset.card_insert_of_notMem ha, Nat.cast_succ, EReal.coe_add,
      EReal.coe_one, add_comm]

/-- An accumulating scatter of ones into zeros counts, at each entry, the updates that land there: a natural
    number. -/
theorem scatterAdd_count (d : ScatterDims s si u) {x : FVec Ideal s .f32} (idx : IVec si w)
    {upd : FVec Ideal u .f32} (hx : ∀ i, x i = 0) (hu : ∀ j, upd j = 1) (i : s.Idx) :
    ∃ n : ℕ, Host.scatterAdd d x idx upd i = ((n : ℝ) : EReal) := by
  refine ⟨(Finset.univ.filter (fun j => d.resultIdx? j idx = some i)).card, ?_⟩
  show x i + ∑ j ∈ Finset.univ.filter (fun j => d.resultIdx? j idx = some i), upd j = _
  rw [hx i, zero_add, sum_one_eq_card _ _ hu]

/-- The host's quotient of a real number by a real number that is not zero is a real number. -/
theorem divf_real {a b : FVec Ideal s .f32} (ha : IsReal a)
    (hb : ∀ i, ∃ r : ℝ, r ≠ 0 ∧ b i = (r : EReal)) : IsReal (Host.divf a b) := fun i => by
  obtain ⟨p, hp⟩ := ha i
  obtain ⟨r, hr, hbr⟩ := hb i
  refine ⟨p * (1 / r), ?_⟩
  show Ideal.div (a i) (b i) = _
  rw [hbr, Ideal.div_coe hr, hp, EReal.coe_mul]

/-- The larger of a natural number and one is a real number that is not zero. -/
theorem max_nat_one_ne_zero (n : ℕ) : ∃ r : ℝ, r ≠ 0 ∧ max (((n : ℝ) : EReal)) 1 = (r : EReal) := by
  refine ⟨max (n : ℝ) 1, ?_, ?_⟩
  · have : (1 : ℝ) ≤ max (n : ℝ) 1 := le_max_right _ _
    intro h; rw [h] at this; exact absurd this (by norm_num)
  · rw [← EReal.coe_one]
    exact (EReal.coe_strictMono.monotone.map_max).symm

/-- THE MEAN AGGREGATION KEEPS ENTRIES REAL, for arbitrary shapes and dimension records.  Rows of a real array are
    gathered and added up per destination into zeros; the divisor is the count of updates per destination (ones
    scattered into zeros), clamped from below by one and broadcast: a natural number or one, so a real number that is
    not zero. -/
theorem meanAgg_real_gen {sh sg ss sc so ssrc sdst sdst1 : Shape}
    (gd : GatherDims sh ssrc sg) (sd : ScatterDims ss sdst sg) (sd1 : ScatterDims sc sdst1 so)
    (dims : Fin sc.rank → Fin ss.rank) (hb : sc.BroadcastsInDim ss dims)
    {h : FVec Ideal sh .f32} (src : IVec ssrc w) (dst : IVec sdst w) (dst1 : IVec sdst1 w)
    {z : FVec Ideal ss .f32} {z1 o1 : FVec Ideal sc .f32} {o : FVec Ideal so .f32}
    (hh : IsReal h) (hz : ∀ i, z i = 0) (hz1 : ∀ i, z1 i = 0) (ho : ∀ i, o i = 1) (ho1 : ∀ i, o1 i = 1) :
    IsReal (Host.divf (Host.scatterAdd sd z dst (Host.gather gd h src))
      (broadcastInDim ss dims hb (maximumf (Host.scatterAdd sd1 z1 dst1 o) o1))) := by
  refine divf_real (scatterAdd_real sd dst (fun i => ⟨0, by rw [hz i, EReal.coe_zero]⟩) (gather_real gd src hh)) ?_
  intro i
  obtain ⟨k, hk⟩ := broadcastInDim_entry dims hb (maximumf (Host.scatterAdd sd1 z1 dst1 o) o1) i
  rw [hk]
  obtain ⟨n, hn⟩ := scatterAdd_count sd1 dst1 hz1 ho k
  show ∃ r : ℝ, r ≠ 0 ∧ max (Host.scatterAdd sd1 z1 dst1 o k) (o1 k) = (r : EReal)
  rw [hn, ho1 k]
  exact max_nat_one_ne_zero n

/-- The mean aggregation over edges: rows of \`h\` ([Ns, H]) gathered at the sources ([E, 1]), added up per
    destination into zeros ([Nd, H]), divided by the per-destination edge count ([Nd, 1]) clamped from below by one
    and broadcast along the columns.  Every entry is a real number. -/
theorem meanAgg_real {Ns Nd H E : ℕ}
    (gd : GatherDims ⟨2, ![Ns, H]⟩ ⟨2, ![E, 1]⟩ ⟨2, ![E, H]⟩)
    (sd : ScatterDims ⟨2, ![Nd, H]⟩ ⟨2, ![E, 1]⟩ ⟨2, ![E, H]⟩)
    (sd1 : ScatterDims ⟨2, ![Nd, 1]⟩ ⟨2, ![E, 1]⟩ ⟨2, ![E, 1]⟩)
    (hb : (⟨2, ![Nd, 1]⟩ : Shape).BroadcastsInDim (⟨2, ![Nd, H]⟩ : Shape) ![0, 1])
    {h : FVec Ideal ⟨2, ![Ns, H]⟩ .f32} (src dst : IVec ⟨2, ![E, 1]⟩ 32)
    {z : FVec Ideal ⟨2, ![Nd, H]⟩ .f32} {z1 o1 : FVec Ideal ⟨2, ![Nd, 1]⟩ .f32} {o : FVec Ideal ⟨2, ![E, 1]⟩ .f32}
    (hh : IsReal h) (hz : ∀ i, z i = 0) (hz1 : ∀ i, z1 i = 0) (ho : ∀ i, o i = 1) (ho1 : ∀ i, o1 i = 1) :
    IsReal (Host.divf (Host.scatterAdd sd z dst (Host.gather gd h src))
      (broadcastInDim (⟨2, ![Nd, H]⟩ : Shape) ![0, 1] hb (maximumf (Host.scatterAdd sd1 z1 dst o) o1))) :=
  meanAgg_real_gen gd sd sd1 ![0, 1] hb src dst dst hh hz hz1 ho ho1

end HostReal

end Sage

end
-- ==== Proof.LayerLaws.lean ====
/-
  The two grouping laws between the kernel's and the reference's updates, and the real-valuedness of every stage.

  The kernel adds the two weight matrices that multiply a func node's own features, and the two biases, before the
  launch; distributing the node's features over that sum is valid because the features and both matrices hold real
  numbers, and the rest is a rearrangement of a sum.  Real inputs give real features at every stage: a projection and
  an update are finite sums of products of reals, clamped; a mean aggregation is a finite sum of gathered rows divided
  by a positive count.
-/
import proofs.«130111_j37838661877859_1_alg».proof.Proof.Net
import proofs.«130111_j37838661877859_1_alg».proof.Proof.LibSageAlgebra

noncomputable section

open Idealize.ShloMosaic Idealize.ShloMosaic.ValueIdx Idealize.ShloMosaic.TcCoe

namespace Cert.KernelIdeal.Model

open Cert.KernelIdeal Sage

/-- The zero splat holds zero at every entry. -/
theorem zeros_apply {S : Shape} (h : (⟨0, ![]⟩ : Shape).BroadcastsInDim S ![]) (i : S.Idx) :
    broadcastInDim S ![] h (constant (F := Ideal) (⟨0, ![]⟩ : Shape) .f32 0x00000000#32) i = 0 := by
  unfold broadcastInDim
  rw [constant_apply, Ideal.ofBits_zero_f32]

/-- The splat of the pattern of one holds one at every entry. -/
theorem ones_apply {S : Shape} (h : (⟨0, ![]⟩ : Shape).BroadcastsInDim S ![]) (i : S.Idx) :
    broadcastInDim S ![] h (constant (F := Ideal) (⟨0, ![]⟩ : Shape) .f32 0x3F800000#32) i = 1 := by
  unfold broadcastInDim
  rw [constant_apply, Ideal.ofBits_one_f32]

theorem row_real {N : ℕ} {v : (⟨1, ![N]⟩ : Shape).Idx → EReal} (hv : IsReal v) : IsReal (row v) :=
  fun i => hv (ix1 (i 1))

theorem w0_real (w : FVec Ideal S2x64x64 .f32) (hw : IsReal w) : IsReal (w0 w) :=
  shapeCast_real _ (extractStridedSlice_real _ _ hw)
theorem w1_real (w : FVec Ideal S2x64x64 .f32) (hw : IsReal w) : IsReal (w1 w) :=
  shapeCast_real _ (extractStridedSlice_real _ _ hw)
theorem b0_real (b : FVec Ideal S2x64 .f32) (hb : IsReal b) : IsReal (b0 b) :=
  shapeCast_real _ (extractStridedSlice_real _ _ hb)
theorem b1_real (b : FVec Ideal S2x64 .f32) (hb : IsReal b) : IsReal (b1 b) :=
  shapeCast_real _ (extractStridedSlice_real _ _ hb)

theorem aggFF_real (h : FVec Ideal S200000x64 .f32) (ei : IVec S2x400000 32) (hh : IsReal h) : IsReal (aggFF h ei) :=
  meanAgg_real _ _ _ _ _ _ hh (zeros_apply _) (zeros_apply _) (ones_apply _) (ones_apply _)
theorem aggAF_real (h : FVec Ideal S50000x64 .f32) (ei : IVec S2x400000 32) (hh : IsReal h) : IsReal (aggAF h ei) :=
  meanAgg_real _ _ _ _ _ _ hh (zeros_apply _) (zeros_apply _) (ones_apply _) (ones_apply _)
theorem aggFA_real (h : FVec Ideal S200000x64 .f32) (ei : IVec S2x400000 32) (hh : IsReal h) : IsReal (aggFA h ei) :=
  meanAgg_real _ _ _ _ _ _ hh (zeros_apply _) (zeros_apply _) (ones_apply _) (ones_apply _)

/-- THE FUNC UPDATE: the kernel's grouping is the reference's left-to-right sum, the node's own features and the two
    matrices that multiply them being real. -/
theorem comb3_layer (aC aU h : FVec Ideal S200000x64 .f32) (wlc wlu wr1 wr2 : FVec Ideal S64x64 .f32)
    (bl1 bl2 : FVec Ideal S64 .f32) (hh : IsReal h) (h1 : IsReal wr1) (h2 : IsReal wr2) :
    comb3 aC aU h wlc wlu (addf wr1 wr2) (biasRow (addf bl1 bl2))
      = comb3r aC aU h wlc wlu wr1 wr2 (row bl1) (row bl2) := by
  unfold biasRow
  rw [row_of_reshape]
  exact comb3_fold (a := aC) (b := aU) (wa := wlc) (wb := wlu) (bl1 := row bl1) (bl2 := row bl2) hh h1 h2

/-- THE API UPDATE: the bias added last or second. -/
theorem comb2_layer (aA h : FVec Ideal S50000x64 .f32) (wa wb : FVec Ideal S64x64 .f32) (bl : FVec Ideal S64 .f32) :
    comb2 aA h wa wb (biasRow bl) = comb2r aA h wa wb (row bl) := by
  unfold biasRow
  rw [row_of_reshape]
  exact comb2_eq _ _ _ _ _

/-- The reference's func update of real operands is real. -/
theorem comb3r_real {M K N : ℕ} {a b c : Mat M K} {wa wb wr1 wr2 : Mat N K} {bl1 bl2 : Mat 1 N}
    (ha : IsReal a) (hb : IsReal b) (hc : IsReal c) (hwa : IsReal wa) (hwb : IsReal wb) (h1 : IsReal wr1)
    (h2 : IsReal wr2) (hb1 : IsReal bl1) (hb2 : IsReal bl2) : IsReal (comb3r a b c wa wb wr1 wr2 bl1 bl2) := by
  have e : comb3r a b c wa wb wr1 wr2 bl1 bl2
      = comb3 a b c wa wb (fun i => wr1 i + wr2 i) (fun i => bl1 i + bl2 i) := (comb3_fold hc h1 h2).symm
  rw [e]
  exact comb3_real ha hb hc hwa hwb (add_isReal h1 h2) (add_isReal hb1 hb2)

variable (a0 : FVec Ideal S200000x128 .f32) (a1 : FVec Ideal S50000x64 .f32) (a2 : FVec Ideal S64x128 .f32)
  (a3 : FVec Ideal S64 .f32) (a4 : FVec Ideal S64x64 .f32) (a5 : FVec Ideal S64 .f32)
  (a6 : FVec Ideal S2x64x64 .f32) (a7 : FVec Ideal S2x64 .f32) (a8 : FVec Ideal S2x64x64 .f32)
  (a12 : FVec Ideal S2x64x64 .f32) (a13 : FVec Ideal S2x64 .f32)
  (a14 : FVec Ideal S2x64x64 .f32) (a19 a21 : IVec S2x400000 32)

theorem hf0_real (r0 : IsReal a0) (r2 : IsReal a2) (r3 : IsReal a3) : IsReal (hf0 a0 a2 a3) :=
  proj_real r0 r2 (row_real r3)
theorem ha0_real (r1 : IsReal a1) (r4 : IsReal a4) (r5 : IsReal a5) : IsReal (ha0 a1 a4 a5) :=
  proj_real r1 r4 (row_real r5)

theorem hf1_real (r0 : IsReal a0) (r1 : IsReal a1) (r2 : IsReal a2) (r3 : IsReal a3) (r4 : IsReal a4) (r5 : IsReal a5)
    (r6 : IsReal a6) (r7 : IsReal a7) (r8 : IsReal a8) (r12 : IsReal a12) (r13 : IsReal a13) (r14 : IsReal a14) :
    IsReal (hf1 a0 a1 a2 a3 a4 a5 a6 a7 a8 a12 a13 a14 a19 a21) :=
  comb3r_real (aggFF_real _ _ (hf0_real a0 a2 a3 r0 r2 r3)) (aggAF_real _ _ (ha0_real a1 a4 a5 r1 r4 r5))
    (hf0_real a0 a2 a3 r0 r2 r3) (w0_real _ r6) (w0_real _ r12) (w0_real _ r8) (w0_real _ r14)
    (row_real (b0_real _ r7)) (row_real (b0_real _ r13))

end Cert.KernelIdeal.Model

end
-- ==== Proof.KNet.lean ====
/-
  The idealized kernel's result is the network's function of the argument arrays.

  Launch by launch: each launch's output array is its layer's function of its input arrays (the launches' own value
  lemmas, taken here as hypotheses and supplied where the pieces are assembled), its input arrays are what the host
  stretches and the earlier launches left, and the kernel's grouping of a func node's update — the two weight
  matrices that multiply the node's own features added first, the two biases added first — is the reference's
  left-to-right sum because every entry involved is a real number.
-/
import proofs.«130111_j37838661877859_1_alg».proof.Proof.KWalk
import proofs.«130111_j37838661877859_1_alg».proof.Proof.LayerLaws

set_option maxRecDepth 16384

noncomputable section

namespace Cert.KernelIdeal.Val

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.KernelIdeal.Model Sage

/-- The func update at equal operands. -/
theorem comb3_congr {M K N : ℕ} {x x' y y' z z' : Mat M K} {u u' v v' w w' : Mat N K} {t t' : Mat 1 N}
    (ex : x = x') (ey : y = y') (ez : z = z') (eu : u = u') (ev : v = v') (ew : w = w') (et : t = t') :
    comb3 x y z u v w t = comb3 x' y' z' u' v' w' t' := by
  subst ex ey ez eu ev ew et; rfl

variable (m : (ℓ : Loc nD τ sig) → Buf (Elt Ideal) ℓ) (ρ : Dev nD → PrngReg) (c : Dev nD)

variable
  (out0 : ∀ (V : (c : Dev nD) → (b : Ref sig .tc) → Buf (Elt Ideal) ((c : Thread nD τ).loc b)) (c : Dev nD),
    (dat0 (F := Ideal) V c).arrAt 3 cfg0.N = proj (V c main_arg0 : FVec Ideal S200000x128 .f32) (V c main_arg2 : FVec Ideal S64x128 .f32) (V c main_v0 : FVec Ideal S1x64 .f32))
  (out1 : ∀ (V : (c : Dev nD) → (b : Ref sig .tc) → Buf (Elt Ideal) ((c : Thread nD τ).loc b)) (c : Dev nD),
    (dat1 (F := Ideal) V c).arrAt 3 cfg1.N = proj (V c main_arg1 : FVec Ideal S50000x64 .f32) (V c main_arg4 : FVec Ideal S64x64 .f32) (V c main_v2 : FVec Ideal S1x64 .f32))
  (out2 : ∀ (V : (c : Dev nD) → (b : Ref sig .tc) → Buf (Elt Ideal) ((c : Thread nD τ).loc b)) (c : Dev nD),
    (dat2 (F := Ideal) V c).arrAt 7 cfg2.N = comb3 (V c main_v25 : FVec Ideal S200000x64 .f32) (V c main_v47 : FVec Ideal S200000x64 .f32) (V c main_v1 : FVec Ideal S200000x64 .f32)
      (V c main_v81 : FVec Ideal S64x64 .f32) (V c main_v83 : FVec Ideal S64x64 .f32) (V c main_v74 : FVec Ideal S64x64 .f32) (V c main_v84 : FVec Ideal S1x64 .f32))
  (out3 : ∀ (V : (c : Dev nD) → (b : Ref sig .tc) → Buf (Elt Ideal) ((c : Thread nD τ).loc b)) (c : Dev nD),
    (dat3 (F := Ideal) V c).arrAt 5 cfg3.N = comb2 (V c main_v69 : FVec Ideal S50000x64 .f32) (V c main_v3 : FVec Ideal S50000x64 .f32)
      (V c main_v87 : FVec Ideal S64x64 .f32) (V c main_v89 : FVec Ideal S64x64 .f32) (V c main_v92 : FVec Ideal S1x64 .f32))
  (out4 : ∀ (V : (c : Dev nD) → (b : Ref sig .tc) → Buf (Elt Ideal) ((c : Thread nD τ).loc b)) (c : Dev nD),
    (dat4 (F := Ideal) V c).arrAt 7 cfg4.N = comb3 (V c main_v115 : FVec Ideal S200000x64 .f32) (V c main_v137 : FVec Ideal S200000x64 .f32) (V c main_v85 : FVec Ideal S200000x64 .f32)
      (V c main_v171 : FVec Ideal S64x64 .f32) (V c main_v173 : FVec Ideal S64x64 .f32) (V c main_v164 : FVec Ideal S64x64 .f32) (V c main_v174 : FVec Ideal S1x64 .f32))
  (out5 : ∀ (V : (c : Dev nD) → (b : Ref sig .tc) → Buf (Elt Ideal) ((c : Thread nD τ).loc b)) (c : Dev nD),
    (dat5 (F := Ideal) V c).arrAt 5 cfg5.N = comb2 (V c main_v159 : FVec Ideal S50000x64 .f32) (V c main_v93 : FVec Ideal S50000x64 .f32)
      (V c main_v177 : FVec Ideal S64x64 .f32) (V c main_v179 : FVec Ideal S64x64 .f32) (V c main_v182 : FVec Ideal S1x64 .f32))
  (out6 : ∀ (V : (c : Dev nD) → (b : Ref sig .tc) → Buf (Elt Ideal) ((c : Thread nD τ).loc b)) (c : Dev nD),
    (dat6 (F := Ideal) V c).arrAt 1 cfg6.N = colSum (V c main_v175 : FVec Ideal S200000x64 .f32))
  (out7 : ∀ (V : (c : Dev nD) → (b : Ref sig .tc) → Buf (Elt Ideal) ((c : Thread nD τ).loc b)) (c : Dev nD),
    (dat7 (F := Ideal) V c).arrAt 1 cfg7.N = colSum (V c main_v183 : FVec Ideal S50000x64 .f32))

/-! ## The projections -/

include out0 in
theorem L2_v1 : W2 m ρ c (Proc.devRef .tc main_v1) = hf0 (m ((c : Thread nD τ).loc main_arg0)) (m ((c : Thread nD τ).loc main_arg2)) (m ((c : Thread nD τ).loc main_arg3)) := by
  refine (W2_arr m ρ c 3).trans ?_
  refine (out0 (V1 m ρ) c).trans ?_
  show proj (W1 m ρ c (Proc.devRef .tc main_arg0)) (W1 m ρ c (Proc.devRef .tc main_arg2)) (W1 m ρ c (Proc.devRef .tc main_v0)) = _
  rw [a0_at1 m ρ c, a2_at1 m ρ c, h_v0 m ρ c, a3_at0 m ρ c]
  unfold hf0 biasRow
  rw [row_of_reshape]

include out1 in
theorem L4_v3 : W4 m ρ c (Proc.devRef .tc main_v3) = ha0 (m ((c : Thread nD τ).loc main_arg1)) (m ((c : Thread nD τ).loc main_arg4)) (m ((c : Thread nD τ).loc main_arg5)) := by
  refine (W4_arr m ρ c 3).trans ?_
  refine (out1 (V3 m ρ) c).trans ?_
  show proj (W3 m ρ c (Proc.devRef .tc main_arg1)) (W3 m ρ c (Proc.devRef .tc main_arg4)) (W3 m ρ c (Proc.devRef .tc main_v2)) = _
  rw [a1_at3 m ρ c, a4_at3 m ρ c, h_v2 m ρ c, a5_at2 m ρ c]
  unfold ha0 biasRow
  rw [row_of_reshape]

/-! ## The first round -/

include out0 out1 out2 in
theorem L6_v85 (r0 : IsReal (m ((c : Thread nD τ).loc main_arg0))) (r1 : IsReal (m ((c : Thread nD τ).loc main_arg1))) (r2 : IsReal (m ((c : Thread nD τ).loc main_arg2))) (r3 : IsReal (m ((c : Thread nD τ).loc main_arg3))) (r4 : IsReal (m ((c : Thread nD τ).loc main_arg4))) (r5 : IsReal (m ((c : Thread nD τ).loc main_arg5))) (r6 : IsReal (m ((c : Thread nD τ).loc main_arg6))) (r7 : IsReal (m ((c : Thread nD τ).loc main_arg7))) (r8 : IsReal (m ((c : Thread nD τ).loc main_arg8))) (r12 : IsReal (m ((c : Thread nD τ).loc main_arg12))) (r13 : IsReal (m ((c : Thread nD τ).loc main_arg13))) (r14 : IsReal (m ((c : Thread nD τ).loc main_arg14))) : W6 m ρ c (Proc.devRef .tc main_v85) = hf1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg19)) (m ((c : Thread nD τ).loc main_arg21)) := by
  have eF0 : W4 m ρ c (Proc.devRef .tc main_v1) = (hf0 (m ((c : Thread nD τ).loc main_arg0)) (m ((c : Thread nD τ).loc main_arg2)) (m ((c : Thread nD τ).loc main_arg3))) :=
    (v1_4_2 m ρ c).trans (L2_v1 m ρ c out0)
  have e25 : (W5 m ρ c (Proc.devRef .tc main_v25) : FVec Ideal S200000x64 .f32) = aggFF (hf0 (m ((c : Thread nD τ).loc main_arg0)) (m ((c : Thread nD τ).loc main_arg2)) (m ((c : Thread nD τ).loc main_arg3))) (m ((c : Thread nD τ).loc main_arg19)) := by
    rw [h_v25 m ρ c, eF0, a19_at4 m ρ c]
  have e47 : (W5 m ρ c (Proc.devRef .tc main_v47) : FVec Ideal S200000x64 .f32) = aggAF (ha0 (m ((c : Thread nD τ).loc main_arg1)) (m ((c : Thread nD τ).loc main_arg4)) (m ((c : Thread nD τ).loc main_arg5))) (m ((c : Thread nD τ).loc main_arg21)) := by
    rw [h_v47 m ρ c, L4_v3 m ρ c out1, a21_at4 m ρ c]
  have e1 : (W5 m ρ c (Proc.devRef .tc main_v1) : FVec Ideal S200000x64 .f32) = (hf0 (m ((c : Thread nD τ).loc main_arg0)) (m ((c : Thread nD τ).loc main_arg2)) (m ((c : Thread nD τ).loc main_arg3))) :=
    (v1_5_2 m ρ c).trans (L2_v1 m ρ c out0)
  have e81 : (W5 m ρ c (Proc.devRef .tc main_v81) : FVec Ideal S64x64 .f32) = w0 (m ((c : Thread nD τ).loc main_arg6)) := by
    rw [h_v81 m ρ c, a6_at4 m ρ c]
  have e83 : (W5 m ρ c (Proc.devRef .tc main_v83) : FVec Ideal S64x64 .f32) = w0 (m ((c : Thread nD τ).loc main_arg12)) := by
    rw [h_v83 m ρ c, a12_at4 m ρ c]
  have e74 : (W5 m ρ c (Proc.devRef .tc main_v74) : FVec Ideal S64x64 .f32) = addf (w0 (m ((c : Thread nD τ).loc main_arg8))) (w0 (m ((c : Thread nD τ).loc main_arg14))) := by
    rw [h_v74 m ρ c, a8_at4 m ρ c, a14_at4 m ρ c]
  have e84 : (W5 m ρ c (Proc.devRef .tc main_v84) : FVec Ideal S1x64 .f32) = biasRow (addf (b0 (m ((c : Thread nD τ).loc main_arg7))) (b0 (m ((c : Thread nD τ).loc main_arg13)))) := by
    rw [h_v84 m ρ c, a7_at4 m ρ c, a13_at4 m ρ c]
  refine (W6_arr m ρ c 7).trans ?_
  refine (out2 (V5 m ρ) c).trans ?_
  refine (comb3_congr e25 e47 e1 e81 e83 e74 e84).trans ?_
  exact comb3_layer _ _ _ _ _ _ _ _ _ (hf0_real _ _ _ r0 r2 r3) (w0_real _ r8) (w0_real _ r14)

include out0 out1 out3 in
theorem L8_v93 : W8 m ρ c (Proc.devRef .tc main_v93) = ha1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg20)) := by
  refine (W8_arr m ρ c 5).trans ?_
  refine (out3 (V7 m ρ) c).trans ?_
  show comb2 (W7 m ρ c (Proc.devRef .tc main_v69)) (W7 m ρ c (Proc.devRef .tc main_v3)) (W7 m ρ c (Proc.devRef .tc main_v87)) (W7 m ρ c (Proc.devRef .tc main_v89)) (W7 m ρ c (Proc.devRef .tc main_v92)) = _
  rw [v69_7_5 m ρ c, v3_7_4 m ρ c, h_v87 m ρ c, h_v89 m ρ c, h_v92 m ρ c, h_v69 m ρ c,
    v1_4_2 m ρ c, L2_v1 m ρ c out0, L4_v3 m ρ c out1,
    a20_at4 m ρ c, a9_at6 m ρ c, a11_at6 m ρ c, a10_at6 m ρ c]
  exact comb2_layer _ _ _ _ _

/-! ## The second round -/

include out0 out1 out2 out3 out4 in
theorem L10_v175 (r0 : IsReal (m ((c : Thread nD τ).loc main_arg0))) (r1 : IsReal (m ((c : Thread nD τ).loc main_arg1))) (r2 : IsReal (m ((c : Thread nD τ).loc main_arg2))) (r3 : IsReal (m ((c : Thread nD τ).loc main_arg3))) (r4 : IsReal (m ((c : Thread nD τ).loc main_arg4))) (r5 : IsReal (m ((c : Thread nD τ).loc main_arg5))) (r6 : IsReal (m ((c : Thread nD τ).loc main_arg6))) (r7 : IsReal (m ((c : Thread nD τ).loc main_arg7))) (r8 : IsReal (m ((c : Thread nD τ).loc main_arg8))) (r12 : IsReal (m ((c : Thread nD τ).loc main_arg12))) (r13 : IsReal (m ((c : Thread nD τ).loc main_arg13))) (r14 : IsReal (m ((c : Thread nD τ).loc main_arg14))) : W10 m ρ c (Proc.devRef .tc main_v175) = hf2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) (m ((c : Thread nD τ).loc main_arg21)) := by
  have eF1 : W8 m ρ c (Proc.devRef .tc main_v85) = (hf1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg19)) (m ((c : Thread nD τ).loc main_arg21))) :=
    (v85_8_6 m ρ c).trans (L6_v85 m ρ c out0 out1 out2 r0 r1 r2 r3 r4 r5 r6 r7 r8 r12 r13 r14)
  have e115 : (W9 m ρ c (Proc.devRef .tc main_v115) : FVec Ideal S200000x64 .f32) = aggFF (hf1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg19)) (m ((c : Thread nD τ).loc main_arg21))) (m ((c : Thread nD τ).loc main_arg19)) := by
    rw [h_v115 m ρ c, eF1, a19_at8 m ρ c]
  have e137 : (W9 m ρ c (Proc.devRef .tc main_v137) : FVec Ideal S200000x64 .f32) = aggAF (ha1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg20))) (m ((c : Thread nD τ).loc main_arg21)) := by
    rw [h_v137 m ρ c, L8_v93 m ρ c out0 out1 out3, a21_at8 m ρ c]
  have e85 : (W9 m ρ c (Proc.devRef .tc main_v85) : FVec Ideal S200000x64 .f32) = (hf1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg19)) (m ((c : Thread nD τ).loc main_arg21))) :=
    (v85_9_6 m ρ c).trans (L6_v85 m ρ c out0 out1 out2 r0 r1 r2 r3 r4 r5 r6 r7 r8 r12 r13 r14)
  have e171 : (W9 m ρ c (Proc.devRef .tc main_v171) : FVec Ideal S64x64 .f32) = w1 (m ((c : Thread nD τ).loc main_arg6)) := by
    rw [h_v171 m ρ c, a6_at8 m ρ c]
  have e173 : (W9 m ρ c (Proc.devRef .tc main_v173) : FVec Ideal S64x64 .f32) = w1 (m ((c : Thread nD τ).loc main_arg12)) := by
    rw [h_v173 m ρ c, a12_at8 m ρ c]
  have e164 : (W9 m ρ c (Proc.devRef .tc main_v164) : FVec Ideal S64x64 .f32) = addf (w1 (m ((c : Thread nD τ).loc main_arg8))) (w1 (m ((c : Thread nD τ).loc main_arg14))) := by
    rw [h_v164 m ρ c, a8_at8 m ρ c, a14_at8 m ρ c]
  have e174 : (W9 m ρ c (Proc.devRef .tc main_v174) : FVec Ideal S1x64 .f32) = biasRow (addf (b1 (m ((c : Thread nD τ).loc main_arg7))) (b1 (m ((c : Thread nD τ).loc main_arg13)))) := by
    rw [h_v174 m ρ c, a7_at8 m ρ c, a13_at8 m ρ c]
  refine (W10_arr m ρ c 7).trans ?_
  refine (out4 (V9 m ρ) c).trans ?_
  refine (comb3_congr e115 e137 e85 e171 e173 e164 e174).trans ?_
  exact comb3_layer _ _ _ _ _ _ _ _ _ (hf1_real _ _ _ _ _ _ _ _ _ _ _ _ _ _ r0 r1 r2 r3 r4 r5 r6 r7 r8 r12 r13 r14) (w1_real _ r8) (w1_real _ r14)

include out0 out1 out2 out3 out5 in
theorem L12_v183 (r0 : IsReal (m ((c : Thread nD τ).loc main_arg0))) (r1 : IsReal (m ((c : Thread nD τ).loc main_arg1))) (r2 : IsReal (m ((c : Thread nD τ).loc main_arg2))) (r3 : IsReal (m ((c : Thread nD τ).loc main_arg3))) (r4 : IsReal (m ((c : Thread nD τ).loc main_arg4))) (r5 : IsReal (m ((c : Thread nD τ).loc main_arg5))) (r6 : IsReal (m ((c : Thread nD τ).loc main_arg6))) (r7 : IsReal (m ((c : Thread nD τ).loc main_arg7))) (r8 : IsReal (m ((c : Thread nD τ).loc main_arg8))) (r12 : IsReal (m ((c : Thread nD τ).loc main_arg12))) (r13 : IsReal (m ((c : Thread nD τ).loc main_arg13))) (r14 : IsReal (m ((c : Thread nD τ).loc main_arg14))) : W12 m ρ c (Proc.devRef .tc main_v183) = ha2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) (m ((c : Thread nD τ).loc main_arg21)) := by
  refine (W12_arr m ρ c 5).trans ?_
  refine (out5 (V11 m ρ) c).trans ?_
  show comb2 (W11 m ρ c (Proc.devRef .tc main_v159)) (W11 m ρ c (Proc.devRef .tc main_v93)) (W11 m ρ c (Proc.devRef .tc main_v177)) (W11 m ρ c (Proc.devRef .tc main_v179)) (W11 m ρ c (Proc.devRef .tc main_v182)) = _
  rw [v159_11_9 m ρ c, v93_11_8 m ρ c, h_v177 m ρ c, h_v179 m ρ c, h_v182 m ρ c, h_v159 m ρ c,
    v85_8_6 m ρ c, L6_v85 m ρ c out0 out1 out2 r0 r1 r2 r3 r4 r5 r6 r7 r8 r12 r13 r14, L8_v93 m ρ c out0 out1 out3,
    a20_at8 m ρ c, a9_at10 m ρ c, a11_at10 m ρ c, a10_at10 m ρ c]
  exact comb2_layer _ _ _ _ _

/-! ## The pools and the classifier -/

include out0 out1 out2 out3 out4 out6 in
theorem L13_v184 (r0 : IsReal (m ((c : Thread nD τ).loc main_arg0))) (r1 : IsReal (m ((c : Thread nD τ).loc main_arg1))) (r2 : IsReal (m ((c : Thread nD τ).loc main_arg2))) (r3 : IsReal (m ((c : Thread nD τ).loc main_arg3))) (r4 : IsReal (m ((c : Thread nD τ).loc main_arg4))) (r5 : IsReal (m ((c : Thread nD τ).loc main_arg5))) (r6 : IsReal (m ((c : Thread nD τ).loc main_arg6))) (r7 : IsReal (m ((c : Thread nD τ).loc main_arg7))) (r8 : IsReal (m ((c : Thread nD τ).loc main_arg8))) (r12 : IsReal (m ((c : Thread nD τ).loc main_arg12))) (r13 : IsReal (m ((c : Thread nD τ).loc main_arg13))) (r14 : IsReal (m ((c : Thread nD τ).loc main_arg14))) : W13 m ρ c (Proc.devRef .tc main_v184) = colSum (hf2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) (m ((c : Thread nD τ).loc main_arg21))) := by
  refine (W13_arr m ρ c 1).trans ?_
  refine (out6 (V12 m ρ) c).trans ?_
  show colSum (W12 m ρ c (Proc.devRef .tc main_v175)) = _
  rw [v175_12_10 m ρ c, L10_v175 m ρ c out0 out1 out2 out3 out4 r0 r1 r2 r3 r4 r5 r6 r7 r8 r12 r13 r14]

include out0 out1 out2 out3 out5 out7 in
theorem L14_v185 (r0 : IsReal (m ((c : Thread nD τ).loc main_arg0))) (r1 : IsReal (m ((c : Thread nD τ).loc main_arg1))) (r2 : IsReal (m ((c : Thread nD τ).loc main_arg2))) (r3 : IsReal (m ((c : Thread nD τ).loc main_arg3))) (r4 : IsReal (m ((c : Thread nD τ).loc main_arg4))) (r5 : IsReal (m ((c : Thread nD τ).loc main_arg5))) (r6 : IsReal (m ((c : Thread nD τ).loc main_arg6))) (r7 : IsReal (m ((c : Thread nD τ).loc main_arg7))) (r8 : IsReal (m ((c : Thread nD τ).loc main_arg8))) (r12 : IsReal (m ((c : Thread nD τ).loc main_arg12))) (r13 : IsReal (m ((c : Thread nD τ).loc main_arg13))) (r14 : IsReal (m ((c : Thread nD τ).loc main_arg14))) : W14 m ρ c (Proc.devRef .tc main_v185) = colSum (ha2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg19)) (m ((c : Thread nD τ).loc main_arg20)) (m ((c : Thread nD τ).loc main_arg21))) := by
  refine (W14_arr m ρ c 1).trans ?_
  refine (out7 (V13 m ρ) c).trans ?_
  show colSum (W13 m ρ c (Proc.devRef .tc main_v183)) = _
  rw [v183_13_12 m ρ c, L12_v183 m ρ c out0 out1 out2 out3 out5 r0 r1 r2 r3 r4 r5 r6 r7 r8 r12 r13 r14]

include out0 out1 out2 out3 out4 out5 out6 out7 in
/-- THE KERNEL'S RESULT is the network's function of the arguments. -/
theorem kernel_net (r0 : IsReal (m ((c : Thread nD τ).loc main_arg0))) (r1 : IsReal (m ((c : Thread nD τ).loc main_arg1))) (r2 : IsReal (m ((c : Thread nD τ).loc main_arg2))) (r3 : IsReal (m ((c : Thread nD τ).loc main_arg3))) (r4 : IsReal (m ((c : Thread nD τ).loc main_arg4))) (r5 : IsReal (m ((c : Thread nD τ).loc main_arg5))) (r6 : IsReal (m ((c : Thread nD τ).loc main_arg6))) (r7 : IsReal (m ((c : Thread nD τ).loc main_arg7))) (r8 : IsReal (m ((c : Thread nD τ).loc main_arg8))) (r12 : IsReal (m ((c : Thread nD τ).loc main_arg12))) (r13 : IsReal (m ((c : Thread nD τ).loc main_arg13))) (r14 : IsReal (m ((c : Thread nD τ).loc main_arg14))) :
    W17 m ρ c (Proc.devRef .tc main_v199) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [h_v199 m ρ c, v184_14_13 m ρ c, L13_v184 m ρ c out0 out1 out2 out3 out4 out6 r0 r1 r2 r3 r4 r5 r6 r7 r8 r12 r13 r14,
    L14_v185 m ρ c out0 out1 out2 out3 out5 out7 r0 r1 r2 r3 r4 r5 r6 r7 r8 r12 r13 r14,
    a15_at14 m ρ c, a16_at14 m ρ c, a17_at14 m ρ c, a18_at14 m ρ c]
  rfl

end Cert.KernelIdeal.Val

end
-- ==== Proof.SageBodies.lean ====
/-
  The three kinds of kernel body of the network, as the entrywise functions of their operands.

  A projection body narrows the tile `x` ([M, K]) and the weight matrix `w` ([N, K], one row per output feature),
  transposes the weights, multiplies into the zero matrix, adds the bias row to every row and clamps at zero.
  A combining body does the same with two or three tiles and as many weight matrices, adding the products left to
  right before the bias and the clamp.  On extended reals the narrowing is the identity and the product is the
  textbook sum, so each body is the function of that name in the specification.
-/
import proofs.«130111_j37838661877859_1_alg».proof.Proof.Spec

noncomputable section

open scoped BigOperators
open Idealize.ShloMosaic Idealize.ShloMosaic.ValueIdx

namespace Sage

variable {M K N : ℕ}

/-- A narrowed tile times a narrowed weight matrix transposed, into the zero matrix, read at an entry. -/
theorem matmul_tr_apply {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![N, K]⟩ : Shape) .f32)
    (h1 h2 : FTy.bf16.bits < FTy.f32.bits)
    (ht : (⟨2, ![N, K]⟩ : Shape).Transposes [1, 0] (⟨2, ![K, N]⟩ : Shape)) (p : Fin M) (q : Fin N) :
    matmul d none (truncf .bf16 x h1) (transpose (⟨2, ![K, N]⟩ : Shape) [1, 0] (truncf .bf16 w h2) ht)
        (constant (⟨2, ![M, N]⟩ : Shape) .f32 0x00000000#32) (ix2 p q)
      = mm x (tr w) (ix2 p q) := by
  refine (PlainMatmul.apply hd none (truncf .bf16 x h1)
    (transpose (⟨2, ![K, N]⟩ : Shape) [1, 0] (truncf .bf16 w h2) ht) p q).trans ?_
  refine Finset.sum_congr rfl fun k _ => ?_
  rw [transpose_ix2_apply]
  rfl

/-- The projection body. -/
theorem proj_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![N, K]⟩ : Shape) .f32)
    (b : FVec Ideal (⟨2, ![1, N]⟩ : Shape) .f32)
    (h1 h2 : FTy.bf16.bits < FTy.f32.bits)
    (ht : (⟨2, ![N, K]⟩ : Shape).Transposes [1, 0] (⟨2, ![K, N]⟩ : Shape))
    (hs : (⟨2, ![1, N]⟩ : Shape).ShapeCasts (⟨2, ![1, N]⟩ : Shape))
    (hb : (⟨2, ![1, N]⟩ : Shape).Broadcasts (⟨2, ![M, N]⟩ : Shape)) :
    maximumf (addf (matmul d none (truncf .bf16 x h1) (transpose (⟨2, ![K, N]⟩ : Shape) [1, 0] (truncf .bf16 w h2) ht)
          (constant (⟨2, ![M, N]⟩ : Shape) .f32 0x00000000#32))
        (broadcastTo (⟨2, ![M, N]⟩ : Shape) (shapeCast (⟨2, ![1, N]⟩ : Shape) b hs) hb))
        (broadcast (⟨2, ![M, N]⟩ : Shape) (Scalar.ofBits (F := Ideal) .f32 0x00000000#32))
      = proj x w b := by
  funext i
  obtain ⟨p, q, rfl⟩ : ∃ (p : Fin M) (q : Fin N), i = ix2 p q := ⟨i 0, i 1, eq_ix2 i⟩
  rw [Gcn.clamp_apply, addf_apply, Gcn.rowBroadcast_apply, shapeCast_self, matmul_tr_apply hd]
  rfl

/-- The body combining three tiles. -/
theorem comb3_body {d : DotDims (⟨2, ![M, K]⟩ : Shape) (⟨2, ![K, N]⟩ : Shape) (⟨2, ![M, N]⟩ : Shape)}
    (hd : PlainMatmul.IsPlain d)
    (a b c : FVec Ideal (⟨2, ![M, K]⟩ : Shape) .f32) (wa wb wc : FVec Ideal (⟨2, ![N, K]⟩ : Shape) .f32)
    (bias : FVec Ideal (⟨2, ![1, N]⟩ : Shape) .f32)
    (h1 h2 : FTy.bf16.bits < FTy.f32.bits)
    (hx : (⟨2, ![M, K]⟩ : Shape).ShapeCasts (⟨2, ![M, K]⟩ : Shape))
    (hw : (⟨2, ![N, K]⟩ : Shape).ShapeCasts (⟨2, ![N, K]⟩ : Shape))
    (ht : (⟨2, ![N, K]⟩ : Shape).Transposes [1, 0] (⟨2, ![K, N]⟩ : Shape))
    (hs : (⟨2, ![1, N]⟩ : Shape).ShapeCasts (⟨2, ![1, N]⟩ : Shape))
    (hb : (⟨2, ![1, N]⟩ : Shape).Broadcasts (⟨2, ![M, N]⟩ : Shape)) :
    maximumf (addf
        (addf
          (addf
            (matmul d none (truncf .bf16 (shapeCast (⟨2, ![M, K]⟩ : Shape) a hx) h1)
              (transpose (⟨2, ![K, N]⟩ : Shape) [1, 0] (truncf .bf16 (shapeCast (⟨2, ![N, K]⟩ : Shape) wa hw) h2) ht)
              (constant (⟨2, ![M, N]⟩ : Shape) .f32 0x00000000#32))
            (matmul d none (truncf .bf16 (shapeCast (⟨2, ![M, K]⟩ : Shape) b hx) h1)
              (transpose (⟨2, ![K, N]⟩ : Shape) [1, 0] (truncf .bf16 (shapeCast (⟨2, ![N, K]⟩ : Shape) wb hw) h2) ht)
              (constant (⟨2, ![M, N]⟩ : Shape) .f32 0x00000000#32)))
          (matmul d none (truncf .bf16 (shapeCast (⟨2, ![M, K]⟩ : Shape) c hx) h1)
            (transpose (⟨2, ![K, N]⟩ : Shape) [1, 0] (truncf .bf16 (shapeCast (⟨2, ![N, K]⟩ : Shape) wc hw) h2) ht)
            (constant (⟨2, ![M, N]⟩ : Shape) .f32 0x00000000#32)))
        (broadcastTo (⟨2, ![M, N]⟩ : Shape) (shapeCast (⟨2, ![1, N]⟩ : Shape) bias hs) hb))
        (broadcast (⟨2, ![M, N]⟩ : Shape) (Scalar.ofBits (F := Ideal) .f32 0x00000000#32))
      = comb3 a b c wa wb wc bias := by
  funext i
  obtain ⟨p, q, rfl⟩ : ∃ (p : Fin M) (q : Fin N), i = ix2 p q := ⟨i 0, i 1, eq_ix2 i⟩
  rw [Gcn.clamp_apply, addf_apply, addf_apply, addf_apply, Gcn.rowBroadcast_apply, shapeCast_self, shapeCast_self,
    shapeCast_self, shapeCast_self, shapeCast_self, shapeCast_self, shapeCast_self,
    matmul_tr_apply hd, matmul_tr_apply hd, matmul_tr_apply hd]
  rfl

/-- The body combining two tiles. -/
theorem comb2_body {d : DotDims (⟨2, ![M, K]⟩ : Shape) (⟨2, ![K, N]⟩ : Shape) (⟨2, ![M, N]⟩ : Shape)}
    (hd : PlainMatmul.IsPlain d)
    (a b : FVec Ideal (⟨2, ![M, K]⟩ : Shape) .f32) (wa wb : FVec Ideal (⟨2, ![N, K]⟩ : Shape) .f32)
    (bias : FVec Ideal (⟨2, ![1, N]⟩ : Shape) .f32)
    (h1 h2 : FTy.bf16.bits < FTy.f32.bits)
    (hx : (⟨2, ![M, K]⟩ : Shape).ShapeCasts (⟨2, ![M, K]⟩ : Shape))
    (hw : (⟨2, ![N, K]⟩ : Shape).ShapeCasts (⟨2, ![N, K]⟩ : Shape))
    (ht : (⟨2, ![N, K]⟩ : Shape).Transposes [1, 0] (⟨2, ![K, N]⟩ : Shape))
    (hs : (⟨2, ![1, N]⟩ : Shape).ShapeCasts (⟨2, ![1, N]⟩ : Shape))
    (hb : (⟨2, ![1, N]⟩ : Shape).Broadcasts (⟨2, ![M, N]⟩ : Shape)) :
    maximumf (addf
        (addf
          (matmul d none (truncf .bf16 (shapeCast (⟨2, ![M, K]⟩ : Shape) a hx) h1)
            (transpose (⟨2, ![K, N]⟩ : Shape) [1, 0] (truncf .bf16 (shapeCast (⟨2, ![N, K]⟩ : Shape) wa hw) h2) ht)
            (constant (⟨2, ![M, N]⟩ : Shape) .f32 0x00000000#32))
          (matmul d none (truncf .bf16 (shapeCast (⟨2, ![M, K]⟩ : Shape) b hx) h1)
            (transpose (⟨2, ![K, N]⟩ : Shape) [1, 0] (truncf .bf16 (shapeCast (⟨2, ![N, K]⟩ : Shape) wb hw) h2) ht)
            (constant (⟨2, ![M, N]⟩ : Shape) .f32 0x00000000#32)))
        (broadcastTo (⟨2, ![M, N]⟩ : Shape) (shapeCast (⟨2, ![1, N]⟩ : Shape) bias hs) hb))
        (broadcast (⟨2, ![M, N]⟩ : Shape) (Scalar.ofBits (F := Ideal) .f32 0x00000000#32))
      = comb2 a b wa wb bias := by
  funext i
  obtain ⟨p, q, rfl⟩ : ∃ (p : Fin M) (q : Fin N), i = ix2 p q := ⟨i 0, i 1, eq_ix2 i⟩
  rw [Gcn.clamp_apply, addf_apply, addf_apply, Gcn.rowBroadcast_apply, shapeCast_self, shapeCast_self,
    shapeCast_self, shapeCast_self, shapeCast_self,
    matmul_tr_apply hd, matmul_tr_apply hd]
  rfl

/-! ## Two entries agree when the rows they depend on agree -/

theorem mm_tile {M' : ℕ} {X : Mat M K} {W : Mat K N} {A : Mat M' K}
    (j : (⟨2, ![M, N]⟩ : Shape).Idx) (i : (⟨2, ![M', N]⟩ : Shape).Idx)
    (hX : ∀ k : Fin K, X (ix2 (j 0) k) = A (ix2 (i 0) k)) (h1 : (j 1).val = (i 1).val) :
    mm X W j = mm A W i := by
  have e : (j 1 : Fin N) = i 1 := Fin.ext h1
  show (∑ k : Fin K, X (ix2 (j 0) k) * W (ix2 k (j 1))) = ∑ k : Fin K, A (ix2 (i 0) k) * W (ix2 k (i 1))
  rw [e]
  exact Finset.sum_congr rfl fun k _ => by rw [hX k]

theorem proj_tile {M' : ℕ} {X : Mat M K} {W W' : Mat N K} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    proj X W B j = proj A W' B' i :=
  Gcn.affineRelu_congr j i (congrArg tr hW) hB hX h1

theorem comb3_tile {M' : ℕ} {Xa Xb Xc : Mat M K} {Wa Wb Wc Wa' Wb' Wc' : Mat N K} {B B' : Mat 1 N} {Aa Ab Ac : Mat M' K}
    (j : (⟨2, ![M, N]⟩ : Shape).Idx) (i : (⟨2, ![M', N]⟩ : Shape).Idx)
    (hWa : Wa = Wa') (hWb : Wb = Wb') (hWc : Wc = Wc') (hB : B = B')
    (hXa : ∀ k : Fin K, Xa (ix2 (j 0) k) = Aa (ix2 (i 0) k))
    (hXb : ∀ k : Fin K, Xb (ix2 (j 0) k) = Ab (ix2 (i 0) k))
    (hXc : ∀ k : Fin K, Xc (ix2 (j 0) k) = Ac (ix2 (i 0) k)) (h1 : (j 1).val = (i 1).val) :
    comb3 Xa Xb Xc Wa Wb Wc B j = comb3 Aa Ab Ac Wa' Wb' Wc' B' i := by
  subst hWa hWb hWc hB
  have e : (j 1 : Fin N) = i 1 := Fin.ext h1
  show max (((mm Xa (tr Wa) j + mm Xb (tr Wb) j) + mm Xc (tr Wc) j) + B (ix2 0 (j 1))) 0
    = max (((mm Aa (tr Wa) i + mm Ab (tr Wb) i) + mm Ac (tr Wc) i) + B (ix2 0 (i 1))) 0
  rw [mm_tile j i hXa h1, mm_tile j i hXb h1, mm_tile j i hXc h1, e]

theorem comb2_tile {M' : ℕ} {Xa Xb : Mat M K} {Wa Wb Wa' Wb' : Mat N K} {B B' : Mat 1 N} {Aa Ab : Mat M' K}
    (j : (⟨2, ![M, N]⟩ : Shape).Idx) (i : (⟨2, ![M', N]⟩ : Shape).Idx)
    (hWa : Wa = Wa') (hWb : Wb = Wb') (hB : B = B')
    (hXa : ∀ k : Fin K, Xa (ix2 (j 0) k) = Aa (ix2 (i 0) k))
    (hXb : ∀ k : Fin K, Xb (ix2 (j 0) k) = Ab (ix2 (i 0) k)) (h1 : (j 1).val = (i 1).val) :
    comb2 Xa Xb Wa Wb B j = comb2 Aa Ab Wa' Wb' B' i := by
  subst hWa hWb hB
  have e : (j 1 : Fin N) = i 1 := Fin.ext h1
  show max ((mm Xa (tr Wa) j + mm Xb (tr Wb) j) + B (ix2 0 (j 1))) 0
    = max ((mm Aa (tr Wa) i + mm Ab (tr Wb) i) + B (ix2 0 (i 1))) 0
  rw [mm_tile j i hXa h1, mm_tile j i hXb h1, e]

end Sage

end
-- ==== Proof.Region0.lean ====
/-
  The first projection layer as one function of whole arrays.

  The region walks 25 tiles of 8000 rows of the feature matrix.  At each tile it stages the tile, the whole weight
  matrix and the whole bias row, and writes back the projection of them to the same rows of the output matrix.
  Row `r` of the output is written by tile `r / 8000`, and an entry of the projection depends only on its own row of
  the features, so the output matrix ends holding the projection of the whole feature matrix.
-/
import proofs.«130111_j37838661877859_1_alg».proof.Proof.Gen.KernelIdeal.Frame
import proofs.«130111_j37838661877859_1_alg».proof.Proof.SageBodies
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros0 : (![0, 0] : Fin 2 → Nat) = fun _ => 0 := funext fun a => by fin_cases a <;> rfl

/-- The body's stored value is the projection of the staged tile, weights and bias. -/
theorem pay0_eq (x : Vec Ideal S8000x128 .f32) (w : Vec Ideal S64x128 .f32) (b : Vec Ideal S1x64 .f32) :
    k0_pay1 x w b = Sage.proj x w b :=
  Sage.proj_body ⟨rfl, rfl, rfl, rfl, rfl, rfl⟩ x w b _ _ _ _ _

/-- The index maps over the grid: the feature tile and the output tile are tile `t` of the rows, the weights and the
    bias row are whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the feature tile at point `t` is row `8000 t + p` of the feature matrix. -/
theorem rows0_0 (c : Dev nD) (t : Fin cfg0.N) (p : Fin 8000) (k : Fin 128) (r : Fin 200000)
    (hr : r.val = t.val * 8000 + p.val) :
    (iblk0 V c 0 t : Vec Ideal S8000x128 .f32) (ix2 p k)
      = (V c (Pipeline.arrRef spec0 0) : S200000x128.Idx → EReal) (ix2 r k) := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 8000 + 1 * p.val = r.val; rw [e0, hr]; omega
  | ⟨1, _⟩ => show win0_0.index t (1 : Fin 2) * 128 + 1 * k.val = k.val; rw [e1]; omega

/-- The staged weights are the whole weight matrix. -/
theorem whole0_1 (c : Dev nD) (t : Fin cfg0.N) :
    (iblk0 V c 1 t : Vec Ideal S64x128 .f32) = (V c (Pipeline.arrRef spec0 1) : S64x128.Idx → EReal) := by
  obtain ⟨-, -, e2, e3, -⟩ := idx_facts0 t
  funext y
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 64 + 1 * (y 0).val = (y 0).val; rw [e2]; omega
  | ⟨1, _⟩ => show win0_1.index t (1 : Fin 2) * 128 + 1 * (y 1).val = (y 1).val; rw [e3]; omega

/-- The staged bias row is the whole bias row. -/
theorem whole0_2 (c : Dev nD) (t : Fin cfg0.N) :
    (iblk0 V c 2 t : Vec Ideal S1x64 .f32) = (V c (Pipeline.arrRef spec0 2) : S1x64.Idx → EReal) := by
  obtain ⟨-, -, -, -, e4, e5, -⟩ := idx_facts0 t
  funext y
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 64 + 1 * (y 1).val = (y 1).val; rw [e5]; omega

/-- What point `t` writes back is tile `t` of the projection of the whole arrays. -/
theorem flushed0_eq (c : Dev nD) (t : Fin cfg0.N) :
    (dat0 V c).flushed 3 t = ((cfg0.win 3).blk t).view.read (Elt Ideal)
      (Sage.proj (V c (Pipeline.arrRef spec0 0) : S200000x128.Idx → EReal) (V c (Pipeline.arrRef spec0 1) : S64x128.Idx → EReal)
        (V c (Pipeline.arrRef spec0 2) : S1x64.Idx → EReal)) := by
  show (cfg0.win 3).cut (grid0.coords t) ((dat0 V c).after 3 t) = _
  rw [after0_3]
  unfold out0_3
  rw [View.canon_unit_zero zeros0]
  simp only [View.ld_unit_zero (S := S8000x128) zeros0, View.ld_unit_zero (S := S64x128) zeros0,
    View.ld_unit_zero (S := S1x64) zeros0]
  rw [pay0_eq, whole0_1, whole0_2]
  obtain ⟨-, -, -, -, -, -, e6, e7⟩ := idx_facts0 t
  funext j
  rw [View.read_apply]
  show Sage.proj (iblk0 V c 0 t : Vec Ideal S8000x128 .f32) _ _ j
    = Sage.proj (V c (Pipeline.arrRef spec0 0) : S200000x128.Idx → EReal) _ _ (((cfg0.win 3).blk t).view.emb j)
  refine Sage.proj_tile j _ rfl rfl (fun k => ?_) ?_
  · refine rows0_0 V c t (j 0) k _ ?_
    show win0_3.index t (0 : Fin 2) * 8000 + 1 * (j 0).val = t.val * 8000 + (j 0).val
    rw [e6]; omega
  · show (j 1).val = win0_3.index t (1 : Fin 2) * 64 + 1 * (j 1).val
    rw [e7]; omega

/-- An index of the output matrix is in point `t`'s tile iff each coordinate is in the tile's range on its axis. -/
theorem mem_blk0 (t : Fin cfg0.N) (i : S200000x64.Idx) :
    i ∈ ((cfg0.win 3).blk t).view.set ↔ ∀ a : Fin 2, win0_3.index t a * S8000x64.size a ≤ (i a).val
      ∧ (i a).val < win0_3.index t a * S8000x64.size a + S8000x64.size a := by
  show i ∈ ((View.whole main_v1).slice (win0_3.rect t)).set ↔ _
  rw [View.set_slice_whole, Rect.mem_set_unit]
  exact Iff.rfl

/-- Every row of the output matrix is in some tile: row `r` in tile `r / 8000`. -/
theorem cover0 (i : S200000x64.Idx) :
    ∃ t : Fin cfg0.N, (cfg0.win 3).flush t = true ∧ i ∈ ((cfg0.win 3).blk t).view.set := by
  have hi0 : (i 0).val < 200000 := (i 0).isLt
  have hi1 : (i 1).val < 64 := (i 1).isLt
  have hN : grid0.N = 25 := N_0
  have ht : (i 0).val / 8000 < cfg0.N := by show (i 0).val / 8000 < grid0.N; rw [hN]; omega
  obtain ⟨-, -, -, -, -, -, e6, e7⟩ := idx_facts0 ⟨(i 0).val / 8000, ht⟩
  refine ⟨⟨(i 0).val / 8000, ht⟩, flush0_3 _, ?_⟩
  rw [mem_blk0]
  intro a
  match a with
  | ⟨0, _⟩ =>
    show win0_3.index ⟨(i 0).val / 8000, ht⟩ (0 : Fin 2) * 8000 ≤ (i 0).val
      ∧ (i 0).val < win0_3.index ⟨(i 0).val / 8000, ht⟩ (0 : Fin 2) * 8000 + 8000
    rw [e6]; show (i 0).val / 8000 * 8000 ≤ (i 0).val ∧ (i 0).val < (i 0).val / 8000 * 8000 + 8000; omega
  | ⟨1, _⟩ =>
    show win0_3.index ⟨(i 0).val / 8000, ht⟩ (1 : Fin 2) * 64 ≤ (i 1).val
      ∧ (i 1).val < win0_3.index ⟨(i 0).val / 8000, ht⟩ (1 : Fin 2) * 64 + 64
    rw [e7]; omega

/-- THE REGION'S VALUE: the output matrix ends holding the projection of the feature matrix, the weights and the bias
    row as the region finds them. -/
theorem out0 (c : Dev nD) :
    (dat0 (F := Ideal) V c).arrAt 3 cfg0.N
      = Sage.proj (V c (Pipeline.arrRef spec0 0) : S200000x128.Idx → EReal) (V c (Pipeline.arrRef spec0 1) : S64x128.Idx → EReal)
          (V c (Pipeline.arrRef spec0 2) : S1x64.Idx → EReal) :=
  (dat0 V c).arrAt_eq_of_cover 3 _ (fun t _ => flushed0_eq V c t) cover0

end Cert.KernelIdeal.Val

end
-- ==== Proof.Region1.lean ====
/-
  The second projection layer as one function of whole arrays.

  The region walks 5 tiles of 10000 rows of the feature matrix.  At each tile it stages the tile, the whole weight
  matrix and the whole bias row, and writes back the projection of them to the same rows of the output matrix.
  Row `r` of the output is written by tile `r / 10000`, and an entry of the projection depends only on its own row of
  the features, so the output matrix ends holding the projection of the whole feature matrix.
-/
import proofs.«130111_j37838661877859_1_alg».proof.Proof.Gen.KernelIdeal.Frame
import proofs.«130111_j37838661877859_1_alg».proof.Proof.SageBodies
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros1 : (![0, 0] : Fin 2 → Nat) = fun _ => 0 := funext fun a => by fin_cases a <;> rfl

/-- The body's stored value is the projection of the staged tile, weights and bias. -/
theorem pay1_eq (x : Vec Ideal S10000x64 .f32) (w : Vec Ideal S64x64 .f32) (b : Vec Ideal S1x64 .f32) :
    k1_pay1 x w b = Sage.proj x w b :=
  Sage.proj_body ⟨rfl, rfl, rfl, rfl, rfl, rfl⟩ x w b _ _ _ _ _

/-- The index maps over the grid: the feature tile and the output tile are tile `t` of the rows, the weights and the
    bias row are whole. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the feature tile at point `t` is row `10000 t + p` of the feature matrix. -/
theorem rows1_0 (c : Dev nD) (t : Fin cfg1.N) (p : Fin 10000) (k : Fin 64) (r : Fin 50000)
    (hr : r.val = t.val * 10000 + p.val) :
    (iblk1 V c 0 t : Vec Ideal S10000x64 .f32) (ix2 p k)
      = (V c (Pipeline.arrRef spec1 0) : S50000x64.Idx → EReal) (ix2 r k) := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The staged weights are the whole weight matrix. -/
theorem whole1_1 (c : Dev nD) (t : Fin cfg1.N) :
    (iblk1 V c 1 t : Vec Ideal S64x64 .f32) = (V c (Pipeline.arrRef spec1 1) : S64x64.Idx → EReal) := by
  obtain ⟨-, -, e2, e3, -⟩ := idx_facts1 t
  funext y
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 64 + 1 * (y 0).val = (y 0).val; rw [e2]; omega
  | ⟨1, _⟩ => show win1_1.index t (1 : Fin 2) * 64 + 1 * (y 1).val = (y 1).val; rw [e3]; omega

/-- The staged bias row is the whole bias row. -/
theorem whole1_2 (c : Dev nD) (t : Fin cfg1.N) :
    (iblk1 V c 2 t : Vec Ideal S1x64 .f32) = (V c (Pipeline.arrRef spec1 2) : S1x64.Idx → EReal) := by
  obtain ⟨-, -, -, -, e4, e5, -⟩ := idx_facts1 t
  funext y
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (y 0).val = (y 0).val; rw [e4]; omega
  | ⟨1, _⟩ => show win1_2.index t (1 : Fin 2) * 64 + 1 * (y 1).val = (y 1).val; rw [e5]; omega

/-- What point `t` writes back is tile `t` of the projection of the whole arrays. -/
theorem flushed1_eq (c : Dev nD) (t : Fin cfg1.N) :
    (dat1 V c).flushed 3 t = ((cfg1.win 3).blk t).view.read (Elt Ideal)
      (Sage.proj (V c (Pipeline.arrRef spec1 0) : S50000x64.Idx → EReal) (V c (Pipeline.arrRef spec1 1) : S64x64.Idx → EReal)
        (V c (Pipeline.arrRef spec1 2) : S1x64.Idx → EReal)) := by
  show (cfg1.win 3).cut (grid1.coords t) ((dat1 V c).after 3 t) = _
  rw [after1_3]
  unfold out1_3
  rw [View.canon_unit_zero zeros1]
  simp only [View.ld_unit_zero (S := S10000x64) zeros1, View.ld_unit_zero (S := S64x64) zeros1,
    View.ld_unit_zero (S := S1x64) zeros1]
  rw [pay1_eq, whole1_1, whole1_2]
  obtain ⟨-, -, -, -, -, -, e6, e7⟩ := idx_facts1 t
  funext j
  rw [View.read_apply]
  show Sage.proj (iblk1 V c 0 t : Vec Ideal S10000x64 .f32) _ _ j
    = Sage.proj (V c (Pipeline.arrRef spec1 0) : S50000x64.Idx → EReal) _ _ (((cfg1.win 3).blk t).view.emb j)
  refine Sage.proj_tile j _ rfl rfl (fun k => ?_) ?_
  · refine rows1_0 V c t (j 0) k _ ?_
    show win1_3.index t (0 : Fin 2) * 10000 + 1 * (j 0).val = t.val * 10000 + (j 0).val
    rw [e6]; omega
  · show (j 1).val = win1_3.index t (1 : Fin 2) * 64 + 1 * (j 1).val
    rw [e7]; omega

/-- An index of the output matrix is in point `t`'s tile iff each coordinate is in the tile's range on its axis. -/
theorem mem_blk1 (t : Fin cfg1.N) (i : S50000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v3).slice (win1_3.rect t)).set ↔ _
  rw [View.set_slice_whole, Rect.mem_set_unit]
  exact Iff.rfl

/-- Every row of the output matrix is in some tile: row `r` in tile `r / 10000`. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 5 := N_1
  have ht : (i 0).val / 10000 < cfg1.N := by show (i 0).val / 10000 < grid1.N; rw [hN]; omega
  obtain ⟨-, -, -, -, -, -, e6, e7⟩ := idx_facts1 ⟨(i 0).val / 10000, ht⟩
  refine ⟨⟨(i 0).val / 10000, ht⟩, flush1_3 _, ?_⟩
  rw [mem_blk1]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    rw [e7]; omega

/-- THE REGION'S VALUE: the output matrix ends holding the projection of the feature matrix, the weights and the bias
    row as the region finds them. -/
theorem out1 (c : Dev nD) :
    (dat1 (F := Ideal) V c).arrAt 3 cfg1.N
      = Sage.proj (V c (Pipeline.arrRef spec1 0) : S50000x64.Idx → EReal) (V c (Pipeline.arrRef spec1 1) : S64x64.Idx → EReal)
          (V c (Pipeline.arrRef spec1 2) : S1x64.Idx → EReal) :=
  (dat1 V c).arrAt_eq_of_cover 3 _ (fun t _ => flushed1_eq V c t) cover1

end Cert.KernelIdeal.Val

end
-- ==== Proof.Region2.lean ====
/-
  The first three-way combining layer as one function of whole arrays.

  The region walks 25 tiles of 8000 rows of three feature matrices.  At each tile it stages the three tiles, the three
  whole weight matrices and the whole bias row, and writes back the combination of them to the same rows of the
  output matrix.  Row `r` of the output is written by tile `r / 8000`, and an entry of the combination depends only
  on its own row of each feature matrix, so the output matrix ends holding the combination of the whole matrices.
-/
import proofs.«130111_j37838661877859_1_alg».proof.Proof.Gen.KernelIdeal.Frame
import proofs.«130111_j37838661877859_1_alg».proof.Proof.SageBodies
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The body's stored value is the combination of the staged tiles, weights and bias. -/
theorem pay2_eq (xa xb xc : Vec Ideal S8000x64 .f32) (wa wb wc : Vec Ideal S64x64 .f32) (bias : Vec Ideal S1x64 .f32) :
    k2_pay1 xa xb xc wa wb wc bias = Sage.comb3 xa xb xc wa wb wc bias :=
  Sage.comb3_body ⟨rfl, rfl, rfl, rfl, rfl, rfl⟩ xa xb xc wa wb wc bias _ _ _ _ _ _ _

/-- The index maps over the grid: the three feature tiles and the output tile are tile `t` of the rows, the weights
    and the bias row are whole. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- Row `p` of the first feature tile at point `t` is row `8000 t + p` of the first feature matrix. -/
theorem rows2_0 (c : Dev nD) (t : Fin cfg2.N) (p : Fin 8000) (k : Fin 64) (r : Fin 200000)
    (hr : r.val = t.val * 8000 + p.val) :
    (iblk2 V c 0 t : Vec Ideal S8000x64 .f32) (ix2 p k)
      = (V c (Pipeline.arrRef spec2 0) : S200000x64.Idx → EReal) (ix2 r k) := by
  obtain ⟨f, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 8000 + 1 * p.val = r.val; rw [f.1, hr]; omega
  | ⟨1, _⟩ => show win2_0.index t (1 : Fin 2) * 64 + 1 * k.val = k.val; rw [f.2]; omega

/-- The same for the second feature matrix. -/
theorem rows2_1 (c : Dev nD) (t : Fin cfg2.N) (p : Fin 8000) (k : Fin 64) (r : Fin 200000)
    (hr : r.val = t.val * 8000 + p.val) :
    (iblk2 V c 1 t : Vec Ideal S8000x64 .f32) (ix2 p k)
      = (V c (Pipeline.arrRef spec2 1) : S200000x64.Idx → EReal) (ix2 r k) := by
  obtain ⟨-, f, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 8000 + 1 * p.val = r.val; rw [f.1, hr]; omega
  | ⟨1, _⟩ => show win2_1.index t (1 : Fin 2) * 64 + 1 * k.val = k.val; rw [f.2]; omega

/-- The same for the third feature matrix. -/
theorem rows2_2 (c : Dev nD) (t : Fin cfg2.N) (p : Fin 8000) (k : Fin 64) (r : Fin 200000)
    (hr : r.val = t.val * 8000 + p.val) :
    (iblk2 V c 2 t : Vec Ideal S8000x64 .f32) (ix2 p k)
      = (V c (Pipeline.arrRef spec2 2) : S200000x64.Idx → EReal) (ix2 r k) := by
  obtain ⟨-, -, f, -⟩ := idx_facts2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 8000 + 1 * p.val = r.val; rw [f.1, hr]; omega
  | ⟨1, _⟩ => show win2_2.index t (1 : Fin 2) * 64 + 1 * k.val = k.val; rw [f.2]; omega

/-- The first staged weight matrix is the whole first weight matrix. -/
theorem whole2_3 (c : Dev nD) (t : Fin cfg2.N) :
    (iblk2 V c 3 t : Vec Ideal S64x64 .f32) = (V c (Pipeline.arrRef spec2 3) : S64x64.Idx → EReal) := by
  obtain ⟨-, -, -, f, -⟩ := idx_facts2 t
  funext y
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 64 + 1 * (y 0).val = (y 0).val; rw [f.1]; omega
  | ⟨1, _⟩ => show win2_3.index t (1 : Fin 2) * 64 + 1 * (y 1).val = (y 1).val; rw [f.2]; omega

/-- The second. -/
theorem whole2_4 (c : Dev nD) (t : Fin cfg2.N) :
    (iblk2 V c 4 t : Vec Ideal S64x64 .f32) = (V c (Pipeline.arrRef spec2 4) : S64x64.Idx → EReal) := by
  obtain ⟨-, -, -, -, f, -⟩ := idx_facts2 t
  funext y
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 64 + 1 * (y 0).val = (y 0).val; rw [f.1]; omega
  | ⟨1, _⟩ => show win2_4.index t (1 : Fin 2) * 64 + 1 * (y 1).val = (y 1).val; rw [f.2]; omega

/-- The third. -/
theorem whole2_5 (c : Dev nD) (t : Fin cfg2.N) :
    (iblk2 V c 5 t : Vec Ideal S64x64 .f32) = (V c (Pipeline.arrRef spec2 5) : S64x64.Idx → EReal) := by
  obtain ⟨-, -, -, -, -, f, -⟩ := idx_facts2 t
  funext y
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 64 + 1 * (y 0).val = (y 0).val; rw [f.1]; omega
  | ⟨1, _⟩ => show win2_5.index t (1 : Fin 2) * 64 + 1 * (y 1).val = (y 1).val; rw [f.2]; omega

/-- The staged bias row is the whole bias row. -/
theorem whole2_6 (c : Dev nD) (t : Fin cfg2.N) :
    (iblk2 V c 6 t : Vec Ideal S1x64 .f32) = (V c (Pipeline.arrRef spec2 6) : S1x64.Idx → EReal) := by
  obtain ⟨-, -, -, -, -, -, f, -⟩ := idx_facts2 t
  funext y
  unfold iblk2
  rw [View.read_apply]
  show V c (Pipeline.arrRef spec2 6) _ = V c (Pipeline.arrRef spec2 6) _
  congr 1
  funext a
  apply Fin.ext
  match a with
  | ⟨0, _⟩ => show win2_6.index t (0 : Fin 2) * 1 + 1 * (y 0).val = (y 0).val; rw [f.1]; omega
  | ⟨1, _⟩ => show win2_6.index t (1 : Fin 2) * 64 + 1 * (y 1).val = (y 1).val; rw [f.2]; omega

set_option maxHeartbeats 1000000 in
/-- What point `t` writes back is tile `t` of the combination of the whole arrays. -/
theorem flushed2_eq (c : Dev nD) (t : Fin cfg2.N) :
    (dat2 V c).flushed 7 t = ((cfg2.win 7).blk t).view.read (Elt Ideal)
      (Sage.comb3 (V c (Pipeline.arrRef spec2 0) : S200000x64.Idx → EReal) (V c (Pipeline.arrRef spec2 1) : S200000x64.Idx → EReal)
        (V c (Pipeline.arrRef spec2 2) : S200000x64.Idx → EReal)
        (V c (Pipeline.arrRef spec2 3) : S64x64.Idx → EReal) (V c (Pipeline.arrRef spec2 4) : S64x64.Idx → EReal)
        (V c (Pipeline.arrRef spec2 5) : S64x64.Idx → EReal) (V c (Pipeline.arrRef spec2 6) : S1x64.Idx → EReal)) := by
  show (cfg2.win 7).cut (grid2.coords t) ((dat2 V c).after 7 t) = _
  rw [after2_7]
  unfold out2_7
  rw [View.canon_unit_zero zeros2]
  simp only [View.ld_unit_zero (S := S8000x64) zeros2, View.ld_unit_zero (S := S64x64) zeros2,
    View.ld_unit_zero (S := S1x64) zeros2]
  rw [pay2_eq]
  obtain ⟨-, -, -, -, -, -, -, f⟩ := idx_facts2 t
  funext j
  rw [View.read_apply]
  show Sage.comb3 (iblk2 V c 0 t : Vec Ideal S8000x64 .f32) (iblk2 V c 1 t : Vec Ideal S8000x64 .f32)
      (iblk2 V c 2 t : Vec Ideal S8000x64 .f32) _ _ _ _ j
    = Sage.comb3 (V c (Pipeline.arrRef spec2 0) : S200000x64.Idx → EReal) (V c (Pipeline.arrRef spec2 1) : S200000x64.Idx → EReal)
        (V c (Pipeline.arrRef spec2 2) : S200000x64.Idx → EReal) _ _ _ _ (((cfg2.win 7).blk t).view.emb j)
  have hrow : (((cfg2.win 7).blk t).view.emb j 0).val = t.val * 8000 + (j 0).val := by
    show win2_7.index t (0 : Fin 2) * 8000 + 1 * (j 0).val = t.val * 8000 + (j 0).val
    rw [f.1]; omega
  refine Sage.comb3_tile j _ (whole2_3 V c t) (whole2_4 V c t) (whole2_5 V c t) (whole2_6 V c t)
    (fun k => ?_) (fun k => ?_) (fun k => ?_) ?_
  · exact rows2_0 V c t (j 0) k _ hrow
  · exact rows2_1 V c t (j 0) k _ hrow
  · exact rows2_2 V c t (j 0) k _ hrow
  · show (j 1).val = win2_7.index t (1 : Fin 2) * 64 + 1 * (j 1).val
    rw [f.2]; omega

/-- An index of the output matrix is in point `t`'s tile iff each coordinate is in the tile's range on its axis. -/
theorem mem_blk2 (t : Fin cfg2.N) (i : S200000x64.Idx) :
    i ∈ ((cfg2.win 7).blk t).view.set ↔ ∀ a : Fin 2, win2_7.index t a * S8000x64.size a ≤ (i a).val
      ∧ (i a).val < win2_7.index t a * S8000x64.size a + S8000x64.size a := by
  show i ∈ ((View.whole main_v85).slice (win2_7.rect t)).set ↔ _
  rw [View.set_slice_whole, Rect.mem_set_unit]
  exact Iff.rfl

/-- Every row of the output matrix is in some tile: row `r` in tile `r / 8000`. -/
theorem cover2 (i : S200000x64.Idx) :
    ∃ t : Fin cfg2.N, (cfg2.win 7).flush t = true ∧ i ∈ ((cfg2.win 7).blk t).view.set := by
  have hi0 : (i 0).val < 200000 := (i 0).isLt
  have hi1 : (i 1).val < 64 := (i 1).isLt
  have hN : grid2.N = 25 := N_2
  have ht : (i 0).val / 8000 < cfg2.N := by show (i 0).val / 8000 < grid2.N; rw [hN]; omega
  obtain ⟨-, -, -, -, -, -, -, f⟩ := idx_facts2 ⟨(i 0).val / 8000, ht⟩
  refine ⟨⟨(i 0).val / 8000, ht⟩, flush2_7 _, ?_⟩
  rw [mem_blk2]
  intro a
  match a with
  | ⟨0, _⟩ =>
    show win2_7.index ⟨(i 0).val / 8000, ht⟩ (0 : Fin 2) * 8000 ≤ (i 0).val
      ∧ (i 0).val < win2_7.index ⟨(i 0).val / 8000, ht⟩ (0 : Fin 2) * 8000 + 8000
    rw [f.1]; show (i 0).val / 8000 * 8000 ≤ (i 0).val ∧ (i 0).val < (i 0).val / 8000 * 8000 + 8000; omega
  | ⟨1, _⟩ =>
    show win2_7.index ⟨(i 0).val / 8000, ht⟩ (1 : Fin 2) * 64 ≤ (i 1).val
      ∧ (i 1).val < win2_7.index ⟨(i 0).val / 8000, ht⟩ (1 : Fin 2) * 64 + 64
    rw [f.2]; omega

/-- THE REGION'S VALUE: the output matrix ends holding the combination of the three feature matrices, the three weight
    matrices and the bias row as the region finds them. -/
theorem out2 (c : Dev nD) :
    (dat2 (F := Ideal) V c).arrAt 7 cfg2.N
      = Sage.comb3 (V c (Pipeline.arrRef spec2 0) : S200000x64.Idx → EReal) (V c (Pipeline.arrRef spec2 1) : S200000x64.Idx → EReal)
          (V c (Pipeline.arrRef spec2 2) : S200000x64.Idx → EReal)
          (V c (Pipeline.arrRef spec2 3) : S64x64.Idx → EReal) (V c (Pipeline.arrRef spec2 4) : S64x64.Idx → EReal)
          (V c (Pipeline.arrRef spec2 5) : S64x64.Idx → EReal) (V c (Pipeline.arrRef spec2 6) : S1x64.Idx → EReal) :=
  (dat2 V c).arrAt_eq_of_cover 7 _ (fun t _ => flushed2_eq V c t) cover2

end Cert.KernelIdeal.Val

end
-- ==== Proof.Region3.lean ====
/-
  The first layer that combines two relations, as one function of whole arrays.

  The region walks 5 tiles of 10000 rows.  At each tile it stages the same rows of the two feature matrices, the two
  whole weight matrices and the whole bias row, and writes back to the same rows of the output matrix the two products
  added, plus the bias row, clamped at zero.  Row `r` of the output is written by tile `r / 10000`, and an entry of the
  combination depends only on its own row of the two feature matrices, so the output matrix ends holding the
  combination of the whole feature matrices.
-/
import proofs.«130111_j37838661877859_1_alg».proof.Proof.Gen.KernelIdeal.Frame
import proofs.«130111_j37838661877859_1_alg».proof.Proof.SageBodies
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros3 : (![0, 0] : Fin 2 → Nat) = fun _ => 0 := funext fun a => by fin_cases a <;> rfl

/-- The body's stored value is the combination of the two staged tiles, the two weight matrices and the bias row. -/
theorem pay3_eq (a b : Vec Ideal S10000x64 .f32) (wa wb : Vec Ideal S64x64 .f32) (bias : Vec Ideal S1x64 .f32) :
    k3_pay1 a b wa wb bias = Sage.comb2 a b wa wb bias :=
  Sage.comb2_body ⟨rfl, rfl, rfl, rfl, rfl, rfl⟩ a b wa wb bias _ _ _ _ _ _ _

/-- The index maps over the grid: the two feature tiles and the output tile are tile `t` of the rows; the two weight
    matrices and the bias row are whole. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the first feature tile at point `t` is row `10000 t + p` of the first feature matrix. -/
theorem rows3_0 (c : Dev nD) (t : Fin cfg3.N) (p : Fin 10000) (k : Fin 64) (r : Fin 50000)
    (hr : r.val = t.val * 10000 + p.val) :
    (iblk3 V c 0 t : Vec Ideal S10000x64 .f32) (ix2 p k)
      = (V c (Pipeline.arrRef spec3 0) : S50000x64.Idx → EReal) (ix2 r k) := by
  obtain ⟨e0, e1, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 10000 + 1 * p.val = r.val; rw [e0, hr]; omega
  | ⟨1, _⟩ => show win3_0.index t (1 : Fin 2) * 64 + 1 * k.val = k.val; rw [e1]; omega

/-- Row `p` of the second feature tile at point `t` is row `10000 t + p` of the second feature matrix. -/
theorem rows3_1 (c : Dev nD) (t : Fin cfg3.N) (p : Fin 10000) (k : Fin 64) (r : Fin 50000)
    (hr : r.val = t.val * 10000 + p.val) :
    (iblk3 V c 1 t : Vec Ideal S10000x64 .f32) (ix2 p k)
      = (V c (Pipeline.arrRef spec3 1) : S50000x64.Idx → EReal) (ix2 r k) := by
  obtain ⟨-, -, e2, e3, -⟩ := idx_facts3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 10000 + 1 * p.val = r.val; rw [e2, hr]; omega
  | ⟨1, _⟩ => show win3_1.index t (1 : Fin 2) * 64 + 1 * k.val = k.val; rw [e3]; omega

/-- The first staged weight matrix is the whole first weight matrix. -/
theorem whole3_2 (c : Dev nD) (t : Fin cfg3.N) :
    (iblk3 V c 2 t : Vec Ideal S64x64 .f32) = (V c (Pipeline.arrRef spec3 2) : S64x64.Idx → EReal) := by
  obtain ⟨-, -, -, -, e4, e5, -⟩ := idx_facts3 t
  funext y
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 64 + 1 * (y 0).val = (y 0).val; rw [e4]; omega
  | ⟨1, _⟩ => show win3_2.index t (1 : Fin 2) * 64 + 1 * (y 1).val = (y 1).val; rw [e5]; omega

/-- The second staged weight matrix is the whole second weight matrix. -/
theorem whole3_3 (c : Dev nD) (t : Fin cfg3.N) :
    (iblk3 V c 3 t : Vec Ideal S64x64 .f32) = (V c (Pipeline.arrRef spec3 3) : S64x64.Idx → EReal) := by
  obtain ⟨-, -, -, -, -, -, e6, e7, -⟩ := idx_facts3 t
  funext y
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 64 + 1 * (y 0).val = (y 0).val; rw [e6]; omega
  | ⟨1, _⟩ => show win3_3.index t (1 : Fin 2) * 64 + 1 * (y 1).val = (y 1).val; rw [e7]; omega

/-- The staged bias row is the whole bias row. -/
theorem whole3_4 (c : Dev nD) (t : Fin cfg3.N) :
    (iblk3 V c 4 t : Vec Ideal S1x64 .f32) = (V c (Pipeline.arrRef spec3 4) : S1x64.Idx → EReal) := by
  obtain ⟨-, -, -, -, -, -, -, -, e8, e9, -⟩ := idx_facts3 t
  funext y
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (y 0).val = (y 0).val; rw [e8]; omega
  | ⟨1, _⟩ => show win3_4.index t (1 : Fin 2) * 64 + 1 * (y 1).val = (y 1).val; rw [e9]; omega

/-- What point `t` writes back is tile `t` of the combination of the whole arrays. -/
theorem flushed3_eq (c : Dev nD) (t : Fin cfg3.N) :
    (dat3 V c).flushed 5 t = ((cfg3.win 5).blk t).view.read (Elt Ideal)
      (Sage.comb2 (V c (Pipeline.arrRef spec3 0) : S50000x64.Idx → EReal) (V c (Pipeline.arrRef spec3 1) : S50000x64.Idx → EReal)
        (V c (Pipeline.arrRef spec3 2) : S64x64.Idx → EReal) (V c (Pipeline.arrRef spec3 3) : S64x64.Idx → EReal)
        (V c (Pipeline.arrRef spec3 4) : S1x64.Idx → EReal)) := by
  show (cfg3.win 5).cut (grid3.coords t) ((dat3 V c).after 5 t) = _
  rw [after3_5]
  unfold out3_5
  rw [View.canon_unit_zero zeros3]
  simp only [View.ld_unit_zero (S := S10000x64) zeros3, View.ld_unit_zero (S := S64x64) zeros3,
    View.ld_unit_zero (S := S1x64) zeros3]
  rw [pay3_eq]
  obtain ⟨-, -, -, -, -, -, -, -, -, -, e10, e11⟩ := idx_facts3 t
  funext j
  rw [View.read_apply]
  show Sage.comb2 (iblk3 V c 0 t : Vec Ideal S10000x64 .f32) (iblk3 V c 1 t : Vec Ideal S10000x64 .f32) _ _ _ j
    = Sage.comb2 (V c (Pipeline.arrRef spec3 0) : S50000x64.Idx → EReal) (V c (Pipeline.arrRef spec3 1) : S50000x64.Idx → EReal)
        _ _ _ (((cfg3.win 5).blk t).view.emb j)
  have hrow : (((cfg3.win 5).blk t).view.emb j 0).val = t.val * 10000 + (j 0).val := by
    show win3_5.index t (0 : Fin 2) * 10000 + 1 * (j 0).val = t.val * 10000 + (j 0).val
    rw [e10]; omega
  refine Sage.comb2_tile j _ (whole3_2 V c t) (whole3_3 V c t) (whole3_4 V c t) (fun k => ?_) (fun k => ?_) ?_
  · exact rows3_0 V c t (j 0) k _ hrow
  · exact rows3_1 V c t (j 0) k _ hrow
  · show (j 1).val = win3_5.index t (1 : Fin 2) * 64 + 1 * (j 1).val
    rw [e11]; omega

/-- An index of the output matrix is in point `t`'s tile iff each coordinate is in the tile's range on its axis. -/
theorem mem_blk3 (t : Fin cfg3.N) (i : S50000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v93).slice (win3_5.rect t)).set ↔ _
  rw [View.set_slice_whole, Rect.mem_set_unit]
  exact Iff.rfl

/-- Every row of the output matrix is in some tile: row `r` in tile `r / 10000`. -/
theorem cover3 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : grid3.N = 5 := N_3
  have ht : (i 0).val / 10000 < cfg3.N := by show (i 0).val / 10000 < grid3.N; rw [hN]; omega
  obtain ⟨-, -, -, -, -, -, -, -, -, -, e10, e11⟩ := idx_facts3 ⟨(i 0).val / 10000, ht⟩
  refine ⟨⟨(i 0).val / 10000, ht⟩, flush3_5 _, ?_⟩
  rw [mem_blk3]
  intro a
  match a with
  | ⟨0, _⟩ =>
    show win3_5.index ⟨(i 0).val / 10000, ht⟩ (0 : Fin 2) * 10000 ≤ (i 0).val
      ∧ (i 0).val < win3_5.index ⟨(i 0).val / 10000, ht⟩ (0 : Fin 2) * 10000 + 10000
    rw [e10]; show (i 0).val / 10000 * 10000 ≤ (i 0).val ∧ (i 0).val < (i 0).val / 10000 * 10000 + 10000; omega
  | ⟨1, _⟩ =>
    show win3_5.index ⟨(i 0).val / 10000, ht⟩ (1 : Fin 2) * 64 ≤ (i 1).val
      ∧ (i 1).val < win3_5.index ⟨(i 0).val / 10000, ht⟩ (1 : Fin 2) * 64 + 64
    rw [e11]; omega

/-- THE REGION'S VALUE: the output matrix ends holding the combination of the two feature matrices, the two weight
    matrices and the bias row as the region finds them. -/
theorem out3 (c : Dev nD) :
    (dat3 (F := Ideal) V c).arrAt 5 cfg3.N
      = Sage.comb2 (V c (Pipeline.arrRef spec3 0) : S50000x64.Idx → EReal) (V c (Pipeline.arrRef spec3 1) : S50000x64.Idx → EReal)
          (V c (Pipeline.arrRef spec3 2) : S64x64.Idx → EReal) (V c (Pipeline.arrRef spec3 3) : S64x64.Idx → EReal)
          (V c (Pipeline.arrRef spec3 4) : S1x64.Idx → EReal) :=
  (dat3 V c).arrAt_eq_of_cover 5 _ (fun t _ => flushed3_eq V c t) cover3

end Cert.KernelIdeal.Val

end
-- ==== Proof.Region4.lean ====
/-
  The second three-way combining layer as one function of whole arrays.

  The region walks 25 tiles of 8000 rows of three feature matrices.  At each tile it stages the three tiles, the three
  whole weight matrices and the whole bias row, and writes back the combination of them to the same rows of the
  output matrix.  Row `r` of the output is written by tile `r / 8000`, and an entry of the combination depends only
  on its own row of each feature matrix, so the output matrix ends holding the combination of the whole matrices.
-/
import proofs.«130111_j37838661877859_1_alg».proof.Proof.Gen.KernelIdeal.Frame
import proofs.«130111_j37838661877859_1_alg».proof.Proof.SageBodies
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros4 : (![0, 0] : Fin 2 → Nat) = fun _ => 0 := funext fun a => by fin_cases a <;> rfl

/-- The body's stored value is the combination of the staged tiles, weights and bias. -/
theorem pay4_eq (xa xb xc : Vec Ideal S8000x64 .f32) (wa wb wc : Vec Ideal S64x64 .f32) (bias : Vec Ideal S1x64 .f32) :
    k4_pay1 xa xb xc wa wb wc bias = Sage.comb3 xa xb xc wa wb wc bias :=
  Sage.comb3_body ⟨rfl, rfl, rfl, rfl, rfl, rfl⟩ xa xb xc wa wb wc bias _ _ _ _ _ _ _

/-- The index maps over the grid: the three feature tiles and the output tile are tile `t` of the rows, the weights
    and the bias row are whole. -/
theorem idx_facts4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = t.val ∧ win4_7.index t (1 : Fin 2) = 0) :=
  (by decide +kernel : ∀ t : Fin grid4.N, _)

/-- Row `p` of the first feature tile at point `t` is row `8000 t + p` of the first feature matrix. -/
theorem rows4_0 (c : Dev nD) (t : Fin cfg4.N) (p : Fin 8000) (k : Fin 64) (r : Fin 200000)
    (hr : r.val = t.val * 8000 + p.val) :
    (iblk4 V c 0 t : Vec Ideal S8000x64 .f32) (ix2 p k)
      = (V c (Pipeline.arrRef spec4 0) : S200000x64.Idx → EReal) (ix2 r k) := by
  obtain ⟨f, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 8000 + 1 * p.val = r.val; rw [f.1, hr]; omega
  | ⟨1, _⟩ => show win4_0.index t (1 : Fin 2) * 64 + 1 * k.val = k.val; rw [f.2]; omega

/-- The same for the second feature matrix. -/
theorem rows4_1 (c : Dev nD) (t : Fin cfg4.N) (p : Fin 8000) (k : Fin 64) (r : Fin 200000)
    (hr : r.val = t.val * 8000 + p.val) :
    (iblk4 V c 1 t : Vec Ideal S8000x64 .f32) (ix2 p k)
      = (V c (Pipeline.arrRef spec4 1) : S200000x64.Idx → EReal) (ix2 r k) := by
  obtain ⟨-, f, -⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 8000 + 1 * p.val = r.val; rw [f.1, hr]; omega
  | ⟨1, _⟩ => show win4_1.index t (1 : Fin 2) * 64 + 1 * k.val = k.val; rw [f.2]; omega

/-- The same for the third feature matrix. -/
theorem rows4_2 (c : Dev nD) (t : Fin cfg4.N) (p : Fin 8000) (k : Fin 64) (r : Fin 200000)
    (hr : r.val = t.val * 8000 + p.val) :
    (iblk4 V c 2 t : Vec Ideal S8000x64 .f32) (ix2 p k)
      = (V c (Pipeline.arrRef spec4 2) : S200000x64.Idx → EReal) (ix2 r k) := by
  obtain ⟨-, -, f, -⟩ := idx_facts4 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 8000 + 1 * p.val = r.val; rw [f.1, hr]; omega
  | ⟨1, _⟩ => show win4_2.index t (1 : Fin 2) * 64 + 1 * k.val = k.val; rw [f.2]; omega

/-- The first staged weight matrix is the whole first weight matrix. -/
theorem whole4_3 (c : Dev nD) (t : Fin cfg4.N) :
    (iblk4 V c 3 t : Vec Ideal S64x64 .f32) = (V c (Pipeline.arrRef spec4 3) : S64x64.Idx → EReal) := by
  obtain ⟨-, -, -, f, -⟩ := idx_facts4 t
  funext y
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 64 + 1 * (y 0).val = (y 0).val; rw [f.1]; omega
  | ⟨1, _⟩ => show win4_3.index t (1 : Fin 2) * 64 + 1 * (y 1).val = (y 1).val; rw [f.2]; omega

/-- The second. -/
theorem whole4_4 (c : Dev nD) (t : Fin cfg4.N) :
    (iblk4 V c 4 t : Vec Ideal S64x64 .f32) = (V c (Pipeline.arrRef spec4 4) : S64x64.Idx → EReal) := by
  obtain ⟨-, -, -, -, f, -⟩ := idx_facts4 t
  funext y
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 64 + 1 * (y 0).val = (y 0).val; rw [f.1]; omega
  | ⟨1, _⟩ => show win4_4.index t (1 : Fin 2) * 64 + 1 * (y 1).val = (y 1).val; rw [f.2]; omega

/-- The third. -/
theorem whole4_5 (c : Dev nD) (t : Fin cfg4.N) :
    (iblk4 V c 5 t : Vec Ideal S64x64 .f32) = (V c (Pipeline.arrRef spec4 5) : S64x64.Idx → EReal) := by
  obtain ⟨-, -, -, -, -, f, -⟩ := idx_facts4 t
  funext y
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 64 + 1 * (y 0).val = (y 0).val; rw [f.1]; omega
  | ⟨1, _⟩ => show win4_5.index t (1 : Fin 2) * 64 + 1 * (y 1).val = (y 1).val; rw [f.2]; omega

/-- The staged bias row is the whole bias row. -/
theorem whole4_6 (c : Dev nD) (t : Fin cfg4.N) :
    (iblk4 V c 6 t : Vec Ideal S1x64 .f32) = (V c (Pipeline.arrRef spec4 6) : S1x64.Idx → EReal) := by
  obtain ⟨-, -, -, -, -, -, f, -⟩ := idx_facts4 t
  funext y
  unfold iblk4
  rw [View.read_apply]
  show V c (Pipeline.arrRef spec4 6) _ = V c (Pipeline.arrRef spec4 6) _
  congr 1
  funext a
  apply Fin.ext
  match a with
  | ⟨0, _⟩ => show win4_6.index t (0 : Fin 2) * 1 + 1 * (y 0).val = (y 0).val; rw [f.1]; omega
  | ⟨1, _⟩ => show win4_6.index t (1 : Fin 2) * 64 + 1 * (y 1).val = (y 1).val; rw [f.2]; omega

set_option maxHeartbeats 1000000 in
/-- What point `t` writes back is tile `t` of the combination of the whole arrays. -/
theorem flushed4_eq (c : Dev nD) (t : Fin cfg4.N) :
    (dat4 V c).flushed 7 t = ((cfg4.win 7).blk t).view.read (Elt Ideal)
      (Sage.comb3 (V c (Pipeline.arrRef spec4 0) : S200000x64.Idx → EReal) (V c (Pipeline.arrRef spec4 1) : S200000x64.Idx → EReal)
        (V c (Pipeline.arrRef spec4 2) : S200000x64.Idx → EReal)
        (V c (Pipeline.arrRef spec4 3) : S64x64.Idx → EReal) (V c (Pipeline.arrRef spec4 4) : S64x64.Idx → EReal)
        (V c (Pipeline.arrRef spec4 5) : S64x64.Idx → EReal) (V c (Pipeline.arrRef spec4 6) : S1x64.Idx → EReal)) := by
  show (cfg4.win 7).cut (grid4.coords t) ((dat4 V c).after 7 t) = _
  rw [after4_7]
  unfold out4_7
  rw [View.canon_unit_zero zeros4]
  simp only [View.ld_unit_zero (S := S8000x64) zeros4, View.ld_unit_zero (S := S64x64) zeros4,
    View.ld_unit_zero (S := S1x64) zeros4]
  rw [pay4_eq]
  obtain ⟨-, -, -, -, -, -, -, f⟩ := idx_facts4 t
  funext j
  rw [View.read_apply]
  show Sage.comb3 (iblk4 V c 0 t : Vec Ideal S8000x64 .f32) (iblk4 V c 1 t : Vec Ideal S8000x64 .f32)
      (iblk4 V c 2 t : Vec Ideal S8000x64 .f32) _ _ _ _ j
    = Sage.comb3 (V c (Pipeline.arrRef spec4 0) : S200000x64.Idx → EReal) (V c (Pipeline.arrRef spec4 1) : S200000x64.Idx → EReal)
        (V c (Pipeline.arrRef spec4 2) : S200000x64.Idx → EReal) _ _ _ _ (((cfg4.win 7).blk t).view.emb j)
  have hrow : (((cfg4.win 7).blk t).view.emb j 0).val = t.val * 8000 + (j 0).val := by
    show win4_7.index t (0 : Fin 2) * 8000 + 1 * (j 0).val = t.val * 8000 + (j 0).val
    rw [f.1]; omega
  refine Sage.comb3_tile j _ (whole4_3 V c t) (whole4_4 V c t) (whole4_5 V c t) (whole4_6 V c t)
    (fun k => ?_) (fun k => ?_) (fun k => ?_) ?_
  · exact rows4_0 V c t (j 0) k _ hrow
  · exact rows4_1 V c t (j 0) k _ hrow
  · exact rows4_2 V c t (j 0) k _ hrow
  · show (j 1).val = win4_7.index t (1 : Fin 2) * 64 + 1 * (j 1).val
    rw [f.2]; omega

/-- An index of the output matrix is in point `t`'s tile iff each coordinate is in the tile's range on its axis. -/
theorem mem_blk4 (t : Fin cfg4.N) (i : S200000x64.Idx) :
    i ∈ ((cfg4.win 7).blk t).view.set ↔ ∀ a : Fin 2, win4_7.index t a * S8000x64.size a ≤ (i a).val
      ∧ (i a).val < win4_7.index t a * S8000x64.size a + S8000x64.size a := by
  show i ∈ ((View.whole main_v175).slice (win4_7.rect t)).set ↔ _
  rw [View.set_slice_whole, Rect.mem_set_unit]
  exact Iff.rfl

/-- Every row of the output matrix is in some tile: row `r` in tile `r / 8000`. -/
theorem cover4 (i : S200000x64.Idx) :
    ∃ t : Fin cfg4.N, (cfg4.win 7).flush t = true ∧ i ∈ ((cfg4.win 7).blk t).view.set := by
  have hi0 : (i 0).val < 200000 := (i 0).isLt
  have hi1 : (i 1).val < 64 := (i 1).isLt
  have hN : grid4.N = 25 := N_4
  have ht : (i 0).val / 8000 < cfg4.N := by show (i 0).val / 8000 < grid4.N; rw [hN]; omega
  obtain ⟨-, -, -, -, -, -, -, f⟩ := idx_facts4 ⟨(i 0).val / 8000, ht⟩
  refine ⟨⟨(i 0).val / 8000, ht⟩, flush4_7 _, ?_⟩
  rw [mem_blk4]
  intro a
  match a with
  | ⟨0, _⟩ =>
    show win4_7.index ⟨(i 0).val / 8000, ht⟩ (0 : Fin 2) * 8000 ≤ (i 0).val
      ∧ (i 0).val < win4_7.index ⟨(i 0).val / 8000, ht⟩ (0 : Fin 2) * 8000 + 8000
    rw [f.1]; show (i 0).val / 8000 * 8000 ≤ (i 0).val ∧ (i 0).val < (i 0).val / 8000 * 8000 + 8000; omega
  | ⟨1, _⟩ =>
    show win4_7.index ⟨(i 0).val / 8000, ht⟩ (1 : Fin 2) * 64 ≤ (i 1).val
      ∧ (i 1).val < win4_7.index ⟨(i 0).val / 8000, ht⟩ (1 : Fin 2) * 64 + 64
    rw [f.2]; omega

/-- THE REGION'S VALUE: the output matrix ends holding the combination of the three feature matrices, the three weight
    matrices and the bias row as the region finds them. -/
theorem out4 (c : Dev nD) :
    (dat4 (F := Ideal) V c).arrAt 7 cfg4.N
      = Sage.comb3 (V c (Pipeline.arrRef spec4 0) : S200000x64.Idx → EReal) (V c (Pipeline.arrRef spec4 1) : S200000x64.Idx → EReal)
          (V c (Pipeline.arrRef spec4 2) : S200000x64.Idx → EReal)
          (V c (Pipeline.arrRef spec4 3) : S64x64.Idx → EReal) (V c (Pipeline.arrRef spec4 4) : S64x64.Idx → EReal)
          (V c (Pipeline.arrRef spec4 5) : S64x64.Idx → EReal) (V c (Pipeline.arrRef spec4 6) : S1x64.Idx → EReal) :=
  (dat4 V c).arrAt_eq_of_cover 7 _ (fun t _ => flushed4_eq V c t) cover4

end Cert.KernelIdeal.Val

end
-- ==== Proof.Region5.lean ====
/-
  The second layer that combines two relations, as one function of whole arrays.

  The region walks 5 tiles of 10000 rows.  At each tile it stages the same rows of the two feature matrices, the two
  whole weight matrices and the whole bias row, and writes back to the same rows of the output matrix the two products
  added, plus the bias row, clamped at zero.  Row `r` of the output is written by tile `r / 10000`, and an entry of the
  combination depends only on its own row of the two feature matrices, so the output matrix ends holding the
  combination of the whole feature matrices.
-/
import proofs.«130111_j37838661877859_1_alg».proof.Proof.Gen.KernelIdeal.Frame
import proofs.«130111_j37838661877859_1_alg».proof.Proof.SageBodies
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros5 : (![0, 0] : Fin 2 → Nat) = fun _ => 0 := funext fun a => by fin_cases a <;> rfl

/-- The body's stored value is the combination of the two staged tiles, the two weight matrices and the bias row. -/
theorem pay5_eq (a b : Vec Ideal S10000x64 .f32) (wa wb : Vec Ideal S64x64 .f32) (bias : Vec Ideal S1x64 .f32) :
    k5_pay1 a b wa wb bias = Sage.comb2 a b wa wb bias :=
  Sage.comb2_body ⟨rfl, rfl, rfl, rfl, rfl, rfl⟩ a b wa wb bias _ _ _ _ _ _ _

/-- The index maps over the grid: the two feature tiles and the output tile are tile `t` of the rows; the two weight
    matrices and the bias row are whole. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row `p` of the first feature tile at point `t` is row `10000 t + p` of the first feature matrix. -/
theorem rows5_0 (c : Dev nD) (t : Fin cfg5.N) (p : Fin 10000) (k : Fin 64) (r : Fin 50000)
    (hr : r.val = t.val * 10000 + p.val) :
    (iblk5 V c 0 t : Vec Ideal S10000x64 .f32) (ix2 p k)
      = (V c (Pipeline.arrRef spec5 0) : S50000x64.Idx → EReal) (ix2 r k) := by
  obtain ⟨e0, e1, -⟩ := idx_facts5 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 10000 + 1 * p.val = r.val; rw [e0, hr]; omega
  | ⟨1, _⟩ => show win5_0.index t (1 : Fin 2) * 64 + 1 * k.val = k.val; rw [e1]; omega

/-- Row `p` of the second feature tile at point `t` is row `10000 t + p` of the second feature matrix. -/
theorem rows5_1 (c : Dev nD) (t : Fin cfg5.N) (p : Fin 10000) (k : Fin 64) (r : Fin 50000)
    (hr : r.val = t.val * 10000 + p.val) :
    (iblk5 V c 1 t : Vec Ideal S10000x64 .f32) (ix2 p k)
      = (V c (Pipeline.arrRef spec5 1) : S50000x64.Idx → EReal) (ix2 r k) := by
  obtain ⟨-, -, e2, e3, -⟩ := idx_facts5 t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 10000 + 1 * p.val = r.val; rw [e2, hr]; omega
  | ⟨1, _⟩ => show win5_1.index t (1 : Fin 2) * 64 + 1 * k.val = k.val; rw [e3]; omega

/-- The first staged weight matrix is the whole first weight matrix. -/
theorem whole5_2 (c : Dev nD) (t : Fin cfg5.N) :
    (iblk5 V c 2 t : Vec Ideal S64x64 .f32) = (V c (Pipeline.arrRef spec5 2) : S64x64.Idx → EReal) := by
  obtain ⟨-, -, -, -, e4, e5, -⟩ := idx_facts5 t
  funext y
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 64 + 1 * (y 0).val = (y 0).val; rw [e4]; omega
  | ⟨1, _⟩ => show win5_2.index t (1 : Fin 2) * 64 + 1 * (y 1).val = (y 1).val; rw [e5]; omega

/-- The second staged weight matrix is the whole second weight matrix. -/
theorem whole5_3 (c : Dev nD) (t : Fin cfg5.N) :
    (iblk5 V c 3 t : Vec Ideal S64x64 .f32) = (V c (Pipeline.arrRef spec5 3) : S64x64.Idx → EReal) := by
  obtain ⟨-, -, -, -, -, -, e6, e7, -⟩ := idx_facts5 t
  funext y
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 64 + 1 * (y 0).val = (y 0).val; rw [e6]; omega
  | ⟨1, _⟩ => show win5_3.index t (1 : Fin 2) * 64 + 1 * (y 1).val = (y 1).val; rw [e7]; omega

/-- The staged bias row is the whole bias row. -/
theorem whole5_4 (c : Dev nD) (t : Fin cfg5.N) :
    (iblk5 V c 4 t : Vec Ideal S1x64 .f32) = (V c (Pipeline.arrRef spec5 4) : S1x64.Idx → EReal) := by
  obtain ⟨-, -, -, -, -, -, -, -, e8, e9, -⟩ := idx_facts5 t
  funext y
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * (y 0).val = (y 0).val; rw [e8]; omega
  | ⟨1, _⟩ => show win5_4.index t (1 : Fin 2) * 64 + 1 * (y 1).val = (y 1).val; rw [e9]; omega

set_option maxHeartbeats 1000000 in
/-- What point `t` writes back is tile `t` of the combination of the whole arrays. -/
theorem flushed5_eq (c : Dev nD) (t : Fin cfg5.N) :
    (dat5 V c).flushed 5 t = ((cfg5.win 5).blk t).view.read (Elt Ideal)
      (Sage.comb2 (V c (Pipeline.arrRef spec5 0) : S50000x64.Idx → EReal) (V c (Pipeline.arrRef spec5 1) : S50000x64.Idx → EReal)
        (V c (Pipeline.arrRef spec5 2) : S64x64.Idx → EReal) (V c (Pipeline.arrRef spec5 3) : S64x64.Idx → EReal)
        (V c (Pipeline.arrRef spec5 4) : S1x64.Idx → EReal)) := by
  show (cfg5.win 5).cut (grid5.coords t) ((dat5 V c).after 5 t) = _
  rw [after5_5]
  unfold out5_5
  rw [View.canon_unit_zero zeros5]
  simp only [View.ld_unit_zero (S := S10000x64) zeros5, View.ld_unit_zero (S := S64x64) zeros5,
    View.ld_unit_zero (S := S1x64) zeros5]
  rw [pay5_eq]
  obtain ⟨-, -, -, -, -, -, -, -, -, -, e10, e11⟩ := idx_facts5 t
  funext j
  rw [View.read_apply]
  show Sage.comb2 (iblk5 V c 0 t : Vec Ideal S10000x64 .f32) (iblk5 V c 1 t : Vec Ideal S10000x64 .f32) _ _ _ j
    = Sage.comb2 (V c (Pipeline.arrRef spec5 0) : S50000x64.Idx → EReal) (V c (Pipeline.arrRef spec5 1) : S50000x64.Idx → EReal)
        _ _ _ (((cfg5.win 5).blk t).view.emb j)
  have hrow : (((cfg5.win 5).blk t).view.emb j 0).val = t.val * 10000 + (j 0).val := by
    show win5_5.index t (0 : Fin 2) * 10000 + 1 * (j 0).val = t.val * 10000 + (j 0).val
    rw [e10]; omega
  refine Sage.comb2_tile j _ (whole5_2 V c t) (whole5_3 V c t) (whole5_4 V c t) (fun k => ?_) (fun k => ?_) ?_
  · exact rows5_0 V c t (j 0) k _ hrow
  · exact rows5_1 V c t (j 0) k _ hrow
  · show (j 1).val = win5_5.index t (1 : Fin 2) * 64 + 1 * (j 1).val
    rw [e11]; omega

/-- An index of the output matrix is in point `t`'s tile iff each coordinate is in the tile's range on its axis. -/
theorem mem_blk5 (t : Fin cfg5.N) (i : S50000x64.Idx) :
    i ∈ ((cfg5.win 5).blk t).view.set ↔ ∀ a : Fin 2, win5_5.index t a * S10000x64.size a ≤ (i a).val
      ∧ (i a).val < win5_5.index t a * S10000x64.size a + S10000x64.size a := by
  show i ∈ ((View.whole main_v183).slice (win5_5.rect t)).set ↔ _
  rw [View.set_slice_whole, Rect.mem_set_unit]
  exact Iff.rfl

/-- Every row of the output matrix is in some tile: row `r` in tile `r / 10000`. -/
theorem cover5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hN : grid5.N = 5 := N_5
  have ht : (i 0).val / 10000 < cfg5.N := by show (i 0).val / 10000 < grid5.N; rw [hN]; omega
  obtain ⟨-, -, -, -, -, -, -, -, -, -, e10, e11⟩ := idx_facts5 ⟨(i 0).val / 10000, ht⟩
  refine ⟨⟨(i 0).val / 10000, ht⟩, flush5_5 _, ?_⟩
  rw [mem_blk5]
  intro a
  match a with
  | ⟨0, _⟩ =>
    show win5_5.index ⟨(i 0).val / 10000, ht⟩ (0 : Fin 2) * 10000 ≤ (i 0).val
      ∧ (i 0).val < win5_5.index ⟨(i 0).val / 10000, ht⟩ (0 : Fin 2) * 10000 + 10000
    rw [e10]; show (i 0).val / 10000 * 10000 ≤ (i 0).val ∧ (i 0).val < (i 0).val / 10000 * 10000 + 10000; omega
  | ⟨1, _⟩ =>
    show win5_5.index ⟨(i 0).val / 10000, ht⟩ (1 : Fin 2) * 64 ≤ (i 1).val
      ∧ (i 1).val < win5_5.index ⟨(i 0).val / 10000, ht⟩ (1 : Fin 2) * 64 + 64
    rw [e11]; omega

/-- THE REGION'S VALUE: the output matrix ends holding the combination of the two feature matrices, the two weight
    matrices and the bias row as the region finds them. -/
theorem out5 (c : Dev nD) :
    (dat5 (F := Ideal) V c).arrAt 5 cfg5.N
      = Sage.comb2 (V c (Pipeline.arrRef spec5 0) : S50000x64.Idx → EReal) (V c (Pipeline.arrRef spec5 1) : S50000x64.Idx → EReal)
          (V c (Pipeline.arrRef spec5 2) : S64x64.Idx → EReal) (V c (Pipeline.arrRef spec5 3) : S64x64.Idx → EReal)
          (V c (Pipeline.arrRef spec5 4) : S1x64.Idx → EReal) :=
  (dat5 V c).arrAt_eq_of_cover 5 _ (fun t _ => flushed5_eq V c t) cover5

end Cert.KernelIdeal.Val

end
-- ==== Proof.TileSum.lean ====
/-
  A sum over the rows of a long array, taken tile by tile.

  A function on `Fin M` is extended by zero to all naturals; its sum over `Fin M` is then a sum over an initial
  segment of the naturals, and the sum over the first `a + T` naturals is the sum over the first `a` plus the sum
  over the tile of `T` rows that starts at `a`.  Nothing but a commutative monoid is needed of the values: no
  finiteness, no subtraction.
-/
import Mathlib.Algebra.BigOperators.Fin
import Mathlib.Algebra.BigOperators.Group.Finset.Basic

open scoped BigOperators

namespace TileSum

variable {α : Type} [AddCommMonoid α] {M : ℕ}

/-- `f` on the naturals: its value below `M`, zero from `M` on. -/
def ext (f : Fin M → α) (r : ℕ) : α := if h : r < M then f ⟨r, h⟩ else 0

theorem ext_of_lt (f : Fin M → α) (r : ℕ) (h : r < M) : ext f r = f ⟨r, h⟩ := dif_pos h

/-- The sum over the first `n` naturals of the extension. -/
def pre (f : Fin M → α) (n : ℕ) : α := ∑ r ∈ Finset.range n, ext f r

theorem pre_zero (f : Fin M → α) : pre f 0 = 0 := Finset.sum_range_zero _

/-- The whole sum is the prefix of length `M`. -/
theorem sum_univ_eq_pre (f : Fin M → α) : ∑ r : Fin M, f r = pre f M := by
  unfold pre
  rw [Finset.sum_range]
  exact Finset.sum_congr rfl fun r _ => (ext_of_lt f r.val r.isLt).symm

/-- A prefix and the tile of `T` rows after it make the longer prefix. -/
theorem pre_add_tile (f : Fin M → α) (a T : ℕ) (h : a + T ≤ M) :
    pre f a + ∑ k : Fin T, f ⟨a + k.val, lt_of_lt_of_le (Nat.add_lt_add_left k.isLt a) h⟩ = pre f (a + T) := by
  unfold pre
  rw [Finset.sum_range_add]
  refine congrArg _ ?_
  refine (Finset.sum_congr rfl fun (k : Fin T) _ => ?_).trans (Finset.sum_range fun x => ext f (a + x)).symm
  exact (ext_of_lt f (a + k.val) (lt_of_lt_of_le (Nat.add_lt_add_left k.isLt a) h)).symm

end TileSum
-- ==== Proof.Region6.lean ====
/-
  The sum pool of the [200000, 64] features (the seventh kernel call of the program).

  The call walks the 25 row tiles of 8000 rows.  Its output block [1, 64] never moves: at the first tile it is set
  to zero, and at every tile the rows of the tile, added up feature by feature, are added to it; it is written back
  once, after the last tile.  So after tile `n` the block holds, at feature `q`, the sum of column `q` over the rows
  below `8000 * (n + 1)` — by induction on the tile, with `0 + x = x` and nothing else of the extended reals than
  that their addition is commutative and associative — and after the last tile that is the sum over all 200000 rows.
-/
import proofs.«130111_j37838661877859_1_alg».proof.Proof.Gen.KernelIdeal.Frame
import proofs.«130111_j37838661877859_1_alg».proof.Proof.Spec
import proofs.«130111_j37838661877859_1_alg».proof.Proof.TileSum
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-! ## What one tile leaves in the output block, for any float values -/

section Pieces

variable {F : FTy → Type} [FloatOps F]

theorem hz6 : (![0, 0] : Fin 2 → Nat) = fun _ => 0 := funext fun a => by fin_cases a <;> rfl

/-- A tile that is not the first: the block, holding `xo`, is overwritten by the stored value computed from `xo`
    and the tile `x`. -/
theorem piece6_B (c : Dev nD) (i : grid6.Coords) (a1 : Memref sig .tc .vmem S8000x64 .f32) (h1 : a1.IsWhole)
    (a2 : Memref sig .tc .vmem S1x64 .f32) (h2 : a2.IsWhole) (hc : ¬cond6_0 i) (x : Vec F S8000x64 .f32)
    (xo : Vec F S1x64 .f32) : out6_B_1 c i a1 h1 a2 h2 hc x xo = k6_pay2 xo x := by
  unfold out6_B_1
  rw [View.read_writes_eq_canon _ _ _ (cover6_B_1 c i a1 h1 a2 h2 hc x xo)]
  unfold kernelRun6_B
  dsimp only
  rw [View.canon_unit_zero (S := S1x64) hz6]
  simp only [View.readAt_eq_ld, h1.read_unread, h2.read_unread, View.ld_unit_zero (S := S8000x64) hz6,
    View.ld_unit_zero (S := S1x64) hz6]

/-- The first tile: the block is set to the zero block, read back, and overwritten by the stored value computed
    from the zero block and the tile `x`. -/
theorem piece6_A (c : Dev nD) (i : grid6.Coords) (a1 : Memref sig .tc .vmem S8000x64 .f32) (h1 : a1.IsWhole)
    (a2 : Memref sig .tc .vmem S1x64 .f32) (h2 : a2.IsWhole) (hc : cond6_0 i) (x : Vec F S8000x64 .f32) :
    out6_A_1 c i a1 h1 a2 h2 hc x = k6_pay2 (k6_pay1 (F := F)) x := by
  unfold out6_A_1
  rw [View.read_writes_eq_canon _ _ _ (cover6_A_1 c i a1 h1 a2 h2 hc x)]
  unfold kernelRun6_A
  dsimp only
  sl_unfold_words
  rw [View.canon_cons_unit_zero (S := S1x64) hz6, View.readCov_unit_zero (S := S1x64) _ hz6]
  simp only [View.readAt_eq_ld, h1.read_unread, View.ld_unit_zero (S := S8000x64) hz6]

end Pieces

/-! ## The stored value at a feature, over the extended reals -/

/-- The row the sum along the rows reads at feature `q` and row `k` of the tile. -/
theorem lift6 (q : Fin 64) (k : Fin 8000) :
    (reduces_S8000x64_S64.lift (ix1 q) k : S8000x64.Idx) = ix2 k q := by
  funext a
  match a with
  | ⟨0, _⟩ => rfl
  | ⟨1, _⟩ => rfl

/-- The zero block is zero at every feature. -/
theorem pay6_zero (j : S1x64.Idx) : k6_pay1 (F := Ideal) j = 0 := by
  unfold k6_pay1
  exact Ideal.ofBits_zero_f32

/-- The stored value at feature `q`: what the block held there, plus the tile's column `q` added up. -/
theorem pay6_apply (xo : Vec Ideal S1x64 .f32) (x : Vec Ideal S8000x64 .f32) (q : Fin 64) :
    k6_pay2 (F := Ideal) xo x (ix2 (0 : Fin 1) q) = xo (ix2 (0 : Fin 1) q) + ∑ k : Fin 8000, x (ix2 k q) := by
  unfold k6_pay2
  refine congrArg₂ (· + ·) (congrFun (shapeCast_self xo _) _) ?_
  refine (shapeCast_a_1a_apply _ _ (0 : Fin 1) q).trans ?_
  refine (Ideal.multiReduction_add_single _ 0x00000000#32 reduces_S8000x64_S64 (.inl rfl) rfl (ix1 q)).trans ?_
  refine Finset.sum_congr rfl fun k _ => ?_
  exact (congrFun (shapeCast_self x _) _).trans (congrArg x (lift6 q k))

/-! ## The tiles of the array -/

section Region

variable (V : (c : Dev nD) → (b : Ref sig .tc) → Buf (Elt Ideal) ((c : Thread nD τ).loc b))

/-- Tile `t` starts at row `8000 * t` and at feature 0. -/
theorem idx6 : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)

/-- Column `q` of the array the pool reads, as a function of the row. -/
def col6 (c : Dev nD) (q : Fin 64) : Fin 200000 → EReal :=
  fun r => (V c (Pipeline.arrRef spec6 0) : S200000x64.Idx → EReal) (ix2 r q)

/-- Row `k` of tile `t` is row `8000 * t + k` of the array. -/
theorem iblk6_apply (c : Dev nD) (t : Fin cfg6.N) (k : Fin 8000) (q : Fin 64) (hk : 8000 * t.val + k.val < 200000) :
    (iblk6 V c 0 t : Vec Ideal S8000x64 .f32) (ix2 k q) = col6 V c q ⟨8000 * t.val + k.val, hk⟩ := by
  have hi := idx6 t
  unfold iblk6 col6
  rw [View.read_apply]
  show V c main_v175 (((cfg6.win 0).blk t).view.emb (ix2 k q)) = V c main_v175 (ix2 ⟨8000 * t.val + k.val, hk⟩ q)
  refine congrArg (V c main_v175) ?_
  funext a
  apply Fin.ext
  match a with
  | ⟨0, _⟩ => show win6_0.index t 0 * 8000 + 1 * k.val = 8000 * t.val + k.val; rw [hi.1]; omega
  | ⟨1, _⟩ => show win6_0.index t 1 * 64 + 1 * q.val = q.val; rw [hi.2]; omega

/-! ## The running sum -/

/-- One tile: a block that holds at feature `q` the sum of column `q` over the rows before tile `t` is left holding
    the sum over the rows up to the end of tile `t`. -/
theorem step6 (c : Dev nD) (t : Fin cfg6.N) (xo : Vec Ideal S1x64 .f32) (q : Fin 64)
    (hxo : xo (ix2 (0 : Fin 1) q) = TileSum.pre (col6 V c q) (8000 * t.val)) :
    k6_pay2 (F := Ideal) xo (iblk6 V c 0 t) (ix2 (0 : Fin 1) q) = TileSum.pre (col6 V c q) (8000 * t.val + 8000) := by
  have hN : t.val < 25 := lt_of_lt_of_eq t.isLt (show cfg6.N = 25 from N_6)
  refine (pay6_apply xo (iblk6 V c 0 t) q).trans ?_
  rw [hxo]
  refine Eq.trans (congrArg _ (Finset.sum_congr rfl fun k _ => iblk6_apply V c t k q (by omega))) ?_
  exact TileSum.pre_add_tile (col6 V c q) (8000 * t.val) 8000 (by omega)

/-- After tile `n` the block holds at feature `q` the sum of column `q` over the rows below `8000 * (n + 1)`. -/
theorem outsAt6_eq (c : Dev nD) (q : Fin 64) : ∀ (n : ℕ) (h : n < cfg6.N),
    outsAt6 V c n h (ix2 (0 : Fin 1) q) = TileSum.pre (col6 V c q) (8000 * n + 8000)
  | 0, h => by
    have e := congrFun ((outsAt6_A V c ⟨0, h⟩ rfl).trans
      (piece6_A c (grid6.coords ⟨0, h⟩) (ms6_0 ⟨0, h⟩) (hs6_0 ⟨0, h⟩) (ms6_1 ⟨0, h⟩) (hs6_1 ⟨0, h⟩)
        ((hcond6_0 ⟨0, h⟩).mpr rfl) (iblk6 V c 0 ⟨0, h⟩))) (ix2 (0 : Fin 1) q)
    refine e.trans ?_
    exact step6 V c ⟨0, h⟩ (k6_pay1 (F := Ideal)) q ((pay6_zero _).trans (TileSum.pre_zero _).symm)
  | n + 1, h => by
    have hN : cfg6.N = 25 := N_6
    have hB : ¬(⟨n + 1, h⟩ : Fin cfg6.N).val % 25 = 0 := by dsimp only; omega
    have e := congrFun ((outsAt6_B V c ⟨n + 1, h⟩ hB).trans
      (piece6_B c (grid6.coords ⟨n + 1, h⟩) (ms6_0 ⟨n + 1, h⟩) (hs6_0 ⟨n + 1, h⟩) (ms6_1 ⟨n + 1, h⟩) (hs6_1 ⟨n + 1, h⟩)
        (fun hh => hB ((hcond6_0 ⟨n + 1, h⟩).mp hh)) (iblk6 V c 0 ⟨n + 1, h⟩)
        (outsAt6 V c n (Nat.lt_of_succ_lt h)))) (ix2 (0 : Fin 1) q)
    refine e.trans ?_
    exact step6 V c ⟨n + 1, h⟩ (outsAt6 V c n (Nat.lt_of_succ_lt h)) q (outsAt6_eq c q n (Nat.lt_of_succ_lt h))

/-! ## The array after the call -/

/-- The last tile. -/
def last6 : Fin cfg6.N := ⟨24, by rw [show cfg6.N = 25 from N_6]; decide⟩

/-- After the last tile the block is the column sums of the whole array. -/
theorem result6 (c : Dev nD) :
    (outsAt6 V c last6.val last6.isLt : S1x64.Idx → EReal) = Sage.colSum (V c (Pipeline.arrRef spec6 0)) := by
  funext j
  obtain ⟨u, q, rfl⟩ : ∃ (u : Fin 1) (q : Fin 64), j = ix2 u q := ⟨j 0, j 1, eq_ix2 j⟩
  obtain rfl : u = 0 := Subsingleton.elim _ _
  refine (outsAt6_eq V c q 24 last6.isLt).trans ?_
  exact (TileSum.sum_univ_eq_pre (col6 V c q)).symm

/-- The one write-back, after the last tile, writes the column sums: the block is the whole [1, 64] array. -/
theorem flushed6_eq (c : Dev nD) (t : Fin cfg6.N) (hf : (cfg6.win 1).flush t = true) :
    (dat6 V c).flushed 1 t
      = ((cfg6.win 1).blk t).view.read (Elt Ideal) (Sage.colSum (V c (Pipeline.arrRef spec6 0))) := by
  have hN : cfg6.N = 25 := N_6
  have h24 : t.val = 24 := by have := (flush6_1 t).mp hf; have := t.isLt; omega
  obtain rfl : t = last6 := Fin.ext h24
  show (cfg6.win 1).cut (grid6.coords last6) ((dat6 V c).after 1 last6) = _
  rw [after6_1, result6]
  have hz' : (fun a => win6_1.index last6 a * main_v184.ty.shape.size a) = fun _ => 0 :=
    funext fun a => by fin_cases a <;> decide
  exact (Memref.read_access_unit_zero (Elt Ideal) main_v184 hz' (fun a => by rw [congrFun hz' a]; simp)
    (Sage.colSum (V c (Pipeline.arrRef spec6 0)))).symm

/-- The pooled array after the call: the rows of the [200000, 64] array added up, feature by feature. -/
theorem out6 (c : Dev nD) :
    (dat6 (F := Ideal) V c).arrAt 1 cfg6.N = Sage.colSum (V c (Pipeline.arrRef spec6 0)) :=
  (dat6 V c).arrAt_eq_of_cover 1 (Sage.colSum (V c (Pipeline.arrRef spec6 0))) (flushed6_eq V c) fun i =>
    ⟨last6, (flush6_1 last6).mpr rfl, by
      show i ∈ ((View.whole main_v184).slice (win6_1.rect last6)).set
      rw [View.set_slice_whole, Rect.mem_set_unit]
      intro a
      have h0 : (i 0 : Nat) < 1 := (i 0).isLt
      have h1 : (i 1 : Nat) < 64 := (i 1).isLt
      match a with
      | ⟨0, _⟩ =>
        show win6_1.index last6 0 * win6_1.size 0 ≤ (i 0 : Nat)
          ∧ (i 0 : Nat) < win6_1.index last6 0 * win6_1.size 0 + win6_1.xsize (grid6.coords last6) 0
        rw [show win6_1.index last6 0 * win6_1.size 0 = 0 from by decide +kernel,
          show win6_1.xsize (grid6.coords last6) 0 = 1 from by decide +kernel]
        omega
      | ⟨1, _⟩ =>
        show win6_1.index last6 1 * win6_1.size 1 ≤ (i 1 : Nat)
          ∧ (i 1 : Nat) < win6_1.index last6 1 * win6_1.size 1 + win6_1.xsize (grid6.coords last6) 1
        rw [show win6_1.index last6 1 * win6_1.size 1 = 0 from by decide +kernel,
          show win6_1.xsize (grid6.coords last6) 1 = 64 from by decide +kernel]
        omega⟩

end Region

end Cert.KernelIdeal.Val
-- ==== Proof.Region7.lean ====
/-
  The sum pool of the [50000, 64] features (the eighth kernel call of the program).

  The call walks the 5 row tiles of 10000 rows.  Its output block [1, 64] never moves: at the first tile it is set
  to zero, and at every tile the rows of the tile, added up feature by feature, are added to it; it is written back
  once, after the last tile.  So after tile `n` the block holds, at feature `q`, the sum of column `q` over the rows
  below `10000 * (n + 1)` — by induction on the tile, with `0 + x = x` and nothing else of the extended reals than
  that their addition is commutative and associative — and after the last tile that is the sum over all 50000 rows.
-/
import proofs.«130111_j37838661877859_1_alg».proof.Proof.Gen.KernelIdeal.Frame
import proofs.«130111_j37838661877859_1_alg».proof.Proof.Spec
import proofs.«130111_j37838661877859_1_alg».proof.Proof.TileSum
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-! ## What one tile leaves in the output block, for any float values -/

section Pieces

variable {F : FTy → Type} [FloatOps F]

theorem hz7 : (![0, 0] : Fin 2 → Nat) = fun _ => 0 := funext fun a => by fin_cases a <;> rfl

/-- A tile that is not the first: the block, holding `xo`, is overwritten by the stored value computed from `xo`
    and the tile `x`. -/
theorem piece7_B (c : Dev nD) (i : grid7.Coords) (a1 : Memref sig .tc .vmem S10000x64 .f32) (h1 : a1.IsWhole)
    (a2 : Memref sig .tc .vmem S1x64 .f32) (h2 : a2.IsWhole) (hc : ¬cond7_0 i) (x : Vec F S10000x64 .f32)
    (xo : Vec F S1x64 .f32) : out7_B_1 c i a1 h1 a2 h2 hc x xo = k7_pay2 xo x := by
  unfold out7_B_1
  rw [View.read_writes_eq_canon _ _ _ (cover7_B_1 c i a1 h1 a2 h2 hc x xo)]
  unfold kernelRun7_B
  dsimp only
  rw [View.canon_unit_zero (S := S1x64) hz7]
  simp only [View.readAt_eq_ld, h1.read_unread, h2.read_unread, View.ld_unit_zero (S := S10000x64) hz7,
    View.ld_unit_zero (S := S1x64) hz7]

/-- The first tile: the block is set to the zero block, read back, and overwritten by the stored value computed
    from the zero block and the tile `x`. -/
theorem piece7_A (c : Dev nD) (i : grid7.Coords) (a1 : Memref sig .tc .vmem S10000x64 .f32) (h1 : a1.IsWhole)
    (a2 : Memref sig .tc .vmem S1x64 .f32) (h2 : a2.IsWhole) (hc : cond7_0 i) (x : Vec F S10000x64 .f32) :
    out7_A_1 c i a1 h1 a2 h2 hc x = k7_pay2 (k7_pay1 (F := F)) x := by
  unfold out7_A_1
  rw [View.read_writes_eq_canon _ _ _ (cover7_A_1 c i a1 h1 a2 h2 hc x)]
  unfold kernelRun7_A
  dsimp only
  sl_unfold_words
  rw [View.canon_cons_unit_zero (S := S1x64) hz7, View.readCov_unit_zero (S := S1x64) _ hz7]
  simp only [View.readAt_eq_ld, h1.read_unread, View.ld_unit_zero (S := S10000x64) hz7]

end Pieces

/-! ## The stored value at a feature, over the extended reals -/

/-- The row the sum along the rows reads at feature `q` and row `k` of the tile. -/
theorem lift7 (q : Fin 64) (k : Fin 10000) :
    (reduces_S10000x64_S64.lift (ix1 q) k : S10000x64.Idx) = ix2 k q := by
  funext a
  match a with
  | ⟨0, _⟩ => rfl
  | ⟨1, _⟩ => rfl

/-- The zero block is zero at every feature. -/
theorem pay7_zero (j : S1x64.Idx) : k7_pay1 (F := Ideal) j = 0 := by
  unfold k7_pay1
  exact Ideal.ofBits_zero_f32

/-- The stored value at feature `q`: what the block held there, plus the tile's column `q` added up. -/
theorem pay7_apply (xo : Vec Ideal S1x64 .f32) (x : Vec Ideal S10000x64 .f32) (q : Fin 64) :
    k7_pay2 (F := Ideal) xo x (ix2 (0 : Fin 1) q) = xo (ix2 (0 : Fin 1) q) + ∑ k : Fin 10000, x (ix2 k q) := by
  unfold k7_pay2
  refine congrArg₂ (· + ·) (congrFun (shapeCast_self xo _) _) ?_
  refine (shapeCast_a_1a_apply _ _ (0 : Fin 1) q).trans ?_
  refine (Ideal.multiReduction_add_single _ 0x00000000#32 reduces_S10000x64_S64 (.inl rfl) rfl (ix1 q)).trans ?_
  refine Finset.sum_congr rfl fun k _ => ?_
  exact (congrFun (shapeCast_self x _) _).trans (congrArg x (lift7 q k))

/-! ## The tiles of the array -/

section Region

variable (V : (c : Dev nD) → (b : Ref sig .tc) → Buf (Elt Ideal) ((c : Thread nD τ).loc b))

/-- Tile `t` starts at row `10000 * t` and at feature 0. -/
theorem idx7 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

/-- Column `q` of the array the pool reads, as a function of the row. -/
def col7 (c : Dev nD) (q : Fin 64) : Fin 50000 → EReal :=
  fun r => (V c (Pipeline.arrRef spec7 0) : S50000x64.Idx → EReal) (ix2 r q)

/-- Row `k` of tile `t` is row `10000 * t + k` of the array. -/
theorem iblk7_apply (c : Dev nD) (t : Fin cfg7.N) (k : Fin 10000) (q : Fin 64) (hk : 10000 * t.val + k.val < 50000) :
    (iblk7 V c 0 t : Vec Ideal S10000x64 .f32) (ix2 k q) = col7 V c q ⟨10000 * t.val + k.val, hk⟩ := by
  have hi := idx7 t
  unfold iblk7 col7
  rw [View.read_apply]
  show V c main_v183 (((cfg7.win 0).blk t).view.emb (ix2 k q)) = V c main_v183 (ix2 ⟨10000 * t.val + k.val, hk⟩ q)
  refine congrArg (V c main_v183) ?_
  funext a
  apply Fin.ext
  match a with
  | ⟨0, _⟩ => show win7_0.index t 0 * 10000 + 1 * k.val = 10000 * t.val + k.val; rw [hi.1]; omega
  | ⟨1, _⟩ => show win7_0.index t 1 * 64 + 1 * q.val = q.val; rw [hi.2]; omega

/-! ## The running sum -/

/-- One tile: a block that holds at feature `q` the sum of column `q` over the rows before tile `t` is left holding
    the sum over the rows up to the end of tile `t`. -/
theorem step7 (c : Dev nD) (t : Fin cfg7.N) (xo : Vec Ideal S1x64 .f32) (q : Fin 64)
    (hxo : xo (ix2 (0 : Fin 1) q) = TileSum.pre (col7 V c q) (10000 * t.val)) :
    k7_pay2 (F := Ideal) xo (iblk7 V c 0 t) (ix2 (0 : Fin 1) q) = TileSum.pre (col7 V c q) (10000 * t.val + 10000) := by
  have hN : t.val < 5 := lt_of_lt_of_eq t.isLt (show cfg7.N = 5 from N_7)
  refine (pay7_apply xo (iblk7 V c 0 t) q).trans ?_
  rw [hxo]
  refine Eq.trans (congrArg _ (Finset.sum_congr rfl fun k _ => iblk7_apply V c t k q (by omega))) ?_
  exact TileSum.pre_add_tile (col7 V c q) (10000 * t.val) 10000 (by omega)

/-- After tile `n` the block holds at feature `q` the sum of column `q` over the rows below `10000 * (n + 1)`. -/
theorem outsAt7_eq (c : Dev nD) (q : Fin 64) : ∀ (n : ℕ) (h : n < cfg7.N),
    outsAt7 V c n h (ix2 (0 : Fin 1) q) = TileSum.pre (col7 V c q) (10000 * n + 10000)
  | 0, h => by
    have e := congrFun ((outsAt7_A V c ⟨0, h⟩ rfl).trans
      (piece7_A c (grid7.coords ⟨0, h⟩) (ms7_0 ⟨0, h⟩) (hs7_0 ⟨0, h⟩) (ms7_1 ⟨0, h⟩) (hs7_1 ⟨0, h⟩)
        ((hcond7_0 ⟨0, h⟩).mpr rfl) (iblk7 V c 0 ⟨0, h⟩))) (ix2 (0 : Fin 1) q)
    refine e.trans ?_
    exact step7 V c ⟨0, h⟩ (k7_pay1 (F := Ideal)) q ((pay7_zero _).trans (TileSum.pre_zero _).symm)
  | n + 1, h => by
    have hN : cfg7.N = 5 := N_7
    have hB : ¬(⟨n + 1, h⟩ : Fin cfg7.N).val % 5 = 0 := by dsimp only; omega
    have e := congrFun ((outsAt7_B V c ⟨n + 1, h⟩ hB).trans
      (piece7_B c (grid7.coords ⟨n + 1, h⟩) (ms7_0 ⟨n + 1, h⟩) (hs7_0 ⟨n + 1, h⟩) (ms7_1 ⟨n + 1, h⟩) (hs7_1 ⟨n + 1, h⟩)
        (fun hh => hB ((hcond7_0 ⟨n + 1, h⟩).mp hh)) (iblk7 V c 0 ⟨n + 1, h⟩)
        (outsAt7 V c n (Nat.lt_of_succ_lt h)))) (ix2 (0 : Fin 1) q)
    refine e.trans ?_
    exact step7 V c ⟨n + 1, h⟩ (outsAt7 V c n (Nat.lt_of_succ_lt h)) q (outsAt7_eq c q n (Nat.lt_of_succ_lt h))

/-! ## The array after the call -/

/-- The last tile. -/
def last7 : Fin cfg7.N := ⟨4, by rw [show cfg7.N = 5 from N_7]; decide⟩

/-- After the last tile the block is the column sums of the whole array. -/
theorem result7 (c : Dev nD) :
    (outsAt7 V c last7.val last7.isLt : S1x64.Idx → EReal) = Sage.colSum (V c (Pipeline.arrRef spec7 0)) := by
  funext j
  obtain ⟨u, q, rfl⟩ : ∃ (u : Fin 1) (q : Fin 64), j = ix2 u q := ⟨j 0, j 1, eq_ix2 j⟩
  obtain rfl : u = 0 := Subsingleton.elim _ _
  refine (outsAt7_eq V c q 4 last7.isLt).trans ?_
  exact (TileSum.sum_univ_eq_pre (col7 V c q)).symm

/-- The one write-back, after the last tile, writes the column sums: the block is the whole [1, 64] array. -/
theorem flushed7_eq (c : Dev nD) (t : Fin cfg7.N) (hf : (cfg7.win 1).flush t = true) :
    (dat7 V c).flushed 1 t
      = ((cfg7.win 1).blk t).view.read (Elt Ideal) (Sage.colSum (V c (Pipeline.arrRef spec7 0))) := by
  have hN : cfg7.N = 5 := N_7
  have h24 : t.val = 4 := by have := (flush7_1 t).mp hf; have := t.isLt; omega
  obtain rfl : t = last7 := Fin.ext h24
  show (cfg7.win 1).cut (grid7.coords last7) ((dat7 V c).after 1 last7) = _
  rw [after7_1, result7]
  have hz' : (fun a => win7_1.index last7 a * main_v185.ty.shape.size a) = fun _ => 0 :=
    funext fun a => by fin_cases a <;> decide
  exact (Memref.read_access_unit_zero (Elt Ideal) main_v185 hz' (fun a => by rw [congrFun hz' a]; simp)
    (Sage.colSum (V c (Pipeline.arrRef spec7 0)))).symm

/-- The pooled array after the call: the rows of the [50000, 64] array added up, feature by feature. -/
theorem out7 (c : Dev nD) :
    (dat7 (F := Ideal) V c).arrAt 1 cfg7.N = Sage.colSum (V c (Pipeline.arrRef spec7 0)) :=
  (dat7 V c).arrAt_eq_of_cover 1 (Sage.colSum (V c (Pipeline.arrRef spec7 0))) (flushed7_eq V c) fun i =>
    ⟨last7, (flush7_1 last7).mpr rfl, by
      show i ∈ ((View.whole main_v185).slice (win7_1.rect last7)).set
      rw [View.set_slice_whole, Rect.mem_set_unit]
      intro a
      have h0 : (i 0 : Nat) < 1 := (i 0).isLt
      have h1 : (i 1 : Nat) < 64 := (i 1).isLt
      match a with
      | ⟨0, _⟩ =>
        show win7_1.index last7 0 * win7_1.size 0 ≤ (i 0 : Nat)
          ∧ (i 0 : Nat) < win7_1.index last7 0 * win7_1.size 0 + win7_1.xsize (grid7.coords last7) 0
        rw [show win7_1.index last7 0 * win7_1.size 0 = 0 from by decide +kernel,
          show win7_1.xsize (grid7.coords last7) 0 = 1 from by decide +kernel]
        omega
      | ⟨1, _⟩ =>
        show win7_1.index last7 1 * win7_1.size 1 ≤ (i 1 : Nat)
          ∧ (i 1 : Nat) < win7_1.index last7 1 * win7_1.size 1 + win7_1.xsize (grid7.coords last7) 1
        rw [show win7_1.index last7 1 * win7_1.size 1 = 0 from by decide +kernel,
          show win7_1.xsize (grid7.coords last7) 1 = 64 from by decide +kernel]
        omega⟩

end Region

end Cert.KernelIdeal.Val
-- ==== Proof.KernelValue.lean ====
/-
  The idealized kernel's whole run, with its result as the network's function of the arguments.

  The program's run ends with the result array at what the seventeen segments leave there.  Each of the eight
  launches leaves in its output array the layer it computes — two projections, two combinations of three relations,
  two combinations of two relations, two sum pools — as a function of the arrays it reads, and the host stretches
  between them compute the neighbourhood means and the classifier; composed, the result array holds the network's
  function of the argument arrays.  The precondition makes every float argument's entries real numbers, which the
  neighbourhood means need.
-/
import proofs.«130111_j37838661877859_1_alg».proof.Defs
import proofs.«130111_j37838661877859_1_alg».proof.Proof.Gen.Pre_finite_inputs
import proofs.«130111_j37838661877859_1_alg».proof.Proof.PreReal
import proofs.«130111_j37838661877859_1_alg».proof.Proof.KernelRun
import proofs.«130111_j37838661877859_1_alg».proof.Proof.KNet
import proofs.«130111_j37838661877859_1_alg».proof.Proof.Region0
import proofs.«130111_j37838661877859_1_alg».proof.Proof.Region1
import proofs.«130111_j37838661877859_1_alg».proof.Proof.Region2
import proofs.«130111_j37838661877859_1_alg».proof.Proof.Region3
import proofs.«130111_j37838661877859_1_alg».proof.Proof.Region4
import proofs.«130111_j37838661877859_1_alg».proof.Proof.Region5
import proofs.«130111_j37838661877859_1_alg».proof.Proof.Region6
import proofs.«130111_j37838661877859_1_alg».proof.Proof.Region7

set_option maxRecDepth 16384

noncomputable section

namespace Cert.KernelIdeal.Val

open Idealize.ShloMosaic Idealize.ShloMosaic.TcCoe Idealize.SL.Sem
open Cert.KernelIdeal Cert.KernelIdeal.Gen

/-- THE KERNEL'S VALUE: under the precondition every weakly fair execution of the program terminates, nothing
    faulting, with the result array at the network's function of the argument arrays and every argument array as
    launched. -/
theorem value (m : (ℓ : Loc nD τ sig) → Buf (Elt Ideal) ℓ) (ρ : Dev nD → PrngReg)
    (hpre : @Cert.Pre_KernelIdeal Cert.Pre_finite_inputs.Gen.facts m) :
    θ_run (defs (F := Ideal)) (onTc (τ := τ) (main (F := Ideal))) ⟨m, fun _ => 0, ρ⟩ (fun r => ∀ c : Dev nD,
      r.2.mem ((c.tc : Thread nD τ).loc main_v199)
        = Cert.KernelIdeal.Model.net (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14)) (m ((c.tc : Thread nD τ).loc main_arg15))
            (m ((c.tc : Thread nD τ).loc main_arg16)) (m ((c.tc : Thread nD τ).loc main_arg17)) (m ((c.tc : Thread nD τ).loc main_arg18)) (m ((c.tc : Thread nD τ).loc main_arg19))
            (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  refine (θ_run defs _ _).mono (fun r h c => ?_) (run (F := Ideal) m ρ)
  obtain ⟨r0, r1, r2, r3, r4, r5, r6, r7, r8, -, -, -, r12, r13, r14, -⟩ :=
    @Cert.Pre_finite_inputs.Real.real_of_pre Cert.Pre_finite_inputs.Gen.facts
      (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) (m ((c.tc : Thread nD τ).loc main_arg15))
      (m ((c.tc : Thread nD τ).loc main_arg16)) (m ((c.tc : Thread nD τ).loc main_arg17)) (m ((c.tc : Thread nD τ).loc main_arg18)) (m ((c.tc : Thread nD τ).loc main_arg19))
      (m ((c.tc : Thread nD τ).loc main_arg20)) (m ((c.tc : Thread nD τ).loc main_arg21)) (hpre c)
  exact ⟨(h c).1.trans
    (kernel_net m ρ c out0 out1 out2 out3 out4 out5 out6 out7 r0 r1 r2 r3 r4 r5 r6 r7 r8 r12 r13 r14), (h c).2⟩

end Cert.KernelIdeal.Val

end
-- ==== Proof.RStages.lean ====
/-
  The reference program, stage by stage, as the network's function.

  Each dense stage of the reference — a contraction with a transposed weight matrix, bias rows broadcast down the
  rows, the clamp at zero — is the layer's entrywise function; its mean aggregations and its classifier are the very
  operations the network's function is written with; a column sum broadcast to one row is the sum of the rows.
-/
import proofs.«130111_j37838661877859_1_alg».proof.Proof.RefRead
import proofs.«130111_j37838661877859_1_alg».proof.Proof.Net
import Idealize.ShloMosaic.Lib.ReduceAll

set_option maxRecDepth 16384

noncomputable section

open scoped BigOperators

namespace Cert.ReferenceIdeal.Stages

open Cert.ReferenceIdeal Idealize.ShloMosaic Idealize.ShloMosaic.ValueIdx Sage

variable (x0 : (⟨S200000x128, .f32⟩ : BufTy).Contents (Elt Ideal)) (x1 : (⟨S50000x64, .f32⟩ : BufTy).Contents (Elt Ideal)) (x2 : (⟨S64x128, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S2x64x64, .f32⟩ : BufTy).Contents (Elt Ideal)) (x7 : (⟨S2x64, .f32⟩ : BufTy).Contents (Elt Ideal)) (x8 : (⟨S2x64x64, .f32⟩ : BufTy).Contents (Elt Ideal)) (x9 : (⟨S2x64x64, .f32⟩ : BufTy).Contents (Elt Ideal)) (x10 : (⟨S2x64, .f32⟩ : BufTy).Contents (Elt Ideal)) (x11 : (⟨S2x64x64, .f32⟩ : BufTy).Contents (Elt Ideal)) (x12 : (⟨S2x64x64, .f32⟩ : BufTy).Contents (Elt Ideal)) (x13 : (⟨S2x64, .f32⟩ : BufTy).Contents (Elt Ideal)) (x14 : (⟨S2x64x64, .f32⟩ : BufTy).Contents (Elt Ideal)) (x15 : (⟨S64x128, .f32⟩ : BufTy).Contents (Elt Ideal)) (x16 : (⟨S64, .f32⟩ : BufTy).Contents (Elt Ideal)) (x17 : (⟨S2x64, .f32⟩ : BufTy).Contents (Elt Ideal)) (x18 : (⟨S2, .f32⟩ : BufTy).Contents (Elt Ideal)) (x19 : (⟨S2x400000, .i32⟩ : BufTy).Contents (Elt Ideal)) (x20 : (⟨S2x400000, .i32⟩ : BufTy).Contents (Elt Ideal)) (x21 : (⟨S2x400000, .i32⟩ : BufTy).Contents (Elt Ideal))

theorem plain {M K N : ℕ} (d : DotDims (⟨2, ![M, K]⟩ : Shape) (⟨2, ![K, N]⟩ : Shape) (⟨2, ![M, N]⟩ : Shape))
    (lc : d.lhsContracting = [1]) (rc : d.rhsContracting = [0]) (ln : d.lhsNonContracting = [0])
    (rn : d.rhsNonContracting = [1]) (lb : d.lhsBatch = []) (rb : d.rhsBatch = []) : PlainMatmul.IsPlain d :=
  ⟨lc, rc, ln, rn, lb, rb⟩

/-- The func projection. -/
theorem r5 : (Read.val_main_v5 (F := Ideal) x0 x2 x3) = Cert.KernelIdeal.Model.hf0 x0 x2 x3 := by
  funext i
  simp only [Read.val_main_v5, Read.val_main_v4, Read.val_main_v3, Read.val_main_v2, Read.val_main_v1, Read.val_main_v0, Read.val_main_call0_v0, Read.val_main_call0_cst]
  rw [Sage.relu0, addf_apply, Sage.rowBias, Sage.transpose_tr, Sage.dot_mm (plain dot_S200000x128_S128x64_S200000x64_1_0_0_1_n_n rfl rfl rfl rfl rfl rfl)]
  rfl

/-- The api projection. -/
theorem r11 : (Read.val_main_v11 (F := Ideal) x1 x4 x5) = Cert.KernelIdeal.Model.ha0 x1 x4 x5 := by
  funext i
  simp only [Read.val_main_v11, Read.val_main_v10, Read.val_main_v9, Read.val_main_v8, Read.val_main_v7, Read.val_main_v6, Read.val_main_call1_v0, Read.val_main_call1_cst]
  rw [Sage.relu0, addf_apply, Sage.rowBias, Sage.transpose_tr, Sage.dot_mm (plain dot_S50000x64_S64x64_S50000x64_1_0_0_1_n_n rfl rfl rfl rfl rfl rfl)]
  rfl

/-- The mean aggregations of the first round are the host's operations on the projected features. -/
theorem r33 : (Read.val_main_v33 (F := Ideal) x0 x2 x3 x19) = Cert.KernelIdeal.Model.aggFF (Read.val_main_v5 (F := Ideal) x0 x2 x3) x19 := rfl
theorem r55 : (Read.val_main_v55 (F := Ideal) x1 x4 x5 x21) = Cert.KernelIdeal.Model.aggAF (Read.val_main_v11 (F := Ideal) x1 x4 x5) x21 := rfl
theorem r106 : (Read.val_main_v106 (F := Ideal) x0 x2 x3 x20) = Cert.KernelIdeal.Model.aggFA (Read.val_main_v5 (F := Ideal) x0 x2 x3) x20 := rfl

/-- A func node's update as the reference adds it. -/
theorem r121 : (Read.val_main_v121 (F := Ideal) x0 x1 x2 x3 x4 x5 x6 x7 x8 x12 x13 x14 x19 x21)
    = comb3r (Read.val_main_v33 (F := Ideal) x0 x2 x3 x19) (Read.val_main_v55 (F := Ideal) x1 x4 x5 x21) (Read.val_main_v5 (F := Ideal) x0 x2 x3) (Cert.KernelIdeal.Model.w0 x6) (Cert.KernelIdeal.Model.w0 x12) (Cert.KernelIdeal.Model.w0 x8) (Cert.KernelIdeal.Model.w0 x14)
        (row (Cert.KernelIdeal.Model.b0 x7)) (row (Cert.KernelIdeal.Model.b0 x13)) := by
  have hd : PlainMatmul.IsPlain dot_S200000x64_S64x64_S200000x64_1_0_0_1_n_n := ⟨rfl, rfl, rfl, rfl, rfl, rfl⟩
  funext i
  simp only [Read.val_main_v121, Read.val_main_v84, Read.val_main_v79, Read.val_main_v74, Read.val_main_v69, Read.val_main_v64, Read.val_main_v59, Read.val_main_v58, Read.val_main_v63, Read.val_main_v62, Read.val_main_v68, Read.val_main_v67, Read.val_main_v73, Read.val_main_v72, Read.val_main_v78, Read.val_main_v77, Read.val_main_v83, Read.val_main_v82, Read.val_main_call2_v0, Read.val_main_call2_cst]
  rw [Sage.relu0]
  simp only [addf_apply, Sage.rowBias, Sage.transpose_tr, Sage.dot_mm hd]
  rfl

/-- An api node's update as the reference adds it. -/
theorem r122 : (Read.val_main_v122 (F := Ideal) x0 x1 x2 x3 x4 x5 x9 x10 x11 x20)
    = comb2r (Read.val_main_v106 (F := Ideal) x0 x2 x3 x20) (Read.val_main_v11 (F := Ideal) x1 x4 x5) (Cert.KernelIdeal.Model.w0 x9) (Cert.KernelIdeal.Model.w0 x11) (row (Cert.KernelIdeal.Model.b0 x10)) := by
  have hd : PlainMatmul.IsPlain dot_S50000x64_S64x64_S50000x64_1_0_0_1_n_n := ⟨rfl, rfl, rfl, rfl, rfl, rfl⟩
  funext i
  simp only [Read.val_main_v122, Read.val_main_v120, Read.val_main_v115, Read.val_main_v110, Read.val_main_v109, Read.val_main_v114, Read.val_main_v113, Read.val_main_v119, Read.val_main_v118, Read.val_main_call3_v0, Read.val_main_call3_cst]
  rw [Sage.relu0]
  simp only [addf_apply, Sage.rowBias, Sage.transpose_tr, Sage.dot_mm hd]
  rfl

/-- The mean aggregations of the second round. -/
theorem r144 : (Read.val_main_v144 (F := Ideal) x0 x1 x2 x3 x4 x5 x6 x7 x8 x12 x13 x14 x19 x21) = Cert.KernelIdeal.Model.aggFF (Read.val_main_v121 (F := Ideal) x0 x1 x2 x3 x4 x5 x6 x7 x8 x12 x13 x14 x19 x21) x19 := rfl
theorem r166 : (Read.val_main_v166 (F := Ideal) x0 x1 x2 x3 x4 x5 x9 x10 x11 x20 x21) = Cert.KernelIdeal.Model.aggAF (Read.val_main_v122 (F := Ideal) x0 x1 x2 x3 x4 x5 x9 x10 x11 x20) x21 := rfl
theorem r217 : (Read.val_main_v217 (F := Ideal) x0 x1 x2 x3 x4 x5 x6 x7 x8 x12 x13 x14 x19 x20 x21) = Cert.KernelIdeal.Model.aggFA (Read.val_main_v121 (F := Ideal) x0 x1 x2 x3 x4 x5 x6 x7 x8 x12 x13 x14 x19 x21) x20 := rfl

/-- A func node's update as the reference adds it. -/
theorem r232 : (Read.val_main_v232 (F := Ideal) x0 x1 x2 x3 x4 x5 x6 x7 x8 x9 x10 x11 x12 x13 x14 x19 x20 x21)
    = comb3r (Read.val_main_v144 (F := Ideal) x0 x1 x2 x3 x4 x5 x6 x7 x8 x12 x13 x14 x19 x21) (Read.val_main_v166 (F := Ideal) x0 x1 x2 x3 x4 x5 x9 x10 x11 x20 x21) (Read.val_main_v121 (F := Ideal) x0 x1 x2 x3 x4 x5 x6 x7 x8 x12 x13 x14 x19 x21) (Cert.KernelIdeal.Model.w1 x6) (Cert.KernelIdeal.Model.w1 x12) (Cert.KernelIdeal.Model.w1 x8) (Cert.KernelIdeal.Model.w1 x14)
        (row (Cert.KernelIdeal.Model.b1 x7)) (row (Cert.KernelIdeal.Model.b1 x13)) := by
  have hd : PlainMatmul.IsPlain dot_S200000x64_S64x64_S200000x64_1_0_0_1_n_n := ⟨rfl, rfl, rfl, rfl, rfl, rfl⟩
  funext i
  simp only [Read.val_main_v232, Read.val_main_v195, Read.val_main_v190, Read.val_main_v185, Read.val_main_v180, Read.val_main_v175, Read.val_main_v170, Read.val_main_v169, Read.val_main_v174, Read.val_main_v173, Read.val_main_v179, Read.val_main_v178, Read.val_main_v184, Read.val_main_v183, Read.val_main_v189, Read.val_main_v188, Read.val_main_v194, Read.val_main_v193, Read.val_main_call4_v0, Read.val_main_call4_cst]
  rw [Sage.relu0]
  simp only [addf_apply, Sage.rowBias, Sage.transpose_tr, Sage.dot_mm hd]
  rfl

/-- An api node's update as the reference adds it. -/
theorem r233 : (Read.val_main_v233 (F := Ideal) x0 x1 x2 x3 x4 x5 x6 x7 x8 x9 x10 x11 x12 x13 x14 x19 x20 x21)
    = comb2r (Read.val_main_v217 (F := Ideal) x0 x1 x2 x3 x4 x5 x6 x7 x8 x12 x13 x14 x19 x20 x21) (Read.val_main_v122 (F := Ideal) x0 x1 x2 x3 x4 x5 x9 x10 x11 x20) (Cert.KernelIdeal.Model.w1 x9) (Cert.KernelIdeal.Model.w1 x11) (row (Cert.KernelIdeal.Model.b1 x10)) := by
  have hd : PlainMatmul.IsPlain dot_S50000x64_S64x64_S50000x64_1_0_0_1_n_n := ⟨rfl, rfl, rfl, rfl, rfl, rfl⟩
  funext i
  simp only [Read.val_main_v233, Read.val_main_v231, Read.val_main_v226, Read.val_main_v221, Read.val_main_v220, Read.val_main_v225, Read.val_main_v224, Read.val_main_v230, Read.val_main_v229, Read.val_main_call5_v0, Read.val_main_call5_cst]
  rw [Sage.relu0]
  simp only [addf_apply, Sage.rowBias, Sage.transpose_tr, Sage.dot_mm hd]
  rfl

/-- The column sums, broadcast to one row, are the rows added up. -/
theorem r235 : (Read.val_main_v235 (F := Ideal) x0 x1 x2 x3 x4 x5 x6 x7 x8 x9 x10 x11 x12 x13 x14 x19 x20 x21) = colSum (Read.val_main_v232 (F := Ideal) x0 x1 x2 x3 x4 x5 x6 x7 x8 x9 x10 x11 x12 x13 x14 x19 x20 x21) := by
  funext i
  obtain ⟨p, q, rfl⟩ : ∃ (p : Fin 1) (q : Fin 64), i = ix2 p q := ⟨i 0, i 1, eq_ix2 i⟩
  rw [Read.val_main_v235_apply, Read.val_main_v234_apply]
  show Ideal.ofBits .f32 0x00000000#32 + _ = ∑ r : Fin 200000, _
  rw [Ideal.ofBits_zero_f32, zero_add]
  refine Finset.sum_congr rfl fun k _ => ?_
  exact congrArg _ (funext fun a => Fin.ext (by match a with | ⟨0, _⟩ => rfl | ⟨1, _⟩ => rfl))

/-- The column sums, broadcast to one row, are the rows added up. -/
theorem r239 : (Read.val_main_v239 (F := Ideal) x0 x1 x2 x3 x4 x5 x6 x7 x8 x9 x10 x11 x12 x13 x14 x19 x20 x21) = colSum (Read.val_main_v233 (F := Ideal) x0 x1 x2 x3 x4 x5 x6 x7 x8 x9 x10 x11 x12 x13 x14 x19 x20 x21) := by
  funext i
  obtain ⟨p, q, rfl⟩ : ∃ (p : Fin 1) (q : Fin 64), i = ix2 p q := ⟨i 0, i 1, eq_ix2 i⟩
  rw [Read.val_main_v239_apply, Read.val_main_v238_apply]
  show Ideal.ofBits .f32 0x00000000#32 + _ = ∑ r : Fin 50000, _
  rw [Ideal.ofBits_zero_f32, zero_add]
  refine Finset.sum_congr rfl fun k _ => ?_
  exact congrArg _ (funext fun a => Fin.ext (by match a with | ⟨0, _⟩ => rfl | ⟨1, _⟩ => rfl))

/-- The classifier is the very operations the network's function ends with. -/
theorem r251 : (Read.val_main_v251 (F := Ideal) x0 x1 x2 x3 x4 x5 x6 x7 x8 x9 x10 x11 x12 x13 x14 x15 x16 x17 x18 x19 x20 x21) = Cert.KernelIdeal.Model.tail (Read.val_main_v235 (F := Ideal) x0 x1 x2 x3 x4 x5 x6 x7 x8 x9 x10 x11 x12 x13 x14 x19 x20 x21) (Read.val_main_v239 (F := Ideal) x0 x1 x2 x3 x4 x5 x6 x7 x8 x9 x10 x11 x12 x13 x14 x19 x20 x21) x15 x16 x17 x18 := rfl

/-- THE REFERENCE'S RESULT is the network's function of the arguments. -/
theorem ref_net : (Read.val_main_v251 (F := Ideal) x0 x1 x2 x3 x4 x5 x6 x7 x8 x9 x10 x11 x12 x13 x14 x15 x16 x17 x18 x19 x20 x21) = Cert.KernelIdeal.Model.net x0 x1 x2 x3 x4 x5 x6 x7 x8 x9 x10 x11 x12 x13 x14 x15 x16 x17 x18 x19 x20 x21 := by
  rw [r251, r235, r239, r232, r233, r144, r166, r217, r121, r122, r33, r55, r106, r5, r11]
  rfl

end Cert.ReferenceIdeal.Stages

end
-- ==== Proof.lean ====
/-
  A two-round heterogeneous graph network (mean aggregation over three relations, dense updates, mean pooling, a
  two-layer classifier), computed by eight kernel launches among host operations, against the same network written
  with host operations only.

  Over the extended reals the two programs compute one function of the argument arrays.  The dense stages agree
  entry by entry: a launch's tile of rows times a transposed weight matrix, plus a bias row, clamped at zero, is the
  reference's contraction, broadcast bias and clamp.  The mean aggregations and the classifier are the same host
  operations in both programs.  The pooling launches add the rows tile by tile, the reference in one sum.  One
  difference needs more than a rearrangement of sums: the kernel adds the two weight matrices that multiply a func
  node's own features before multiplying, and distributing the product over that sum requires the features and the
  matrices to hold real numbers — which the precondition gives for the arguments, and which every stage preserves.
-/
import proofs.«130111_j37838661877859_1_alg».proof.Defs
import proofs.«130111_j37838661877859_1_alg».proof.Proof.Gen.Kernel
import proofs.«130111_j37838661877859_1_alg».proof.Proof.Gen.Kernel.Skeleton
import proofs.«130111_j37838661877859_1_alg».proof.Proof.Gen.Kernel.Launch
import proofs.«130111_j37838661877859_1_alg».proof.Proof.Gen.Kernel.Points
import proofs.«130111_j37838661877859_1_alg».proof.Proof.Gen.Kernel.Frame
import proofs.«130111_j37838661877859_1_alg».proof.Proof.Gen.KernelIdeal
import proofs.«130111_j37838661877859_1_alg».proof.Proof.Gen.KernelIdeal.Skeleton
import proofs.«130111_j37838661877859_1_alg».proof.Proof.Gen.KernelIdeal.Launch
import proofs.«130111_j37838661877859_1_alg».proof.Proof.Gen.KernelIdeal.Points
import proofs.«130111_j37838661877859_1_alg».proof.Proof.Gen.KernelIdeal.Frame
import proofs.«130111_j37838661877859_1_alg».proof.Proof.Gen.ReferenceIdeal
import proofs.«130111_j37838661877859_1_alg».proof.Proof.Gen.Pre_finite_inputs
import proofs.«130111_j37838661877859_1_alg».proof.Proof.RefRead
import proofs.«130111_j37838661877859_1_alg».proof.Proof.KernelValue
import proofs.«130111_j37838661877859_1_alg».proof.Proof.RStages
import Idealize.ShloMosaic.Adequacy
import Idealize.ShloMosaic.Init

set_option maxRecDepth 16384

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the network's function of the (agreeing) argument arrays. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Model.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact Cert.KernelIdeal.Val.value m ρ hpre
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21⟩ := hagree c
    rw [Cert.ReferenceIdeal.Read.val_main_v251_eq, Cert.ReferenceIdeal.Stages.ref_net,
      e0, e1, e2, e3, e4, e5, e6, e7, e8, e9, e10, e11, e12, e13, e14, e15, e16, e17, e18, e19, e20, e21]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
